-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S8x64x512 : Shape := ⟨3, ![8, 64, 512]⟩
abbrev S8 : Shape := ⟨1, ![8]⟩
abbrev S_ : Shape := ⟨0, ![]⟩
abbrev S1x64x512 : Shape := ⟨3, ![1, 64, 512]⟩
abbrev S64x512 : Shape := ⟨2, ![64, 512]⟩
abbrev S1 : Shape := ⟨1, ![1]⟩
abbrev S64 : Shape := ⟨1, ![64]⟩
abbrev S64x1 : Shape := ⟨2, ![64, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .bf16⟩
  | .local _ .vmem, ⟨0, _⟩ => ⟨S1x1024x512, .f32⟩
  | .local _ .vmem, ⟨1, _⟩ => ⟨S512, .f32⟩
  | .local _ .vmem, ⟨2, _⟩ => ⟨S512x512, .bf16⟩
  | .local _ .vmem, ⟨3, _⟩ => ⟨S8x64x512, .bf16⟩
  | .local _ .vmem, ⟨4, _⟩ => ⟨S8x64x512, .bf16⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  { ofTc nBuf bufTy 1 19 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_9 : BitVec 32) : Fin 3 → Nat :=
  let c0 : Index := 0#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let c512_i32 : BitVec 32 := 512#32
  let v18 : BitVec 32 := Scalar.muli v17 c512_i32
  let v19 : BitVec 32 := Scalar.addi v18 c0_i32_9
  let v20 : Index := Scalar.indexCast v19
  let c0_10 : Index := 0#32
  ![0, v20.toNat, 0]
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v27 : BitVec 32 := Scalar.muli v2 c8_i32_18
  let v28 : BitVec 32 := Scalar.addi c0_i32_19 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_20 : BitVec 32 := 4#32
  let v29 : BitVec 32 := Scalar.muli v9 c4_i32_20
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v31 : BitVec 32 := Scalar.muli v8 c1_i32_21
  let v32 : BitVec 32 := Scalar.addi v30 v31
  v32.toNat
def k0_dev3 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v51 : BitVec 32 := Scalar.muli v2 c8_i32_36
  let v52 : BitVec 32 := Scalar.addi c0_i32_37 v51
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_38 : BitVec 32 := 4#32
  let v53 : BitVec 32 := Scalar.muli v9 c4_i32_38
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v55 : BitVec 32 := Scalar.muli v8 c1_i32_39
  let v56 : BitVec 32 := Scalar.addi v54 v55
  v56.toNat
def k0_dev4 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v75 : BitVec 32 := Scalar.muli v2 c8_i32_54
  let v76 : BitVec 32 := Scalar.addi c0_i32_55 v75
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v77 : BitVec 32 := Scalar.muli v9 c4_i32_56
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v79 : BitVec 32 := Scalar.muli v8 c1_i32_57
  let v80 : BitVec 32 := Scalar.addi v78 v79
  v80.toNat
def k0_dev5 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v99 : BitVec 32 := Scalar.muli v2 c8_i32_71
  let v100 : BitVec 32 := Scalar.addi c0_i32_72 v99
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v101 : BitVec 32 := Scalar.muli v9 c4_i32_73
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v103 : BitVec 32 := Scalar.muli v8 c1_i32_74
  let v104 : BitVec 32 := Scalar.addi v102 v103
  v104.toNat
def k0_dev6 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v123 : BitVec 32 := Scalar.muli v2 c8_i32_89
  let v124 : BitVec 32 := Scalar.addi c0_i32_90 v123
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_91 : BitVec 32 := 4#32
  let v125 : BitVec 32 := Scalar.muli v9 c4_i32_91
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v127 : BitVec 32 := Scalar.muli v8 c1_i32_92
  let v128 : BitVec 32 := Scalar.addi v126 v127
  v128.toNat
def k0_dev7 (d0 : Dev nD) : Nat :=
  let c0_i32_107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_106 : BitVec 32 := 8#32
  let v147 : BitVec 32 := Scalar.muli v2 c8_i32_106
  let v148 : BitVec 32 := Scalar.addi c0_i32_107 v147
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_108 : BitVec 32 := 4#32
  let v149 : BitVec 32 := Scalar.muli v9 c4_i32_108
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v151 : BitVec 32 := Scalar.muli v8 c1_i32_109
  let v152 : BitVec 32 := Scalar.addi v150 v151
  v152.toNat
def k0_dev8 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v171 : BitVec 32 := Scalar.muli v2 c8_i32_123
  let v172 : BitVec 32 := Scalar.addi c0_i32_124 v171
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_125 : BitVec 32 := 4#32
  let v173 : BitVec 32 := Scalar.muli v9 c4_i32_125
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v175 : BitVec 32 := Scalar.muli v8 c1_i32_126
  let v176 : BitVec 32 := Scalar.addi v174 v175
  v176.toNat
def k0_dev9 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v195 : BitVec 32 := Scalar.muli v2 c8_i32_140
  let v196 : BitVec 32 := Scalar.addi c0_i32_141 v195
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_142 : BitVec 32 := 4#32
  let v197 : BitVec 32 := Scalar.muli v9 c4_i32_142
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v199 : BitVec 32 := Scalar.muli v8 c1_i32_143
  let v200 : BitVec 32 := Scalar.addi v198 v199
  v200.toNat
def k0_off2 (d0 : Dev nD) (c0_i32_161 : BitVec 32) : Fin 3 → Nat :=
  let c0_162 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_160 : BitVec 32 := 512#32
  let v221 : BitVec 32 := Scalar.muli v5 c512_i32_160
  let v222 : BitVec 32 := Scalar.addi v221 c0_i32_161
  let v223 : Index := Scalar.indexCast v222
  let c0_163 : Index := 0#32
  ![0, v223.toNat, 0]
abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S1x64x512 : 0 < S1x64x512.numel
  shapeCasts_S1x64x512_S64x512 : S1x64x512.ShapeCasts S64x512
  bitsLt_bf16_f32 : FTy.bits .bf16 < FTy.bits .f32
  inb_S8x64x512_S1x64x512_0_0_0 : ∀ a, (![0, 0, 0] : Fin 3 → Nat) a + S1x64x512.size a ≤ S8x64x512.size a
  shapeCasts_S64x512_S1x64x512 : S64x512.ShapeCasts S1x64x512
  packedbf16_S8x64x512_S1x64x512_0_0_0 : (Rect.unit (s := S8x64x512) ![0, 0, 0] S1x64x512.size inb_S8x64x512_S1x64x512_0_0_0).PackedRows (EltTy.packing .bf16)
  inb_S8_S1_0 : ∀ a, (![0] : Fin 1 → Nat) a + S1.size a ≤ S8.size a
  squeezes_S1_S_ : S1.Squeezes S_
  squeezes_S1x64x512_S64x512 : S1x64x512.Squeezes S64x512
  wordsbf16_S8x64x512_S1x64x512_0_0_0 : (Rect.unit (s := S8x64x512) ![0, 0, 0] S1x64x512.size inb_S8x64x512_S1x64x512_0_0_0).WholeWords (EltTy.packing .bf16)
  inb_S8x64x512_S1x64x512_1_0_0 : ∀ a, (![1, 0, 0] : Fin 3 → Nat) a + S1x64x512.size a ≤ S8x64x512.size a
  packedbf16_S8x64x512_S1x64x512_1_0_0 : (Rect.unit (s := S8x64x512) ![1, 0, 0] S1x64x512.size inb_S8x64x512_S1x64x512_1_0_0).PackedRows (EltTy.packing .bf16)
  inb_S8_S1_1 : ∀ a, (![1] : Fin 1 → Nat) a + S1.size a ≤ S8.size a
  wordsbf16_S8x64x512_S1x64x512_1_0_0 : (Rect.unit (s := S8x64x512) ![1, 0, 0] S1x64x512.size inb_S8x64x512_S1x64x512_1_0_0).WholeWords (EltTy.packing .bf16)
  inb_S8x64x512_S1x64x512_2_0_0 : ∀ a, (![2, 0, 0] : Fin 3 → Nat) a + S1x64x512.size a ≤ S8x64x512.size a
  packedbf16_S8x64x512_S1x64x512_2_0_0 : (Rect.unit (s := S8x64x512) ![2, 0, 0] S1x64x512.size inb_S8x64x512_S1x64x512_2_0_0).PackedRows (EltTy.packing .bf16)
  inb_S8_S1_2 : ∀ a, (![2] : Fin 1 → Nat) a + S1.size a ≤ S8.size a
  wordsbf16_S8x64x512_S1x64x512_2_0_0 : (Rect.unit (s := S8x64x512) ![2, 0, 0] S1x64x512.size inb_S8x64x512_S1x64x512_2_0_0).WholeWords (EltTy.packing .bf16)
  inb_S8x64x512_S1x64x512_3_0_0 : ∀ a, (![3, 0, 0] : Fin 3 → Nat) a + S1x64x512.size a ≤ S8x64x512.size a
  packedbf16_S8x64x512_S1x64x512_3_0_0 : (Rect.unit (s := S8x64x512) ![3, 0, 0] S1x64x512.size inb_S8x64x512_S1x64x512_3_0_0).PackedRows (EltTy.packing .bf16)
  inb_S8_S1_3 : ∀ a, (![3] : Fin 1 → Nat) a + S1.size a ≤ S8.size a
  wordsbf16_S8x64x512_S1x64x512_3_0_0 : (Rect.unit (s := S8x64x512) ![3, 0, 0] S1x64x512.size inb_S8x64x512_S1x64x512_3_0_0).WholeWords (EltTy.packing .bf16)
  inb_S8x64x512_S1x64x512_4_0_0 : ∀ a, (![4, 0, 0] : Fin 3 → Nat) a + S1x64x512.size a ≤ S8x64x512.size a
  packedbf16_S8x64x512_S1x64x512_4_0_0 : (Rect.unit (s := S8x64x512) ![4, 0, 0] S1x64x512.size inb_S8x64x512_S1x64x512_4_0_0).PackedRows (EltTy.packing .bf16)
  inb_S8_S1_4 : ∀ a, (![4] : Fin 1 → Nat) a + S1.size a ≤ S8.size a
  wordsbf16_S8x64x512_S1x64x512_4_0_0 : (Rect.unit (s := S8x64x512) ![4, 0, 0] S1x64x512.size inb_S8x64x512_S1x64x512_4_0_0).WholeWords (EltTy.packing .bf16)
  inb_S8x64x512_S1x64x512_5_0_0 : ∀ a, (![5, 0, 0] : Fin 3 → Nat) a + S1x64x512.size a ≤ S8x64x512.size a
  packedbf16_S8x64x512_S1x64x512_5_0_0 : (Rect.unit (s := S8x64x512) ![5, 0, 0] S1x64x512.size inb_S8x64x512_S1x64x512_5_0_0).PackedRows (EltTy.packing .bf16)
  inb_S8_S1_5 : ∀ a, (![5] : Fin 1 → Nat) a + S1.size a ≤ S8.size a
  wordsbf16_S8x64x512_S1x64x512_5_0_0 : (Rect.unit (s := S8x64x512) ![5, 0, 0] S1x64x512.size inb_S8x64x512_S1x64x512_5_0_0).WholeWords (EltTy.packing .bf16)
  inb_S8x64x512_S1x64x512_6_0_0 : ∀ a, (![6, 0, 0] : Fin 3 → Nat) a + S1x64x512.size a ≤ S8x64x512.size a
  packedbf16_S8x64x512_S1x64x512_6_0_0 : (Rect.unit (s := S8x64x512) ![6, 0, 0] S1x64x512.size inb_S8x64x512_S1x64x512_6_0_0).PackedRows (EltTy.packing .bf16)
  inb_S8_S1_6 : ∀ a, (![6] : Fin 1 → Nat) a + S1.size a ≤ S8.size a
  wordsbf16_S8x64x512_S1x64x512_6_0_0 : (Rect.unit (s := S8x64x512) ![6, 0, 0] S1x64x512.size inb_S8x64x512_S1x64x512_6_0_0).WholeWords (EltTy.packing .bf16)
  inb_S8x64x512_S1x64x512_7_0_0 : ∀ a, (![7, 0, 0] : Fin 3 → Nat) a + S1x64x512.size a ≤ S8x64x512.size a
  packedbf16_S8x64x512_S1x64x512_7_0_0 : (Rect.unit (s := S8x64x512) ![7, 0, 0] S1x64x512.size inb_S8x64x512_S1x64x512_7_0_0).PackedRows (EltTy.packing .bf16)
  inb_S8_S1_7 : ∀ a, (![7] : Fin 1 → Nat) a + S1.size a ≤ S8.size a
  wordsbf16_S8x64x512_S1x64x512_7_0_0 : (Rect.unit (s := S8x64x512) ![7, 0, 0] S1x64x512.size inb_S8x64x512_S1x64x512_7_0_0).WholeWords (EltTy.packing .bf16)
  reduces_S64x512_S64 : S64x512.Reduces [1] S64
  shapeCasts_S64_S64x1 : S64.ShapeCasts S64x1
  broadcasts_S64x1_S64x512 : S64x1.Broadcasts S64x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S64x512 : S1x512.Broadcasts S64x512
  inb_S512x512_S64x512_0_0 : ∀ a, (![0, 0] : Fin 2 → Nat) a + S64x512.size a ≤ S512x512.size a
  h_S64x512 : 0 < S64x512.numel
  packedbf16_S512x512_S64x512_0_0 : (Rect.unit (s := S512x512) ![0, 0] S64x512.size inb_S512x512_S64x512_0_0).PackedRows (EltTy.packing .bf16)
  inb_S512x512_S64x512_64_0 : ∀ a, (![64, 0] : Fin 2 → Nat) a + S64x512.size a ≤ S512x512.size a
  packedbf16_S512x512_S64x512_64_0 : (Rect.unit (s := S512x512) ![64, 0] S64x512.size inb_S512x512_S64x512_64_0).PackedRows (EltTy.packing .bf16)
  inb_S512x512_S64x512_128_0 : ∀ a, (![128, 0] : Fin 2 → Nat) a + S64x512.size a ≤ S512x512.size a
  packedbf16_S512x512_S64x512_128_0 : (Rect.unit (s := S512x512) ![128, 0] S64x512.size inb_S512x512_S64x512_128_0).PackedRows (EltTy.packing .bf16)
  inb_S512x512_S64x512_192_0 : ∀ a, (![192, 0] : Fin 2 → Nat) a + S64x512.size a ≤ S512x512.size a
  packedbf16_S512x512_S64x512_192_0 : (Rect.unit (s := S512x512) ![192, 0] S64x512.size inb_S512x512_S64x512_192_0).PackedRows (EltTy.packing .bf16)
  inb_S512x512_S64x512_256_0 : ∀ a, (![256, 0] : Fin 2 → Nat) a + S64x512.size a ≤ S512x512.size a
  packedbf16_S512x512_S64x512_256_0 : (Rect.unit (s := S512x512) ![256, 0] S64x512.size inb_S512x512_S64x512_256_0).PackedRows (EltTy.packing .bf16)
  inb_S512x512_S64x512_320_0 : ∀ a, (![320, 0] : Fin 2 → Nat) a + S64x512.size a ≤ S512x512.size a
  packedbf16_S512x512_S64x512_320_0 : (Rect.unit (s := S512x512) ![320, 0] S64x512.size inb_S512x512_S64x512_320_0).PackedRows (EltTy.packing .bf16)
  inb_S512x512_S64x512_384_0 : ∀ a, (![384, 0] : Fin 2 → Nat) a + S64x512.size a ≤ S512x512.size a
  packedbf16_S512x512_S64x512_384_0 : (Rect.unit (s := S512x512) ![384, 0] S64x512.size inb_S512x512_S64x512_384_0).PackedRows (EltTy.packing .bf16)
  inb_S512x512_S64x512_448_0 : ∀ a, (![448, 0] : Fin 2 → Nat) a + S64x512.size a ≤ S512x512.size a
  packedbf16_S512x512_S64x512_448_0 : (Rect.unit (s := S512x512) ![448, 0] S64x512.size inb_S512x512_S64x512_448_0).PackedRows (EltTy.packing .bf16)
  hcc0_scratch2 : 3 + S8.numel ≤ 19
  hcc0_scratch3 : 11 + S8.numel ≤ 19
  k0_dev1_lt : ∀ d0 : Dev nD, (k0_dev1 d0) < nD
  k0_off1_inb : ∀ d0 : Dev nD, ∀ (r : Fin 8), ∀ a, (k0_off1 d0 (BitVec.ofNat 32 (64 * r.val))) a + S1x64x512.size a ≤ S1x1024x512.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off2_inb : ∀ d0 : Dev nD, ∀ (r : Fin 8), ∀ a, (k0_off2 d0 (BitVec.ofNat 32 (64 * r.val))) a + S1x64x512.size a ≤ S1x1024x512.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S8 := SemArray.consecutive 3 S8 hcc0_scratch2
abbrev cc0_scratch3 : DmaSems sig S8 := SemArray.consecutive 11 S8 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | .hbm, ⟨20, _⟩ => ⟨S1024x512, .bf16⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bitsLt_bf16_f32 : FTy.bits .bf16 < FTy.bits .f32

variable [Facts₀]

class Facts : Prop extends Facts₀ where

variable [Facts]
-- ==== Proof.KernelProto.lean ====
/-
  The cross-device protocol of the kernel, at the idealized program and for any float instance.

  Sixteen devices form eight pairs: a device and its partner differ in the middle mesh coordinate only, and the
  partner map is an involution. Each device has seventeen semaphore cells: the barrier cell, eight send cells and
  eight receive cells (one pair per chunk of 64 rows). Every cell has a single round with a single duty:
  * the barrier cell is paid one unit by the partner's entry signal, which hands over the partner's whole
    receive buffer (the partner is inside the kernel, so its buffer may be written);
  * send cell k is paid by the engine once chunk k of the send buffer has been read out; it hands the chunk back;
  * receive cell k is paid by the partner's copy once chunk k of the receive buffer is fully written; it hands over
    that chunk, holding the rows the partner sent.
  A device owes, from launch, one unit to its partner's barrier cell and a chunk's credit to each of its partner's
  receive cells. It waits on its barrier cell (level 1) while still owing receive credits (level 2), so every wait is
  below what the waiter owes and no cycle of waits can form.
-/
import proofs.«900479_g7700000000000480_dist_rsrms_v7x_xyz2x2x4_y_m512_d512_bf16_1_alg».proof.Proof.Gen.Kernel
import proofs.«900479_g7700000000000480_dist_rsrms_v7x_xyz2x2x4_y_m512_d512_bf16_1_alg».proof.Proof.Gen.Kernel.Skeleton
import proofs.«900479_g7700000000000480_dist_rsrms_v7x_xyz2x2x4_y_m512_d512_bf16_1_alg».proof.Proof.Gen.Kernel.Launch
import proofs.«900479_g7700000000000480_dist_rsrms_v7x_xyz2x2x4_y_m512_d512_bf16_1_alg».proof.Proof.Gen.Kernel.Points
import Idealize.ShloMosaic.Lib.Pipeline.Launch
import Idealize.ShloMosaic.Lib.Pipeline.Kit
import Idealize.ShloMosaic.Lib.Tactic
import Mathlib.Tactic.DeriveFintype

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging cells, one for the kernel's own cells -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## Partners -/

/-- The device whose middle mesh coordinate is the other one (devices are numbered x·8 + y·4 + z). -/
def peer (c : Dev nD) : Dev nD := ⟨(8 * (c.val / 8) + (c.val % 4) + 4) - 4 * ((c.val / 4) % 2), by have h : c.val < 16 := c.isLt; show _ < 16; omega⟩

theorem peer_peer (c : Dev nD) : peer (peer c) = c := by revert c; decide
theorem peer_ne (c : Dev nD) : peer c ≠ c := by revert c; decide

def pairing : Dev nD ≃ Dev nD := ⟨peer, peer, peer_peer, peer_peer⟩

/-- Every device id the body computes is the partner's. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The buffers, their chunks, the cells -/

abbrev xM : Memref sig .tc .vmem S1x1024x512 .f32 := Memref.whole cc0_stg0_0
abbrev gM : Memref sig .tc .vmem S512 .f32 := Memref.whole cc0_stg1_0
abbrev oM : Memref sig .tc .vmem S512x512 .bf16 := Memref.whole cc0_stg2_0
abbrev sM : Memref sig .tc .vmem S8x64x512 .bf16 := Memref.whole cc0_scratch0
abbrev rM : Memref sig .tc .vmem S8x64x512 .bf16 := Memref.whole cc0_scratch1

theorem inb3 (k : Fin 8) : ∀ a, (![k.val, 0, 0] : Fin 3 → Nat) a + S1x64x512.size a ≤ S8x64x512.size a := by revert k; decide
theorem inb1 (k : Fin 8) : ∀ a, (![k.val] : Fin 1 → Nat) a + S1.size a ≤ S8.size a := by revert k; decide

/-- The rectangle of chunk k in a buffer of eight chunks. -/
abbrev ckR (k : Fin 8) : Rect S8x64x512 := Rect.unit (s := S8x64x512) ![k.val, 0, 0] S1x64x512.size (inb3 k)

/-- Chunk k of a buffer of eight chunks, as the memref the engine is handed. -/
abbrev chunk (M : Memref sig .tc .vmem S8x64x512 .bf16) (k : Fin 8) : Memref sig .tc .vmem S64x512 .bf16 :=
  (M.slice (ckR k) (fun _ => rfl)).squeeze S64x512 squeezes_S1x64x512_S64x512

abbrev barS : Sem sig := (SemArray.scalar (sig.barrier 0 rfl) : Sems sig S_).sem
abbrev sndS (k : Fin 8) : DmaSem sig := ((cc0_scratch2.slice (Rect.unit (s := S8) ![k.val] S1.size (inb1 k))).squeeze S_ squeezes_S1_S_).sem
abbrev rcvS (k : Fin 8) : DmaSem sig := ((cc0_scratch3.slice (Rect.unit (s := S8) ![k.val] S1.size (inb1 k))).squeeze S_ squeezes_S1_S_).sem

/-- The seventeen cells of a device. -/
inductive CK where
  | bar
  | snd (k : Fin 8)
  | rcv (k : Fin 8)
  deriving DecidableEq, Fintype

def csem : CK → SemLoc sig
  | .bar => .reg barS
  | .snd k => .dma (sndS k)
  | .rcv k => .dma (rcvS k)

theorem csem_injective : Function.Injective csem := by decide

abbrev kcell (cx : Dev nD × CK) : GSem nD τ sig := ((cx.1 : Thread nD τ), csem cx.2)
abbrev barCell (c : Dev nD) : GSem nD τ sig := ((c : Thread nD τ), .reg barS)
abbrev sndCell (c : Dev nD) (k : Fin 8) : GSem nD τ sig := ((c : Thread nD τ), .dma (sndS k))
abbrev rcvCell (c : Dev nD) (k : Fin 8) : GSem nD τ sig := ((c : Thread nD τ), .dma (rcvS k))

/-- A chunk's credit on a DMA semaphore. -/
abbrev N : ℕ := (chunk rM 0).view.dmaCredit
theorem N_pos : 0 < N := View.dmaCredit_pos _ (by decide)

/-! ## Contents -/

/-- Device `c`'s block of the first argument, as staged. -/
def xstg (c : Dev nD) : (cc0_stg0_0 : Ref sig .tc).ty.Contents (Elt F) :=
  (win0_0.blk (0 : Fin 1)).view.read (Elt F) (m ((c : Thread nD τ).loc main_arg0))
/-- Device `c`'s copy of the second argument, as staged. -/
def gstg (c : Dev nD) : (cc0_stg1_0 : Ref sig .tc).ty.Contents (Elt F) :=
  (win0_1.blk (0 : Fin 1)).view.read (Elt F) (m ((c : Thread nD τ).loc main_arg1))

/-- The 64 rows of its block that device `c` sends in chunk `k`: rows of the half its partner owns. -/
def sendRows (c : Dev nD) (k : Fin 8) : Vec F S1x64x512 .f32 :=
  (xM : Memref sig .tc .vmem S1x1024x512 .f32).view.readAt (Elt F)
    (Rect.unit (s := S1x1024x512) (k0_off1 c (BitVec.ofNat 32 (64 * k.val))) S1x64x512.size (k0_off1_inb c k)).toLoadRect (xstg m c)
/-- The 64 rows of its own half that device `c` adds the received chunk `k` to. -/
def ownRows (c : Dev nD) (k : Fin 8) : Vec F S1x64x512 .f32 :=
  (xM : Memref sig .tc .vmem S1x1024x512 .f32).view.readAt (Elt F)
    (Rect.unit (s := S1x1024x512) (k0_off2 c (BitVec.ofNat 32 (64 * k.val))) S1x64x512.size (k0_off2_inb c k)).toLoadRect (xstg m c)

/-- What device `c`'s send buffer holds once all eight chunks have been stored: entry `(k, r, j)` is entry `(r, j)` of the
    rows it sends in chunk `k`, in the send format. -/
def sentC (c : Dev nD) : S8x64x512.Idx → Elt F .bf16 :=
  fun i => k0_pay1 (sendRows m c (i 0 : Fin 8)) (fun a => match a with | ⟨0, _⟩ => (0 : Fin 1) | ⟨1, _⟩ => (i 1 : Fin 64) | ⟨2, _⟩ => (i 2 : Fin 512))

/-- What device `c`'s receive buffer holds once all eight chunks have landed: what its partner's send buffer held. -/
def recvC (c : Dev nD) : S8x64x512.Idx → Elt F .bf16 := sentC m (peer c)

/-! ## The schedule -/

/-- The partner's entry signal hands over the partner's receive buffer. -/
def barPay (c : Dev nD) : sProp 𝕄 := iprop(∃ f : Buf (Elt F) ((peer c : Thread nD τ).loc cc0_scratch1), ((peer c : Thread nD τ).loc cc0_scratch1) ↦{fullShare} f)
/-- The engine hands chunk `k` of the send buffer back once it has been read out, holding what was sent. -/
def sndPay (c : Dev nD) (k : Fin 8) : sProp 𝕄 :=
  (chunk sM k).view.loc (c : Thread nD τ) ↦[(chunk sM k).view.set]{fullShare} sentC m c
/-- The partner's copy hands over chunk `k` of the receive buffer, holding what the partner sent. -/
def rcvPay (c : Dev nD) (k : Fin 8) : sProp 𝕄 :=
  (chunk rM k).view.loc (c : Thread nD τ) ↦[(chunk rM k).view.set]{fullShare} recvC m c

def ckList : List CK := CK.bar :: ((List.finRange 8).map CK.snd ++ (List.finRange 8).map CK.rcv)
/-- The cell a semaphore is, if it is one of the seventeen. -/
def ckOf (s : SemLoc sig) : Option CK := ckList.find? (fun x => decide (csem x = s))
theorem ckOf_csem : ∀ x : CK, ckOf (csem x) = some x := by decide

def sched : Rounds.Schedule (GSem nD τ sig) Unit 𝕄 where
  duties g r := if r = 0 ∧ g.1.2 = .tc ∧ (ckOf g.2).isSome then {()} else ∅
  unitless _ := False
  amount g _ _ := if g.2 = .reg barS then 1 else N
  payload g _ _ := match ckOf g.2 with
    | some .bar => barPay g.1.1
    | some (.snd k) => sndPay m g.1.1 k
    | some (.rcv k) => rcvPay m g.1.1 k
    | none => iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (match ckOf g.2 with
    | some .bar => barPay g.1.1
    | some (.snd k) => sndPay m g.1.1 k
    | some (.rcv k) => rcvPay m g.1.1 k
    | none => iprop(emp))
  unfold barPay sndPay rcvPay
  split <;> infer_instance

section Tables
variable (c : Dev nD) (k : Fin 8)

theorem duties_cell (x : CK) : (sched (F := F) m).duties (kcell (c, x)) 0 = {()} := by
  dsimp only [sched]; exact if_pos ⟨rfl, rfl, by rw [ckOf_csem]; rfl⟩
theorem duties_bar : (sched (F := F) m).duties (barCell c) 0 = {()} := duties_cell m c .bar
theorem duties_snd : (sched (F := F) m).duties (sndCell c k) 0 = {()} := duties_cell m c (.snd k)
theorem duties_rcv : (sched (F := F) m).duties (rcvCell c k) 0 = {()} := duties_cell m c (.rcv k)
theorem duties_later (g : GSem nD τ sig) : ∀ r, 1 ≤ r → (sched (F := F) m).duties g r = ∅ :=
  fun r hr => by dsimp only [sched]; rw [if_neg fun h => by omega]

theorem snd_ne_bar : (SemLoc.dma (sndS k) : SemLoc sig) ≠ .reg barS := fun h => by cases h
theorem rcv_ne_bar : (SemLoc.dma (rcvS k) : SemLoc sig) ≠ .reg barS := fun h => by cases h

theorem amount_bar (d : Unit) : (sched (F := F) m).amount (barCell c) 0 d = 1 := by dsimp only [sched]; exact if_pos rfl
theorem amount_snd (d : Unit) : (sched (F := F) m).amount (sndCell c k) 0 d = N := by dsimp only [sched]; exact if_neg (snd_ne_bar k)
theorem amount_rcv (d : Unit) : (sched (F := F) m).amount (rcvCell c k) 0 d = N := by dsimp only [sched]; exact if_neg (rcv_ne_bar k)

theorem expect_bar : (sched (F := F) m).expect (barCell c) 0 = 1 := by
  unfold Schedule.expect Schedule.amountOf; rw [duties_bar, Finset.sum_singleton, amount_bar]
theorem expect_snd : (sched (F := F) m).expect (sndCell c k) 0 = N := by
  unfold Schedule.expect Schedule.amountOf; rw [duties_snd, Finset.sum_singleton, amount_snd]
theorem expect_rcv : (sched (F := F) m).expect (rcvCell c k) 0 = N := by
  unfold Schedule.expect Schedule.amountOf; rw [duties_rcv, Finset.sum_singleton, amount_rcv]

theorem payload_bar (d : Unit) : (sched (F := F) m).payload (barCell c) 0 d = barPay c := by
  dsimp only [sched]; rw [show ckOf (SemLoc.reg barS : SemLoc sig) = some CK.bar from ckOf_csem .bar]
theorem payload_snd (d : Unit) : (sched (F := F) m).payload (sndCell c k) 0 d = sndPay m c k := by
  dsimp only [sched]; rw [show ckOf (SemLoc.dma (sndS k) : SemLoc sig) = some (CK.snd k) from ckOf_csem (.snd k)]
theorem payload_rcv (d : Unit) : (sched (F := F) m).payload (rcvCell c k) 0 d = rcvPay m c k := by
  dsimp only [sched]; rw [show ckOf (SemLoc.dma (rcvS k) : SemLoc sig) = some (CK.rcv k) from ckOf_csem (.rcv k)]

theorem rest_bar : bigSep ((sched (F := F) m).duties (barCell c) 0 \ ∅) (fun d => (sched (F := F) m).payload (barCell c) 0 d) = barPay c := by
  rw [Finset.sdiff_empty, duties_bar, bigSep_singleton, payload_bar]
theorem rest_snd : bigSep ((sched (F := F) m).duties (sndCell c k) 0 \ ∅) (fun d => (sched (F := F) m).payload (sndCell c k) 0 d) = sndPay m c k := by
  rw [Finset.sdiff_empty, duties_snd, bigSep_singleton, payload_snd]
theorem rest_rcv : bigSep ((sched (F := F) m).duties (rcvCell c k) 0 \ ∅) (fun d => (sched (F := F) m).payload (rcvCell c k) 0 d) = rcvPay m c k := by
  rw [Finset.sdiff_empty, duties_rcv, bigSep_singleton, payload_rcv]

end Tables

/-! ## Sums over the seventeen cells -/

def ckEquiv : Unit ⊕ (Fin 8 ⊕ Fin 8) ≃ CK where
  toFun | .inl _ => .bar | .inr (.inl k) => .snd k | .inr (.inr k) => .rcv k
  invFun | .bar => .inl () | .snd k => .inr (.inl k) | .rcv k => .inr (.inr k)
  left_inv := by rintro (_ | _ | _) <;> rfl
  right_inv := by rintro (_ | _ | _) <;> rfl

omit [FloatOps F] in
/-- A conjunction over the seventeen cells is its barrier part, its eight send parts and its eight receive parts. -/
theorem bigSep_CK (Φ : CK → sProp 𝕄) :
    bigSep Finset.univ Φ = iprop(Φ .bar ∗ (bigSep Finset.univ fun k : Fin 8 => Φ (.snd k)) ∗ (bigSep Finset.univ fun k : Fin 8 => Φ (.rcv k))) := by
  rw [bigSep_univ_equiv ckEquiv Φ, bigSep_univ_sum, bigSep_univ_sum, bigSep_univ_of_subsingleton ()]; rfl

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## What each device owes at launch; the levels -/

/-- The credit of chunk `k` owed to the partner's receive cell. -/
abbrev tk (c : Dev nD) (k : Fin 8) : CellTallies nD τ sig Unit := tallyAt (rcvCell (peer c) k) () N

/-- What is still owed once the copies of chunks `0 … 7` have been issued in turn: each copy pays the last summand. -/
def owedSends (c : Dev nD) : CellTallies nD τ sig Unit :=
  tk c 7 + tk c 6 + tk c 5 + tk c 4 + tk c 3 + tk c 2 + tk c 1 + tk c 0

/-- At launch a device owes its partner's barrier cell one unit and each of its partner's receive cells a chunk's credit. -/
def O₀ (c : Dev nD) : CellTallies nD τ sig Unit := owedSends c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ k : Fin 8, g.2 = .dma (rcvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_rcv (c : Dev nD) (k : Fin 8) (u : Unit) : lv (rcvCell c k) u = 2 := by
  dsimp only [lv]; rw [if_neg (rcv_ne_bar k), if_pos ⟨k, rfl⟩]

/-- A cell owed something by the unpaid copies is one of the partner's receive cells. -/
theorem owedSends_pos {c : Dev nD} {g : GSem nD τ sig} {u : Unit} (h : 0 < owedSends c g u) : ∃ k : Fin 8, g = rcvCell (peer c) k := by
  unfold owedSends tk at h
  repeat rw [Pi.add_apply] at h
  repeat rw [Finsupp.add_apply] at h
  repeat rw [tallyAt_apply] at h
  by_contra hn
  rw [not_exists] at hn
  rw [if_neg (fun h' => hn 7 h'.1), if_neg (fun h' => hn 6 h'.1), if_neg (fun h' => hn 5 h'.1), if_neg (fun h' => hn 4 h'.1),
    if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k : Fin 8, g = rcvCell (peer c) k) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (owedSends_pos h)

omit [FloatOps F] in
/-- A staging cell (level 0) may be waited on whatever is owed at launch, or nothing. -/
theorem mayWait_stage (c : Dev nD) (q : DmaSem sig) (hq : ∀ k : Fin 8, SemLoc.dma q ≠ .dma (rcvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by
        rw [Finset.mem_singleton.mp hp]; dsimp only [lv]
        rw [if_neg (fun h => by cases h), if_neg (fun ⟨k, hk⟩ => hq k hk)])
      (fun g u hg => by
        rcases O₀_pos hg with ⟨k, rfl⟩ | rfl
        · rw [lv_rcv]; decide
        · rw [lv_bar]; decide)
  · rw [MayWait_zero]; iintro -; iempintro

omit [FloatOps F] in
/-- At its barrier wait a device owes receive credits only: receive cells are above barrier cells. -/
theorem mayWait_bar (c : Dev nD) :
    (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨k, rfl⟩ := owedSends_pos hg; exact Finset.mem_singleton_self _)
    (fun p hp => by rw [Finset.mem_singleton.mp hp]; exact le_of_eq (lv_bar c ()))
    (fun g u hg => by obtain ⟨k, rfl⟩ := owedSends_pos hg; rw [lv_rcv]; decide)

end Cert.Kernel.Hand

end
-- ==== Proof.KernelSend.lean ====
/-
  The copy of one chunk to the partner, as one step of the body.

  Device `c` hands the engine chunk `k` of its send buffer and chunk `k` of its partner's receive buffer (which it holds
  since the entry handshake). The copy pays two duties: its own send cell's, with the source chunk, and the partner's
  receive cell's, with the destination chunk holding what was copied. Both chunks then hold the rows the device sends
  in chunk `k`, provided the source chunk does.
-/
import proofs.«900479_g7700000000000480_dist_rsrms_v7x_xyz2x2x4_y_m512_d512_bf16_1_alg».proof.Proof.KernelProto

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem chunk_credit (k : Fin 8) : (chunk rM k).view.amount (.dma (rcvS k)) = N := by
  revert k; decide

theorem wp_send_chunk (K : Dev nD × CK → ℕ) (c n : Dev nD) (hn : n = peer c) (k : Fin 8)
    {hsc : ((chunk rM k) : Memref sig (Dev.tc n : Thread nD τ).2.kind .vmem S64x512 .bf16).view.ref.isScScratch = false}
    {hsrc : (chunk sM k).view.WordExact} {hdst : (chunk rM k).view.WordExact}
    {hsem : DmaTarget.Typed .vmem (.dma (rcvS k)) (.remote (Dev.tc n : Thread nD τ) (chunk rM k) (.dma (sndS k)) hsc)}
    {α : Type} {Q : α → sProp 𝕄} {kk : PUnit → Prog (TpuEff nD τ sig (Elt F) Λ₀ .tc) α}
    (fs : Buf (Elt F) ((chunk sM k).view.loc (c : Thread nD τ))) (fn : Buf (Elt F) ((chunk rM k).view.loc (peer c : Thread nD τ)))
    (O : CellTallies nD τ sig Unit) (W : Waits sig Unit)
    (hsent : ∀ i ∈ (chunk sM k).view.set, fs i = sentC m c i)
    (hland : ∀ i ∈ (chunk rM k).view.set,
      (chunk rM k).view.write (Elt F) fn ((chunk sM k).view.read (Elt F) fs) Finset.univ i = recvC m (peer c) i) :
    iprop(cellInv ER (sched m) (K (c, .snd k)) (sndCell c k) ∗ cellInv ER (sched m) (K (peer c, .rcv k)) (rcvCell (peer c) k)
        ∗ ((chunk sM k).view.loc (c : Thread nD τ) ↦[(chunk sM k).view.set]{fullShare} fs)
        ∗ ((chunk rM k).view.loc (peer c : Thread nD τ) ↦[(chunk rM k).view.set]{fullShare} fn)
        ∗ owes (c : Thread nD τ) (O + tk c k) W
        ∗ dutyTok ER (sndCell c k) 0 () ∗ reached ER (sndCell c k) 0
        ∗ dutyTok ER (rcvCell (peer c) k) 0 () ∗ reached ER (rcvCell (peer c) k) 0)
      ⊢ iprop(((cred (tallyAt (sndCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk sM k) (.remote (Dev.tc n : Thread nD τ) (chunk rM k) (.dma (sndS k)) hsc) (.dma (rcvS k)) hsrc hdst hsem) kk) Q) := by
  subst hn
  exact Rounds.wp_send_pointsTo 𝒱₀ ER (sched m) (c : Thread nD τ) none (κ₁ := K (c, .snd k)) (κ₂ := K (peer c, .rcv k))
    (r₁ := 0) (r₂ := 0) (d₁ := ()) (d₂ := ()) (fd := fn)
    (by rw [duties_snd]; exact Finset.mem_singleton_self _) (by rw [duties_rcv]; exact Finset.mem_singleton_self _)
    () () N (chunk_credit k) (amount_snd m c k ()) (amount_rcv m (peer c) k ()) O rfl (W := W)
    (by rw [payload_snd]; unfold sndPay; exact Entails.of_eq (pointsTo_congr hsent))
    (by rw [payload_rcv]; unfold rcvPay; exact Entails.of_eq (pointsTo_congr hland))

/-- The same step from the two buffers held less the chunks already in flight: the chunk is split off each, copied, and
    the rests stay behind at unchanged contents. -/
theorem send_step (K : Dev nD × CK → ℕ) (c n : Dev nD) (hn : n = peer c) (k : Fin 8)
    (Rs : Finset (Idx ((sM : Memref sig .tc .vmem S8x64x512 .bf16).view.loc (c : Thread nD τ))))
    (Rp : Finset (Idx ((rM : Memref sig .tc .vmem S8x64x512 .bf16).view.loc (peer c : Thread nD τ))))
    (hs : (chunk sM k).view.set ⊆ Rs) (hp : (chunk rM k).view.set ⊆ Rp)
    {hsc : ((chunk rM k) : Memref sig (Dev.tc n : Thread nD τ).2.kind .vmem S64x512 .bf16).view.ref.isScScratch = false}
    {hsrc : (chunk sM k).view.WordExact} {hdst : (chunk rM k).view.WordExact}
    {hsem : DmaTarget.Typed .vmem (.dma (rcvS k)) (.remote (Dev.tc n : Thread nD τ) (chunk rM k) (.dma (sndS k)) hsc)}
    {α : Type} {Q : α → sProp 𝕄} {kk : PUnit → Prog (TpuEff nD τ sig (Elt F) Λ₀ .tc) α}
    (fs : Buf (Elt F) ((sM : Memref sig .tc .vmem S8x64x512 .bf16).view.loc (c : Thread nD τ)))
    (fn : Buf (Elt F) ((rM : Memref sig .tc .vmem S8x64x512 .bf16).view.loc (peer c : Thread nD τ)))
    (O : CellTallies nD τ sig Unit) (W : Waits sig Unit)
    (hsent : ∀ i ∈ (chunk sM k).view.set, fs i = sentC m c i)
    (hland : ∀ i ∈ (chunk rM k).view.set,
      (chunk rM k).view.write (Elt F) fn ((chunk sM k).view.read (Elt F) fs) Finset.univ i = recvC m (peer c) i) :
    iprop(cellInv ER (sched m) (K (c, .snd k)) (sndCell c k) ∗ cellInv ER (sched m) (K (peer c, .rcv k)) (rcvCell (peer c) k)
        ∗ ((sM : Memref sig .tc .vmem S8x64x512 .bf16).view.loc (c : Thread nD τ) ↦[Rs]{fullShare} fs)
        ∗ ((rM : Memref sig .tc .vmem S8x64x512 .bf16).view.loc (peer c : Thread nD τ) ↦[Rp]{fullShare} fn)
        ∗ owes (c : Thread nD τ) (O + tk c k) W
        ∗ dutyTok ER (sndCell c k) 0 () ∗ reached ER (sndCell c k) 0
        ∗ dutyTok ER (rcvCell (peer c) k) 0 () ∗ reached ER (rcvCell (peer c) k) 0)
      ⊢ iprop(((cred (tallyAt (sndCell c k) () N) ∗ owes (c : Thread nD τ) O W
              ∗ ((sM : Memref sig .tc .vmem S8x64x512 .bf16).view.loc (c : Thread nD τ) ↦[Rs \ (chunk sM k).view.set]{fullShare} fs)
              ∗ ((rM : Memref sig .tc .vmem S8x64x512 .bf16).view.loc (peer c : Thread nD τ) ↦[Rp \ (chunk rM k).view.set]{fullShare} fn))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk sM k) (.remote (Dev.tc n : Thread nD τ) (chunk rM k) (.dma (sndS k)) hsc) (.dma (rcvS k)) hsrc hdst hsem) kk) Q) := by
  iintro ⟨#HIs, #HIp, Hs, Hp, HO, HtS, #Hrs, HtP, #Hrp⟩ Hk
  ihave Hs' := (pointsTo_split_subset hs).1 $$ Hs
  icases Hs' with ⟨Hsk, Hs⟩
  ihave Hp' := (pointsTo_split_subset hp).1 $$ Hp
  icases Hp' with ⟨Hpk, Hp⟩
  iapply (wp_send_chunk m K c n hn k fs fn O W hsent hland) $$ [Hsk Hpk HO HtS HtP]
  · isplitr; · iexact HIs
    isplitr; · iexact HIp
    isplitl [Hsk]; · iexact Hsk
    isplitl [Hpk]; · iexact Hpk
    isplitl [HO]; · iexact HO
    isplitl [HtS]; · iexact HtS
    isplitr; · iexact Hrs
    isplitl [HtP]; · iexact HtP
    iexact Hrp
  iintro ⟨Hc, HO⟩
  iapply Hk
  isplitl [Hc]; · iexact Hc
  isplitl [HO]; · iexact HO
  isplitl [Hs]; · iexact Hs
  iexact Hp

end Cert.Kernel.Hand

end
-- ==== Proof.KernelGeo.lean ====
/-
  The geometry of the buffers, index by index.

  The send and the receive buffer hold eight chunks of 64 rows of 512 entries, `[8, 64, 512]`. Chunk `k` is the set
  of elements whose leading coordinate is `k`; seen as a `[64, 512]` block, its element `(r, j)` is the buffer's
  `(k, r, j)`, and seen as a `[1, 64, 512]` block its element `(0, r, j)` is the same. Different chunks are
  disjoint. Reading a chunk reads those elements; writing a whole block through a chunk replaces exactly those
  elements and leaves the others. The output `[512, 512]` is eight blocks of 64 rows: rows `64 k … 64 k + 63` are
  block `k`, and eight whole-block writes, one per block, determine every element. A window of 64 rows of the
  `[1, 1024, 512]` argument starting at row `o` reads rows `o … o + 63`.
-/
import proofs.«900479_g7700000000000480_dist_rsrms_v7x_xyz2x2x4_y_m512_d512_bf16_1_alg».proof.Proof.KernelProto
import Idealize.ShloMosaic.Signature.View
import Idealize.ShloMosaic.Signature.Memref
import Idealize.ShloMosaic.Lib.Pipeline.Value
import Idealize.ShloMosaic.Lib.Exec.Geometry
import Idealize.ShloMosaic.Lib.ValueIdx
import Idealize.ShloMosaic.Lib.ValueLayout

noncomputable section

namespace Cert.Kernel.Hand

open Cert.Kernel Cert.Kernel.Gen

open Idealize.ShloMosaic Idealize.ShloMosaic.ValueIdx

variable {Val : EltTy → Type}

/-! ## Where a chunk's indices sit -/

/-- Local index `y` of chunk `k`'s rectangle sits at `(k, y 1, y 2)` of the buffer of eight chunks. -/
theorem ckR_emb (k : Fin 8) (y : S1x64x512.Idx) : (ckR k).emb y = ix3 k (y 1 : Fin 64) (y 2 : Fin 512) := by
  funext a
  apply Fin.ext
  match a with
  | ⟨0, _⟩ =>
    show k.val + 1 * (y 0).val = k.val
    have h : (y 0).val < 1 := (y 0).isLt
    omega
  | ⟨1, _⟩ =>
    show 0 + 1 * (y 1).val = (y 1).val
    omega
  | ⟨2, _⟩ =>
    show 0 + 1 * (y 2).val = (y 2).val
    omega

/-- An index `(r, j)` of a `[64, 512]` block, counted in the `[1, 64, 512]` shape, is `(0, r, j)`. -/
theorem squeeze_idx (h : S64x512.numel = S1x64x512.numel) (y : S64x512.Idx) :
    Shape.reshapeEquiv h y = ix3 (0 : Fin 1) (y 0 : Fin 64) (y 1 : Fin 512) :=
  (congrArg (Shape.reshapeEquiv h) (eq_ix2 y)).trans (reshapeEquiv_ix2_1ab h (y 0 : Fin 64) (y 1 : Fin 512))

/-- An index whose leading coordinate is `k` is `(k, i 1, i 2)`. -/
theorem idx_of_lead {k : Fin 8} (i : S8x64x512.Idx) (h : (i 0 : Fin 8) = k) :
    i = ix3 k (i 1 : Fin 64) (i 2 : Fin 512) := by
  rw [← h]; exact eq_ix3 i

/-! ## Chunks of the send buffer -/

/-- Index `y` of chunk `k` sits at `(k, y 0, y 1)` of the buffer. -/
theorem chunk_emb_s (k : Fin 8) (y : S64x512.Idx) :
    (chunk sM k).view.emb y = ix3 k (y 0 : Fin 64) (y 1 : Fin 512) := by
  show (ckR k).emb (Shape.reshapeEquiv _ y) = _
  exact (congrArg (ckR k).emb (squeeze_idx _ y)).trans (ckR_emb k _)

/-- The elements of chunk `k` are those whose leading coordinate is `k`. -/
theorem mem_chunk_s (k : Fin 8) (i : S8x64x512.Idx) : i ∈ (chunk sM k).view.set ↔ (i 0 : Fin 8) = k := by
  constructor
  · intro h
    obtain ⟨y, rfl⟩ := View.exists_emb_of_mem_set _ h
    rw [chunk_emb_s]
  · intro h
    have e : (chunk sM k).view.emb (ix2 (i 1 : Fin 64) (i 2 : Fin 512)) = i := by
      rw [chunk_emb_s]; exact (idx_of_lead i h).symm
    rw [← e]; exact View.emb_mem_set _ _

/-- The buffer's view is all of it. -/
theorem set_s : (sM).view.set = Finset.univ := View.set_whole _

theorem chunk_subset_s (k : Fin 8) : (chunk sM k).view.set ⊆ (sM).view.set := by
  rw [set_s]; exact Finset.subset_univ _

/-- Different chunks share no element. -/
theorem chunk_disjoint_s {j k : Fin 8} (h : j ≠ k) : Disjoint (chunk sM j).view.set (chunk sM k).view.set :=
  Finset.disjoint_left.mpr fun i hj hk =>
    h (((mem_chunk_s j i).mp hj).symm.trans ((mem_chunk_s k i).mp hk))

/-- Reading chunk `k` at `(r, j)` reads the buffer at `(k, r, j)`. -/
theorem chunk_read_s (k : Fin 8) (f : S8x64x512.Idx → Val .bf16) (y : S64x512.Idx) :
    (chunk sM k).view.read Val f y = f (ix3 k (y 0 : Fin 64) (y 1 : Fin 512)) := by
  rw [View.read_apply, chunk_emb_s]; rfl

/-- Writing a whole block `w` through chunk `k`: inside the chunk the new contents are `w`'s, -/
theorem chunk_write_s (k : Fin 8) (fd : S8x64x512.Idx → Val .bf16) (w : S64x512.Idx → Val .bf16)
    (i : S8x64x512.Idx) (h : (i 0 : Fin 8) = k) :
    (chunk sM k).view.write Val fd w Finset.univ i = w (ix2 (i 1 : Fin 64) (i 2 : Fin 512)) := by
  have e : (chunk sM k).view.emb (ix2 (i 1 : Fin 64) (i 2 : Fin 512)) = i := by
    rw [chunk_emb_s]; exact (idx_of_lead i h).symm
  have hw := View.write_emb_of_mem (v := (chunk sM k).view) (Val := Val) fd w (M := Finset.univ)
    (x := ix2 (i 1 : Fin 64) (i 2 : Fin 512)) (Finset.mem_univ _)
  rw [e] at hw
  exact hw

/-- and outside it they are unchanged. -/
theorem chunk_write_s_of_ne (k : Fin 8) (fd : S8x64x512.Idx → Val .bf16) (w : S64x512.Idx → Val .bf16)
    (i : S8x64x512.Idx) (h : (i 0 : Fin 8) ≠ k) :
    (chunk sM k).view.write Val fd w Finset.univ i = fd i := by
  refine View.write_of_not_mem (v := (chunk sM k).view) (Val := Val) fd w Finset.univ ?_
  rw [View.setOn_univ]
  exact fun hm => h ((mem_chunk_s k i).mp hm)

/-- Index `y` of the rectangle of chunk `k`, addressed through the whole buffer, sits at `(k, y 1, y 2)`. -/
theorem access_emb_s (k : Fin 8) (y : S1x64x512.Idx) :
    ((sM).access (ckR k)).emb y = ix3 k (y 1 : Fin 64) (y 2 : Fin 512) := ckR_emb k y

/-- A store of a whole `[1, 64, 512]` block `v` at chunk `k`: inside the chunk the new contents are `v`'s, -/
theorem store_chunk_s (k : Fin 8) (f : S8x64x512.Idx → Val .bf16) (v : S1x64x512.Idx → Val .bf16)
    (i : S8x64x512.Idx) (h : (i 0 : Fin 8) = k) :
    ((sM).access (ckR k)).write Val f v Finset.univ i = v (ix3 (0 : Fin 1) (i 1 : Fin 64) (i 2 : Fin 512)) := by
  have e : ((sM).access (ckR k)).emb (ix3 (0 : Fin 1) (i 1 : Fin 64) (i 2 : Fin 512)) = i :=
    (ckR_emb k _).trans (idx_of_lead i h).symm
  have hw := View.write_emb_of_mem (v := (sM).access (ckR k)) (Val := Val) f v (M := Finset.univ)
    (x := ix3 (0 : Fin 1) (i 1 : Fin 64) (i 2 : Fin 512)) (Finset.mem_univ _)
  rw [e] at hw
  exact hw

/-- and outside it they are unchanged. -/
theorem store_chunk_s_of_ne (k : Fin 8) (f : S8x64x512.Idx → Val .bf16) (v : S1x64x512.Idx → Val .bf16)
    (i : S8x64x512.Idx) (h : (i 0 : Fin 8) ≠ k) :
    ((sM).access (ckR k)).write Val f v Finset.univ i = f i := by
  refine View.write_of_not_mem (v := (sM).access (ckR k)) (Val := Val) f v Finset.univ ?_
  rw [View.setOn_univ]
  intro hm
  obtain ⟨y, rfl⟩ := View.exists_emb_of_mem_set _ hm
  exact h (congrFun (ckR_emb k y) 0)

/-- The same for a list of stores, the newest first: an element of chunk `k` holds what the newest store, at chunk
`k`, wrote there, -/
theorem send_writes_hit (k : Fin 8) (f : S8x64x512.Idx → Val .bf16) (v : S1x64x512.Idx → Val .bf16)
    (L : List (View.Piece Val S8x64x512 .bf16)) (i : S8x64x512.Idx) (h : (i 0 : Fin 8) = k) :
    (sM).view.writes Val f (⟨ckR k, v⟩ :: L) i = v (ix3 (0 : Fin 1) (i 1 : Fin 64) (i 2 : Fin 512)) :=
  store_chunk_s k ((sM).view.writes Val f L) v i h

/-- and an element of another chunk holds what the earlier stores left. -/
theorem send_writes_miss (k : Fin 8) (f : S8x64x512.Idx → Val .bf16) (v : S1x64x512.Idx → Val .bf16)
    (L : List (View.Piece Val S8x64x512 .bf16)) (i : S8x64x512.Idx) (h : (i 0 : Fin 8) ≠ k) :
    (sM).view.writes Val f (⟨ckR k, v⟩ :: L) i = (sM).view.writes Val f L i :=
  store_chunk_s_of_ne k ((sM).view.writes Val f L) v i h

/-- A load of a whole `[1, 64, 512]` block at chunk `k` reads, at `(0, r, j)`, the buffer at `(k, r, j)`. -/
theorem load_chunk_s (k : Fin 8) (f : S8x64x512.Idx → Val .bf16) (r : Fin 64) (j : Fin 512) :
    (sM).view.readAt Val (ckR k).toLoadRect f (ix3 (0 : Fin 1) r j) = f (ix3 k r j) := by
  show ((sM).access (ckR k)).read Val f (ix3 (0 : Fin 1) r j) = _
  rw [View.read_apply, access_emb_s]; rfl

/-! ## Chunks of the receive buffer -/

/-- Index `y` of chunk `k` sits at `(k, y 0, y 1)` of the buffer. -/
theorem chunk_emb_r (k : Fin 8) (y : S64x512.Idx) :
    (chunk rM k).view.emb y = ix3 k (y 0 : Fin 64) (y 1 : Fin 512) := by
  show (ckR k).emb (Shape.reshapeEquiv _ y) = _
  exact (congrArg (ckR k).emb (squeeze_idx _ y)).trans (ckR_emb k _)

/-- The elements of chunk `k` are those whose leading coordinate is `k`. -/
theorem mem_chunk_r (k : Fin 8) (i : S8x64x512.Idx) : i ∈ (chunk rM k).view.set ↔ (i 0 : Fin 8) = k := by
  constructor
  · intro h
    obtain ⟨y, rfl⟩ := View.exists_emb_of_mem_set _ h
    rw [chunk_emb_r]
  · intro h
    have e : (chunk rM k).view.emb (ix2 (i 1 : Fin 64) (i 2 : Fin 512)) = i := by
      rw [chunk_emb_r]; exact (idx_of_lead i h).symm
    rw [← e]; exact View.emb_mem_set _ _

/-- The buffer's view is all of it. -/
theorem set_r : (rM).view.set = Finset.univ := View.set_whole _

theorem chunk_subset_r (k : Fin 8) : (chunk rM k).view.set ⊆ (rM).view.set := by
  rw [set_r]; exact Finset.subset_univ _

/-- Different chunks share no element. -/
theorem chunk_disjoint_r {j k : Fin 8} (h : j ≠ k) : Disjoint (chunk rM j).view.set (chunk rM k).view.set :=
  Finset.disjoint_left.mpr fun i hj hk =>
    h (((mem_chunk_r j i).mp hj).symm.trans ((mem_chunk_r k i).mp hk))

/-- Reading chunk `k` at `(r, j)` reads the buffer at `(k, r, j)`. -/
theorem chunk_read_r (k : Fin 8) (f : S8x64x512.Idx → Val .bf16) (y : S64x512.Idx) :
    (chunk rM k).view.read Val f y = f (ix3 k (y 0 : Fin 64) (y 1 : Fin 512)) := by
  rw [View.read_apply, chunk_emb_r]; rfl

/-- Writing a whole block `w` through chunk `k`: inside the chunk the new contents are `w`'s, -/
theorem chunk_write_r (k : Fin 8) (fd : S8x64x512.Idx → Val .bf16) (w : S64x512.Idx → Val .bf16)
    (i : S8x64x512.Idx) (h : (i 0 : Fin 8) = k) :
    (chunk rM k).view.write Val fd w Finset.univ i = w (ix2 (i 1 : Fin 64) (i 2 : Fin 512)) := by
  have e : (chunk rM k).view.emb (ix2 (i 1 : Fin 64) (i 2 : Fin 512)) = i := by
    rw [chunk_emb_r]; exact (idx_of_lead i h).symm
  have hw := View.write_emb_of_mem (v := (chunk rM k).view) (Val := Val) fd w (M := Finset.univ)
    (x := ix2 (i 1 : Fin 64) (i 2 : Fin 512)) (Finset.mem_univ _)
  rw [e] at hw
  exact hw

/-- and outside it they are unchanged. -/
theorem chunk_write_r_of_ne (k : Fin 8) (fd : S8x64x512.Idx → Val .bf16) (w : S64x512.Idx → Val .bf16)
    (i : S8x64x512.Idx) (h : (i 0 : Fin 8) ≠ k) :
    (chunk rM k).view.write Val fd w Finset.univ i = fd i := by
  refine View.write_of_not_mem (v := (chunk rM k).view) (Val := Val) fd w Finset.univ ?_
  rw [View.setOn_univ]
  exact fun hm => h ((mem_chunk_r k i).mp hm)

/-- Index `y` of the rectangle of chunk `k`, addressed through the whole buffer, sits at `(k, y 1, y 2)`. -/
theorem access_emb_r (k : Fin 8) (y : S1x64x512.Idx) :
    ((rM).access (ckR k)).emb y = ix3 k (y 1 : Fin 64) (y 2 : Fin 512) := ckR_emb k y

/-- A store of a whole `[1, 64, 512]` block `v` at chunk `k`: inside the chunk the new contents are `v`'s, -/
theorem store_chunk_r (k : Fin 8) (f : S8x64x512.Idx → Val .bf16) (v : S1x64x512.Idx → Val .bf16)
    (i : S8x64x512.Idx) (h : (i 0 : Fin 8) = k) :
    ((rM).access (ckR k)).write Val f v Finset.univ i = v (ix3 (0 : Fin 1) (i 1 : Fin 64) (i 2 : Fin 512)) := by
  have e : ((rM).access (ckR k)).emb (ix3 (0 : Fin 1) (i 1 : Fin 64) (i 2 : Fin 512)) = i :=
    (ckR_emb k _).trans (idx_of_lead i h).symm
  have hw := View.write_emb_of_mem (v := (rM).access (ckR k)) (Val := Val) f v (M := Finset.univ)
    (x := ix3 (0 : Fin 1) (i 1 : Fin 64) (i 2 : Fin 512)) (Finset.mem_univ _)
  rw [e] at hw
  exact hw

/-- and outside it they are unchanged. -/
theorem store_chunk_r_of_ne (k : Fin 8) (f : S8x64x512.Idx → Val .bf16) (v : S1x64x512.Idx → Val .bf16)
    (i : S8x64x512.Idx) (h : (i 0 : Fin 8) ≠ k) :
    ((rM).access (ckR k)).write Val f v Finset.univ i = f i := by
  refine View.write_of_not_mem (v := (rM).access (ckR k)) (Val := Val) f v Finset.univ ?_
  rw [View.setOn_univ]
  intro hm
  obtain ⟨y, rfl⟩ := View.exists_emb_of_mem_set _ hm
  exact h (congrFun (ckR_emb k y) 0)

/-- The same for a list of stores, the newest first: an element of chunk `k` holds what the newest store, at chunk
`k`, wrote there, -/
theorem recv_writes_hit (k : Fin 8) (f : S8x64x512.Idx → Val .bf16) (v : S1x64x512.Idx → Val .bf16)
    (L : List (View.Piece Val S8x64x512 .bf16)) (i : S8x64x512.Idx) (h : (i 0 : Fin 8) = k) :
    (rM).view.writes Val f (⟨ckR k, v⟩ :: L) i = v (ix3 (0 : Fin 1) (i 1 : Fin 64) (i 2 : Fin 512)) :=
  store_chunk_r k ((rM).view.writes Val f L) v i h

/-- and an element of another chunk holds what the earlier stores left. -/
theorem recv_writes_miss (k : Fin 8) (f : S8x64x512.Idx → Val .bf16) (v : S1x64x512.Idx → Val .bf16)
    (L : List (View.Piece Val S8x64x512 .bf16)) (i : S8x64x512.Idx) (h : (i 0 : Fin 8) ≠ k) :
    (rM).view.writes Val f (⟨ckR k, v⟩ :: L) i = (rM).view.writes Val f L i :=
  store_chunk_r_of_ne k ((rM).view.writes Val f L) v i h

/-- A load of a whole `[1, 64, 512]` block at chunk `k` reads, at `(0, r, j)`, the buffer at `(k, r, j)`. -/
theorem load_chunk_r (k : Fin 8) (f : S8x64x512.Idx → Val .bf16) (r : Fin 64) (j : Fin 512) :
    (rM).view.readAt Val (ckR k).toLoadRect f (ix3 (0 : Fin 1) r j) = f (ix3 k r j) := by
  show ((rM).access (ckR k)).read Val f (ix3 (0 : Fin 1) r j) = _
  rw [View.read_apply, access_emb_r]; rfl

/-! ## The output buffer: eight blocks of 64 rows -/

theorem inbO (k : Fin 8) : ∀ a, (![64 * k.val, 0] : Fin 2 → Nat) a + S64x512.size a ≤ S512x512.size a := by
  revert k; decide

/-- Rows `64 k … 64 k + 63` of the output. -/
abbrev oR (k : Fin 8) : Rect S512x512 := Rect.unit (s := S512x512) ![64 * k.val, 0] S64x512.size (inbO k)

/-- Index `y` of block `k` sits at row `64 k + y 0`, column `y 1`. -/
theorem oR_emb (k : Fin 8) (y : S64x512.Idx) :
    (oR k).emb y
      = ix2 (⟨64 * k.val + (y 0).val, by have h0 : (y 0).val < 64 := (y 0).isLt; have hk := k.isLt; omega⟩ : Fin 512)
          (y 1 : Fin 512) := by
  funext a
  apply Fin.ext
  match a with
  | ⟨0, _⟩ =>
    show 64 * k.val + 1 * (y 0).val = 64 * k.val + (y 0).val
    omega
  | ⟨1, _⟩ =>
    show 0 + 1 * (y 1).val = (y 1).val
    omega

/-- The array whose rows `64 k … 64 k + 63` are block `w k`: entry `(R, j)` is entry `(R mod 64, j)` of block
`R / 64`. -/
def outOf (w : Fin 8 → S64x512.Idx → Val .bf16) (i : S512x512.Idx) : Val .bf16 :=
  w ⟨(i 0).val / 64, by have h : (i 0).val < 512 := (i 0).isLt; omega⟩
    (ix2 (⟨(i 0).val % 64, Nat.mod_lt _ (by decide)⟩ : Fin 64) (i 1 : Fin 512))

theorem outOf_apply (w : Fin 8 → S64x512.Idx → Val .bf16) (i : S512x512.Idx) :
    outOf w i = w ⟨(i 0).val / 64, by have h : (i 0).val < 512 := (i 0).isLt; omega⟩
      (ix2 (⟨(i 0).val % 64, Nat.mod_lt _ (by decide)⟩ : Fin 64) (i 1 : Fin 512)) := rfl

/-- On block `k` that array is `w k`. -/
theorem outOf_emb (w : Fin 8 → S64x512.Idx → Val .bf16) (k : Fin 8) (x : S64x512.Idx) :
    outOf w ((oR k).emb x) = w k x := by
  rw [oR_emb]
  unfold outOf
  have h0 : (x 0).val < 64 := (x 0).isLt
  refine congrArg₂ (fun a b => w a b) (Fin.ext ?_) ?_
  · show (64 * k.val + (x 0).val) / 64 = k.val
    omega
  · refine Eq.trans ?_ (eq_ix2 x).symm
    refine congrArg₂ (fun a b => ix2 a b) (Fin.ext ?_) rfl
    show (64 * k.val + (x 0).val) % 64 = (x 0).val
    omega

/-- The eight whole-block writes, the newest first. -/
abbrev outList (w : Fin 8 → S64x512.Idx → Val .bf16) : List (View.Piece Val S512x512 .bf16) :=
  [⟨oR 7, w 7⟩, ⟨oR 6, w 6⟩, ⟨oR 5, w 5⟩, ⟨oR 4, w 4⟩, ⟨oR 3, w 3⟩, ⟨oR 2, w 2⟩, ⟨oR 1, w 1⟩, ⟨oR 0, w 0⟩]

theorem mem_outList (w : Fin 8 → S64x512.Idx → Val .bf16) (k : Fin 8) :
    (⟨oR k, w k⟩ : View.Piece Val S512x512 .bf16) ∈ outList w := by
  fin_cases k <;> simp [outList]

/-- The elements of block `k` are those of rows `64 k … 64 k + 63`. -/
theorem mem_oR (k : Fin 8) (i : S512x512.Idx) :
    i ∈ (oR k).set ↔ 64 * k.val ≤ (i 0).val ∧ (i 0).val < 64 * k.val + 64 := by
  rw [Rect.mem_set_unit]
  constructor
  · intro h
    exact h 0
  · intro h a
    have hj : (i 1).val < 512 := (i 1).isLt
    match a with
    | ⟨0, _⟩ => exact h
    | ⟨1, _⟩ =>
      show 0 ≤ (i 1).val ∧ (i 1).val < 0 + 512
      omega

/-- Each of the eight writes writes its block of the array `outOf w`. -/
theorem outList_pieces (w : Fin 8 → S64x512.Idx → Val .bf16) :
    ∀ p ∈ outList w, ∀ x : p.1.shape.Idx, p.2 x = outOf w (p.1.emb x) := by
  intro p hp
  simp only [outList, List.mem_cons, List.not_mem_nil, or_false] at hp
  rcases hp with rfl | rfl | rfl | rfl | rfl | rfl | rfl | rfl
  · exact fun x => (outOf_emb w 7 x).symm
  · exact fun x => (outOf_emb w 6 x).symm
  · exact fun x => (outOf_emb w 5 x).symm
  · exact fun x => (outOf_emb w 4 x).symm
  · exact fun x => (outOf_emb w 3 x).symm
  · exact fun x => (outOf_emb w 2 x).symm
  · exact fun x => (outOf_emb w 1 x).symm
  · exact fun x => (outOf_emb w 0 x).symm

/-- The eight blocks cover the output. -/
theorem outList_cover (w : Fin 8 → S64x512.Idx → Val .bf16) (i : S512x512.Idx) :
    ∃ p ∈ outList w, i ∈ p.1.set := by
  have hi : (i 0).val < 512 := (i 0).isLt
  obtain ⟨k, hk⟩ : ∃ k : Fin 8, k.val = (i 0).val / 64 := ⟨⟨(i 0).val / 64, by omega⟩, rfl⟩
  refine ⟨⟨oR k, w k⟩, mem_outList w k, ?_⟩
  show i ∈ (oR k).set
  rw [mem_oR]
  omega

/-- After the eight writes every element of the output is its block's, whatever the buffer held before. -/
theorem out_writes (w : Fin 8 → S64x512.Idx → Val .bf16) (f2 : S512x512.Idx → Val .bf16) (i : S512x512.Idx) :
    oM.view.writes Val f2 (outList w) i = outOf w i :=
  (congrFun (View.read_whole (Val := Val) cc0_stg2_0 (oM.view.writes Val f2 (outList w))) i).symm.trans
    (View.read_writes_apply_of_pieces oM.view f2 (outOf w) (outList w) (outList_pieces w) i (outList_cover w i))

/-- A load of block `k` of the output reads, at `(r, j)`, the buffer at `(64 k + r, j)`. -/
theorem load_out (k : Fin 8) (f : S512x512.Idx → Val .bf16) (r : Fin 64) (j : Fin 512) :
    oM.view.readAt Val (oR k).toLoadRect f (ix2 r j)
      = f (ix2 (⟨64 * k.val + r.val, by have := r.isLt; have := k.isLt; omega⟩ : Fin 512) j) := by
  show (oM.access (oR k)).read Val f (ix2 r j) = _
  rw [View.read_apply]
  exact congrArg f (oR_emb k (ix2 r j))

/-- One whole-block store at block `k` of the output: rows `64 k … 64 k + 63` take the block, -/
theorem store_out (k : Fin 8) (f : S512x512.Idx → Val .bf16) (v : S64x512.Idx → Val .bf16) (i : S512x512.Idx)
    (h : 64 * k.val ≤ (i 0).val ∧ (i 0).val < 64 * k.val + 64) :
    (oM.access (oR k)).write Val f v Finset.univ i
      = v (ix2 (⟨(i 0).val - 64 * k.val, by omega⟩ : Fin 64) (i 1 : Fin 512)) := by
  have e : (oM.access (oR k)).emb (ix2 (⟨(i 0).val - 64 * k.val, by omega⟩ : Fin 64) (i 1 : Fin 512)) = i := by
    refine (oR_emb k _).trans (Eq.trans ?_ (eq_ix2 i).symm)
    refine congrArg₂ (fun a b => ix2 a b) (Fin.ext ?_) rfl
    show 64 * k.val + ((i 0).val - 64 * k.val) = (i 0).val
    omega
  have hw := View.write_emb_of_mem (v := oM.access (oR k)) (Val := Val) f v (M := Finset.univ)
    (x := ix2 (⟨(i 0).val - 64 * k.val, by omega⟩ : Fin 64) (i 1 : Fin 512)) (Finset.mem_univ _)
  rw [e] at hw
  exact hw

/-- and the other rows are unchanged. -/
theorem store_out_of_not (k : Fin 8) (f : S512x512.Idx → Val .bf16) (v : S64x512.Idx → Val .bf16) (i : S512x512.Idx)
    (h : ¬ (64 * k.val ≤ (i 0).val ∧ (i 0).val < 64 * k.val + 64)) :
    (oM.access (oR k)).write Val f v Finset.univ i = f i := by
  refine View.write_of_not_mem (v := oM.access (oR k)) (Val := Val) f v Finset.univ ?_
  rw [View.setOn_univ]
  intro hm
  obtain ⟨y, rfl⟩ := View.exists_emb_of_mem_set _ hm
  have h0 : (y 0).val < 64 := (y 0).isLt
  have e : (((oM.access (oR k)).emb y) 0).val = 64 * k.val + (y 0).val := congrArg Fin.val (congrFun (oR_emb k y) 0)
  exact h (by rw [e]; omega)

/-! ## The two arguments -/

/-- A window of 64 rows of the `[1, 1024, 512]` argument starting at row `off 1` reads, at `(0, r, j)`, the argument
at `(0, off 1 + r, j)`. -/
theorem load_rows (off : Fin 3 → Nat) (h : ∀ a, off a + S1x64x512.size a ≤ S1x1024x512.size a)
    (h0 : off 0 = 0) (h2 : off 2 = 0) (x : S1x1024x512.Idx → Val .f32) (r : Fin 64) (j : Fin 512) :
    xM.view.readAt Val (Rect.unit (s := S1x1024x512) off S1x64x512.size h).toLoadRect x (ix3 (0 : Fin 1) r j)
      = x (ix3 (0 : Fin 1)
          (⟨off 1 + r.val, by have h1 : off 1 + 64 ≤ 1024 := h 1; have := r.isLt; omega⟩ : Fin 1024) j) := by
  show (xM.access (Rect.unit (s := S1x1024x512) off S1x64x512.size h)).read Val x (ix3 (0 : Fin 1) r j) = _
  rw [View.read_apply]
  refine congrArg x (funext fun a => Fin.ext ?_)
  match a with
  | ⟨0, _⟩ =>
    show off 0 + 1 * 0 = 0
    omega
  | ⟨1, _⟩ =>
    show off 1 + 1 * r.val = off 1 + r.val
    omega
  | ⟨2, _⟩ =>
    show off 2 + 1 * j.val = j.val
    omega

/-- A load of the whole scaling vector reads it. -/
theorem load_gamma (h : ∀ a, (![0] : Fin 1 → Nat) a + S512.size a ≤ S512.size a) (g : S512.Idx → Val .f32) :
    gM.view.readAt Val (Rect.unit (s := S512) ![0] S512.size h).toLoadRect g = g :=
  Memref.readAt_unit_zero Val cc0_stg1_0 (funext fun a => match a with | ⟨0, _⟩ => rfl) h g

end Cert.Kernel.Hand

end
-- ==== Proof.KernelLand.lean ====
/-
  What a copied chunk holds when it lands.

  Chunk `k` of the partner's receive buffer, once written with what chunk `k` of the sender's send buffer holds, holds
  at `(k, r, j)` the sender's stored value at `(0, r, j)`: the write through the destination chunk replaces exactly
  the elements with leading coordinate `k`, the read through the source chunk reads the same elements of the send
  buffer, and the newest store into the send buffer is the one into chunk `k`. These are the receive buffer's named
  contents, because the sender is its partner's partner. A chunk also stays inside what is left of a buffer after
  other chunks have been taken out, since different chunks are disjoint.
-/
import proofs.«900479_g7700000000000480_dist_rsrms_v7x_xyz2x2x4_y_m512_d512_bf16_1_alg».proof.Proof.KernelSend
import proofs.«900479_g7700000000000480_dist_rsrms_v7x_xyz2x2x4_y_m512_d512_bf16_1_alg».proof.Proof.KernelGeo

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sub_rest_s {k j : Fin 8} {R : Finset S8x64x512.Idx} (h : (chunk sM k).view.set ⊆ R) (hj : k ≠ j) :
    (chunk sM k).view.set ⊆ R \ (chunk sM j).view.set :=
  Finset.subset_sdiff.mpr ⟨h, chunk_disjoint_s hj⟩

theorem sub_rest_r {k j : Fin 8} {R : Finset S8x64x512.Idx} (h : (chunk rM k).view.set ⊆ R) (hj : k ≠ j) :
    (chunk rM k).view.set ⊆ R \ (chunk rM j).view.set :=
  Finset.subset_sdiff.mpr ⟨h, chunk_disjoint_r hj⟩

theorem landing (c : Dev nD) (k : Fin 8) (f : S8x64x512.Idx → Elt F .bf16) (L : List (View.Piece (Elt F) S8x64x512 .bf16))
    (fn : S8x64x512.Idx → Elt F .bf16) (v : S1x64x512.Idx → Elt F .bf16) (hv : v = k0_pay1 (sendRows m c k)) :
    ∀ i ∈ (chunk rM k).view.set,
      (chunk rM k).view.write (Elt F) fn ((chunk sM k).view.read (Elt F) ((sM).view.writes (Elt F) f (⟨ckR k, v⟩ :: L))) Finset.univ i
        = recvC m (peer c) i := by
  intro i hi
  have hk : (i 0 : Fin 8) = k := (mem_chunk_r k i).mp hi
  rw [chunk_write_r k _ _ i hk, chunk_read_s, send_writes_hit k f v L _ rfl, hv]
  unfold recvC sentC
  rw [peer_peer, hk]
  rfl

/-- After the store into chunk `k`, that chunk of the send buffer holds the rows sent in chunk `k`. -/
theorem sent_eq (c : Dev nD) (k : Fin 8) (f : S8x64x512.Idx → Elt F .bf16) (L : List (View.Piece (Elt F) S8x64x512 .bf16))
    (v : S1x64x512.Idx → Elt F .bf16) (hv : v = k0_pay1 (sendRows m c k)) :
    ∀ i ∈ (chunk sM k).view.set, (sM).view.writes (Elt F) f (⟨ckR k, v⟩ :: L) i = sentC m c i := by
  intro i hi
  have hk : (i 0 : Fin 8) = k := (mem_chunk_s k i).mp hi
  rw [send_writes_hit k f v L i hk, hv]
  unfold sentC
  rw [hk]
  rfl

/-! ## A buffer is its eight chunks -/

/-- A set `I` inside `R` and disjoint from `J` is inside `R` less `J`. -/
theorem sub_sdiff {α : Type} [DecidableEq α] {I R J : Finset α} (h : I ⊆ R) (hd : Disjoint I J) : I ⊆ R \ J :=
  Finset.subset_sdiff.mpr ⟨h, hd⟩

/-- Eight pairwise disjoint sets inside `U`, the last of which is what is left of `U` after the first seven, all held
    at one contents, are `U` held at it: each of the first seven folds back into the rest it would be split from. -/
theorem join8 {ℓ : Loc nD τ sig} (g : Buf (Elt F) ℓ) (S : Fin 8 → Finset (Idx ℓ)) (U : Finset (Idx ℓ))
    (hsub : ∀ k, S k ⊆ U) (hd : ∀ j k, j ≠ k → Disjoint (S j) (S k))
    (hrest : (((((((U \ S 0) \ S 1) \ S 2) \ S 3) \ S 4) \ S 5) \ S 6) = S 7) :
    iprop((ℓ ↦[S 0]{fullShare} g) ∗ (ℓ ↦[S 1]{fullShare} g) ∗ (ℓ ↦[S 2]{fullShare} g) ∗ (ℓ ↦[S 3]{fullShare} g)
        ∗ (ℓ ↦[S 4]{fullShare} g) ∗ (ℓ ↦[S 5]{fullShare} g) ∗ (ℓ ↦[S 6]{fullShare} g) ∗ (ℓ ↦[S 7]{fullShare} g))
      ⊢ ((ℓ ↦[U]{fullShare} g) : sProp 𝕄) := by
  iintro ⟨H0, H1, H2, H3, H4, H5, H6, H7⟩
  ihave H := (Entails.of_eq (congrArg (fun T => ((ℓ ↦[T]{fullShare} g) : sProp 𝕄)) hrest.symm)) $$ H7
  ihave H := (pointsTo_split_subset (sub_sdiff (sub_sdiff (sub_sdiff (sub_sdiff (sub_sdiff (sub_sdiff (hsub 6)
      (hd 6 0 (by decide))) (hd 6 1 (by decide))) (hd 6 2 (by decide))) (hd 6 3 (by decide))) (hd 6 4 (by decide))) (hd 6 5 (by decide)))).2 $$ [H6 H]
  · isplitl [H6]; · iexact H6
    iexact H
  ihave H := (pointsTo_split_subset (sub_sdiff (sub_sdiff (sub_sdiff (sub_sdiff (sub_sdiff (hsub 5)
      (hd 5 0 (by decide))) (hd 5 1 (by decide))) (hd 5 2 (by decide))) (hd 5 3 (by decide))) (hd 5 4 (by decide)))).2 $$ [H5 H]
  · isplitl [H5]; · iexact H5
    iexact H
  ihave H := (pointsTo_split_subset (sub_sdiff (sub_sdiff (sub_sdiff (sub_sdiff (hsub 4)
      (hd 4 0 (by decide))) (hd 4 1 (by decide))) (hd 4 2 (by decide))) (hd 4 3 (by decide)))).2 $$ [H4 H]
  · isplitl [H4]; · iexact H4
    iexact H
  ihave H := (pointsTo_split_subset (sub_sdiff (sub_sdiff (sub_sdiff (hsub 3)
      (hd 3 0 (by decide))) (hd 3 1 (by decide))) (hd 3 2 (by decide)))).2 $$ [H3 H]
  · isplitl [H3]; · iexact H3
    iexact H
  ihave H := (pointsTo_split_subset (sub_sdiff (sub_sdiff (hsub 2) (hd 2 0 (by decide))) (hd 2 1 (by decide)))).2 $$ [H2 H]
  · isplitl [H2]; · iexact H2
    iexact H
  ihave H := (pointsTo_split_subset (sub_sdiff (hsub 1) (hd 1 0 (by decide)))).2 $$ [H1 H]
  · isplitl [H1]; · iexact H1
    iexact H
  ihave H := (pointsTo_split_subset (hsub 0)).2 $$ [H0 H]
  · isplitl [H0]; · iexact H0
    iexact H
  iexact H

/-- What is left of the send buffer once chunks 0 … 6 are taken out is chunk 7. -/
theorem rest7_s :
    ((((((((sM).view.set \ (chunk sM 0).view.set) \ (chunk sM 1).view.set) \ (chunk sM 2).view.set) \ (chunk sM 3).view.set)
      \ (chunk sM 4).view.set) \ (chunk sM 5).view.set) \ (chunk sM 6).view.set) = (chunk sM 7).view.set := by
  ext i
  rw [Finset.mem_sdiff, Finset.mem_sdiff, Finset.mem_sdiff, Finset.mem_sdiff, Finset.mem_sdiff, Finset.mem_sdiff, Finset.mem_sdiff,
    mem_chunk_s, mem_chunk_s, mem_chunk_s, mem_chunk_s, mem_chunk_s, mem_chunk_s, mem_chunk_s, mem_chunk_s, set_s]
  generalize (i 0 : Fin 8) = a
  simp only [Finset.mem_univ, true_and]
  exact (by decide : ∀ a : Fin 8, ((((((¬a = 0 ∧ ¬a = 1) ∧ ¬a = 2) ∧ ¬a = 3) ∧ ¬a = 4) ∧ ¬a = 5) ∧ ¬a = 6) ↔ a = 7) a

/-- The same for the receive buffer. -/
theorem rest7_r :
    ((((((((rM).view.set \ (chunk rM 0).view.set) \ (chunk rM 1).view.set) \ (chunk rM 2).view.set) \ (chunk rM 3).view.set)
      \ (chunk rM 4).view.set) \ (chunk rM 5).view.set) \ (chunk rM 6).view.set) = (chunk rM 7).view.set := by
  ext i
  rw [Finset.mem_sdiff, Finset.mem_sdiff, Finset.mem_sdiff, Finset.mem_sdiff, Finset.mem_sdiff, Finset.mem_sdiff, Finset.mem_sdiff,
    mem_chunk_r, mem_chunk_r, mem_chunk_r, mem_chunk_r, mem_chunk_r, mem_chunk_r, mem_chunk_r, mem_chunk_r, set_r]
  generalize (i 0 : Fin 8) = a
  simp only [Finset.mem_univ, true_and]
  exact (by decide : ∀ a : Fin 8, ((((((¬a = 0 ∧ ¬a = 1) ∧ ¬a = 2) ∧ ¬a = 3) ∧ ¬a = 4) ∧ ¬a = 5) ∧ ¬a = 6) ↔ a = 7) a

end Cert.Kernel.Hand

end
-- ==== Proof.KernelData.lean ====
/-
  What each device computes, and what the launch and the body exchange.

  Device `c` adds, chunk by chunk, 64 rows of its own half to the 64 rows its partner sent, normalises each row by its
  root mean square and scales it; the eight blocks of 64 rows are its result, one function of the two devices'
  staged arguments. The ghost state a body starts from is: every cell's invariant and that round 0 of it is
  reached (persistent, shared by all); its position at round 0 of its own seventeen cells; the tokens of the
  duties it pays — its partner's barrier duty, its own eight send duties, its partner's eight receive duties; the
  credit on its barrier cell and on its eight receive cells; and its two scratch buffers. It ends with the two scratch
  buffers, its sixteen own cells closed at zero, owing nothing, and its result in the output staging buffer.
-/
import proofs.«900479_g7700000000000480_dist_rsrms_v7x_xyz2x2x4_y_m512_d512_bf16_1_alg».proof.Proof.KernelLand

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The values -/

/-- The 64 rows received in chunk `k`, as loaded from the receive buffer. -/
def recvRows (c : Dev nD) (k : Fin 8) : Vec F S1x64x512 .bf16 :=
  (rM : Memref sig .tc .vmem S8x64x512 .bf16).view.readAt (Elt F) (ckR k).toLoadRect (recvC m c)
/-- The scale vector, as loaded. -/
def gRow (c : Dev nD) : Vec F S512 .f32 :=
  (gM : Memref sig .tc .vmem S512 .f32).view.readAt (Elt F) (Rect.unit (s := S512) ![0] S512.size inb_S512_S512_0).toLoadRect (gstg m c)
/-- Block `k` of the result: the normalised sum of the own and the received rows of chunk `k`. -/
def outW (c : Dev nD) (k : Fin 8) : S64x512.Idx → Elt F .bf16 := k0_pay9 (ownRows m c k) (recvRows m c k) (gRow m c)
/-- The result: its rows `64 k … 64 k + 63` are block `k`. -/
def outAt (c : Dev nD) : (cc0_stg2_0 : Ref sig .tc).ty.Contents (Elt F) := outOf (outW m c)

/-! ## The ghost state -/

def records (K : Dev nD × CK → ℕ) : sProp 𝕄 :=
  iprop((bigSep Finset.univ fun cx : Dev nD × CK => cellInv ER (sched m) (K cx) (kcell cx))
    ∗ bigSep Finset.univ fun cx : Dev nD × CK => reached ER (kcell cx) 0)

instance records_persistent (K : Dev nD × CK → ℕ) : BI.Persistent (records m K) := by unfold records; infer_instance

/-- The tokens of the duties device `c` pays. -/
def payToks (c : Dev nD) : sProp 𝕄 :=
  iprop(dutyTok ER (barCell (peer c)) 0 ()
    ∗ (bigSep Finset.univ fun k : Fin 8 => dutyTok ER (sndCell c k) 0 ())
    ∗ (bigSep Finset.univ fun k : Fin 8 => dutyTok ER (rcvCell (peer c) k) 0 ()))
/-- Its positions: round 0 of each of its own cells, nothing consumed. -/
def positions (c : Dev nD) : sProp 𝕄 :=
  iprop(atPos ER (barCell c) 0 ∅ 0
    ∗ (bigSep Finset.univ fun k : Fin 8 => atPos ER (sndCell c k) 0 ∅ 0)
    ∗ (bigSep Finset.univ fun k : Fin 8 => atPos ER (rcvCell c k) 0 ∅ 0))

/-- The invariants device `c`'s body opens, and the rounds it needs reached: its partner's barrier cell (its signal), its own
    seventeen cells (its waits, its copies' send duties), its partner's eight receive cells (its copies). -/
def invs (K : Dev nD × CK → ℕ) (c : Dev nD) : sProp 𝕄 :=
  iprop(cellInv ER (sched m) (K (peer c, .bar)) (barCell (peer c)) ∗ cellInv ER (sched m) (K (c, .bar)) (barCell c)
    ∗ (bigSep Finset.univ fun k : Fin 8 => cellInv ER (sched m) (K (c, .snd k)) (sndCell c k))
    ∗ (bigSep Finset.univ fun k : Fin 8 => cellInv ER (sched m) (K (c, .rcv k)) (rcvCell c k))
    ∗ (bigSep Finset.univ fun k : Fin 8 => cellInv ER (sched m) (K (peer c, .rcv k)) (rcvCell (peer c) k))
    ∗ reached ER (barCell (peer c)) 0
    ∗ (bigSep Finset.univ fun k : Fin 8 => reached ER (sndCell c k) 0)
    ∗ (bigSep Finset.univ fun k : Fin 8 => reached ER (rcvCell (peer c) k) 0))

instance invs_persistent (K : Dev nD × CK → ℕ) (c : Dev nD) : BI.Persistent (invs m K c) := by unfold invs; infer_instance

def ghost (K : Dev nD × CK → ℕ) (c : Dev nD) : sProp 𝕄 := iprop(invs m K c ∗ positions c ∗ payToks c)
def G' (c : Dev nD) : sProp 𝕄 := iprop(∃ K, ghost m K c)

/-- A scratch buffer at some contents. -/
def scr (c : Dev nD) (b : Ref sig .tc) : sProp 𝕄 :=
  iprop(∃ f : Buf (Elt F) ((c : Thread nD τ).loc b), ((c : Thread nD τ).loc b) ↦{fullShare} f)

def credits (c : Dev nD) : sProp 𝕄 :=
  iprop(cred (tallyAt (barCell c) () 1) ∗ (bigSep Finset.univ fun k : Fin 8 => cred (tallyAt (rcvCell c k) () N)))

def start (c : Dev nD) : sProp 𝕄 := iprop(G' m c ∗ credits c ∗ levAts L lv)

def Φ₀ (c : Dev nD) : sProp 𝕄 := iprop(start m c ∗ scr c cc0_scratch0 ∗ scr c cc0_scratch1)
/-- After the point: the two scratch buffers and the sixteen own cells at zero, closed. -/
def Φ₁ (c : Dev nD) : sProp 𝕄 :=
  iprop(scr c cc0_scratch0 ∗ scr c cc0_scratch1
    ∗ (bigSep Finset.univ fun k : Fin 8 => semVal (sndCell c k) 0) ∗ (bigSep Finset.univ fun k : Fin 8 => semVal (rcvCell c k) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0
theorem fin_N (t : Fin cfg0.N) : t = t₀ := fin_N0 t

theorem fetch_0 (t : Fin cfg0.N) : (cfg0.win (0 : Fin 3)).fetch t = true := fetch0_0 t
theorem fetch_1 (t : Fin cfg0.N) : (cfg0.win (1 : Fin 3)).fetch t = true := fetch0_1 t

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ credits c ∗ levAts L lv ∗ scr c cc0_scratch0 ∗ scr c cc0_scratch1)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ (F := F) c ∗ (dats m 0 c).owesAt () t₀.succ
    ∗ stg c cc0_stg0_0 (xstg m c) ∗ stg c cc0_stg1_0 (gstg m c) ∗ stg c cc0_stg2_0 (outAt m c))

end Cert.Kernel.Hand

end
-- ==== Proof.KernelBody.lean ====
/-
  One device's body, from its ghost state to its result.

  The device signals its partner's barrier cell, handing over its own receive buffer, and waits on its own barrier cell,
  which hands it its partner's receive buffer. For each chunk it loads 64 rows of the half its partner owns, stores them
  into the chunk of its send buffer, and copies that chunk into the same chunk of its partner's receive buffer: the
  chunk is split off both buffers, and the copy pays the send duty with the source chunk and the partner's receive
  duty with the written chunk. Then, chunk by chunk, it waits on its receive cell, which hands it the chunk its
  partner wrote, adds it to 64 of its own rows, normalises and stores the block. Last it waits on its eight send
  cells. Every own cell is then closed at zero, the eight stored blocks are the result, and the chunks of both
  scratch buffers fold back into the whole buffers.
-/
import proofs.«900479_g7700000000000480_dist_rsrms_v7x_xyz2x2x4_y_m512_d512_bf16_1_alg».proof.Proof.KernelData

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem payload_bar_peer (c : Dev nD) (d : Unit) :
    (sched (F := F) m).payload (barCell (peer c)) 0 d
      = iprop(∃ f : Buf (Elt F) ((c : Thread nD τ).loc cc0_scratch1), ((c : Thread nD τ).loc cc0_scratch1) ↦{fullShare} f) := by
  rw [payload_bar]; unfold barPay; rw [peer_peer]
theorem payload_snd_pt (c : Dev nD) (k : Fin 8) (d : Unit) :
    (sched (F := F) m).payload (sndCell c k) 0 d
      = ((chunk sM k).view.loc (c : Thread nD τ) ↦[(chunk sM k).view.set]{fullShare} sentC m c) := by
  rw [payload_snd]; rfl
theorem payload_rcv_pt (c : Dev nD) (k : Fin 8) (d : Unit) :
    (sched (F := F) m).payload (rcvCell c k) 0 d
      = ((chunk rM k).view.loc (c : Thread nD τ) ↦[(chunk rM k).view.set]{fullShare} recvC m c) := by
  rw [payload_rcv]; rfl

attribute [local sl_rounds] duties_bar duties_snd duties_rcv amount_bar amount_snd amount_rcv payload_bar payload_snd_pt payload_rcv_pt
  expect_bar expect_snd expect_rcv
attribute [local sl_canon] dev1_eq dev2_eq dev3_eq dev4_eq dev5_eq dev6_eq dev7_eq dev8_eq dev9_eq

set_option maxHeartbeats 8000000 in
/-- The body, symbolically executed from `bodyPre` to `bodyPost`. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  have hmw := mayWait_bar (F := F) c
  unfold bodyPre ghost invs positions payToks credits scr
  rw [bigSep_fin8, bigSep_fin8, bigSep_fin8, bigSep_fin8, bigSep_fin8, bigSep_fin8, bigSep_fin8, bigSep_fin8, bigSep_fin8, bigSep_fin8]
  iintro ⟨⟨⟨⟨⟨#HIbP, #HIb, ⟨#HIs0, #HIs1, #HIs2, #HIs3, #HIs4, #HIs5, #HIs6, #HIs7⟩, ⟨#HIr0, #HIr1, #HIr2, #HIr3, #HIr4, #HIr5, #HIr6, #HIr7⟩,
        ⟨#HIp0, #HIp1, #HIp2, #HIp3, #HIp4, #HIp5, #HIp6, #HIp7⟩, #HrbP, ⟨#Hrs0, #Hrs1, #Hrs2, #Hrs3, #Hrs4, #Hrs5, #Hrs6, #Hrs7⟩,
        ⟨#Hrp0, #Hrp1, #Hrp2, #Hrp3, #Hrp4, #Hrp5, #Hrp6, #Hrp7⟩⟩,
      ⟨HaB, ⟨HaS0, HaS1, HaS2, HaS3, HaS4, HaS5, HaS6, HaS7⟩, ⟨HaR0, HaR1, HaR2, HaR3, HaR4, HaR5, HaR6, HaR7⟩⟩,
      ⟨HtB, ⟨HtS0, HtS1, HtS2, HtS3, HtS4, HtS5, HtS6, HtS7⟩, ⟨HtP0, HtP1, HtP2, HtP3, HtP4, HtP5, HtP6, HtP7⟩⟩⟩,
      ⟨HcB, ⟨HcR0, HcR1, HcR2, HcR3, HcR4, HcR5, HcR6, HcR7⟩⟩, #Hlev, ⟨%f3, Hs⟩, ⟨%f4, Hr⟩⟩,
    Ho_, ⟨%d0, %g0, %hg0, Hx⟩, ⟨%d1, %g1, %hg1, Hg⟩, ⟨%d2, %f2, %hg2, Ho⟩⟩, Hk⟩
  have hx : g0 = xstg m c := by rw [hg0]; unfold Dat.before; rw [if_pos (fetch_0 t₀)]; rfl
  subst hx
  have hg : g1 = gstg m c := by rw [hg1]; unfold Dat.before; rw [if_pos (fetch_1 t₀)]; rfl
  subst hg
  unfold Dat.owesAt Pipeline.owesWithin
  icases Ho_ with ⟨%W, %hW, HO⟩
  rw [show (dats m 0 c).owed t₀.castSucc = O₀ c from rfl]
  unfold O₀ owedSends
  -- the five buffers, through their memrefs' views
  ihave Hx := (Entails.of_eq (show ((((c : Dev nD) : Thread nD τ).loc cc0_stg0_0) ↦{fullShare} xstg m c : sProp 𝕄)
      = ((xM : Memref sig .tc .vmem S1x1024x512 .f32).view.loc (c : Thread nD τ) ↦[(xM : Memref sig .tc .vmem S1x1024x512 .f32).view.set]{fullShare} xstg m c) from by rw [View.set_whole])) $$ Hx
  ihave Hg := (Entails.of_eq (show ((((c : Dev nD) : Thread nD τ).loc cc0_stg1_0) ↦{fullShare} gstg m c : sProp 𝕄)
      = ((gM : Memref sig .tc .vmem S512 .f32).view.loc (c : Thread nD τ) ↦[(gM : Memref sig .tc .vmem S512 .f32).view.set]{fullShare} gstg m c) from by rw [View.set_whole])) $$ Hg
  ihave Ho := (Entails.of_eq (show ((((c : Dev nD) : Thread nD τ).loc cc0_stg2_0) ↦{fullShare} f2 : sProp 𝕄)
      = ((oM : Memref sig .tc .vmem S512x512 .bf16).view.loc (c : Thread nD τ) ↦[(oM : Memref sig .tc .vmem S512x512 .bf16).view.set]{fullShare} f2) from by rw [View.set_whole])) $$ Ho
  ihave Hs := (Entails.of_eq (show ((((c : Dev nD) : Thread nD τ).loc cc0_scratch0) ↦{fullShare} f3 : sProp 𝕄)
      = ((sM : Memref sig .tc .vmem S8x64x512 .bf16).view.loc (c : Thread nD τ) ↦[(sM : Memref sig .tc .vmem S8x64x512 .bf16).view.set]{fullShare} f3) from by rw [View.set_whole])) $$ Hs
  rw [cc0_body_eq_skeleton]; unfold cc0_body_skel
  sl_exec_parts
  -- the entry signal to the partner's barrier cell, handing over this device's receive buffer
  iapply (Rounds.wp_signal 𝒱₀ ER (sched m) (c : Thread nD τ) none (dst := (peer c : Thread nD τ)) (κ := K (peer c, .bar))
      (d := ()) (by rw [duties_bar]; exact Finset.mem_singleton_self _) ((amount_bar m (peer c) ()).trans (by decide)) ()
      (tk c 7 + tk c 6 + tk c 5 + tk c 4 + tk c 3 + tk c 2 + tk c 1 + tk c 0) rfl) $$ [HO HtB Hr]
  · isplitr; · iexact HIbP
    isplitl [HO]; · iexact HO
    isplitl [HtB]; · iexact HtB
    isplitl [Hr]
    · rw [payload_bar_peer]; iexists f4; iexact Hr
    · iexact HrbP
  iintro HO
  sl_exec
  -- the partner's receive buffer came with the barrier's payload
  unfold barPay
  icases HaB_pay1 with ⟨%fn, Hp⟩
  ihave Hp := (Entails.of_eq (show ((((peer c : Dev nD) : Thread nD τ).loc cc0_scratch1) ↦{fullShare} fn : sProp 𝕄)
      = ((rM : Memref sig .tc .vmem S8x64x512 .bf16).view.loc (peer c : Thread nD τ) ↦[(rM : Memref sig .tc .vmem S8x64x512 .bf16).view.set]{fullShare} fn) from by rw [View.set_whole])) $$ Hp
  -- chunk 0
  iapply (send_step m K c _ (dev2_eq c) (0 : Fin 8) _ _ (chunk_subset_s 0) (chunk_subset_r 0) _ fn
      (tk c 7 + tk c 6 + tk c 5 + tk c 4 + tk c 3 + tk c 2 + tk c 1) _ (sent_eq m c (0 : Fin 8) _ _ _ rfl) (landing m c (0 : Fin 8) _ _ fn _ rfl)) $$ [Hs Hp HO HtS0 HtP0]
  · isplitr; · iexact HIs0
    isplitr; · iexact HIp0
    isplitl [Hs]; · iexact Hs
    isplitl [Hp]; · iexact Hp
    isplitl [HO]; · iexact HO
    isplitl [HtS0]; · iexact HtS0
    isplitr; · iexact Hrs0
    isplitl [HtP0]; · iexact HtP0
    iexact Hrp0
  iintro ⟨HcS0, HO, Hs, Hp⟩
  sl_exec
  -- chunk 1
  iapply (send_step m K c _ (dev3_eq c) (1 : Fin 8) _ _
      (sub_rest_s (chunk_subset_s 1) (j := 0) (by decide))
      (sub_rest_r (chunk_subset_r 1) (j := 0) (by decide)) _ fn
      (tk c 7 + tk c 6 + tk c 5 + tk c 4 + tk c 3 + tk c 2) _ (sent_eq m c (1 : Fin 8) _ _ _ rfl) (landing m c (1 : Fin 8) _ _ fn _ rfl)) $$ [Hs Hp HO HtS1 HtP1]
  · isplitr; · iexact HIs1
    isplitr; · iexact HIp1
    isplitl [Hs]; · iexact Hs
    isplitl [Hp]; · iexact Hp
    isplitl [HO]; · iexact HO
    isplitl [HtS1]; · iexact HtS1
    isplitr; · iexact Hrs1
    isplitl [HtP1]; · iexact HtP1
    iexact Hrp1
  iintro ⟨HcS1, HO, Hs, Hp⟩
  sl_exec
  -- chunk 2
  iapply (send_step m K c _ (dev4_eq c) (2 : Fin 8) _ _
      (sub_rest_s (sub_rest_s (chunk_subset_s 2) (j := 0) (by decide)) (j := 1) (by decide))
      (sub_rest_r (sub_rest_r (chunk_subset_r 2) (j := 0) (by decide)) (j := 1) (by decide)) _ fn
      (tk c 7 + tk c 6 + tk c 5 + tk c 4 + tk c 3) _ (sent_eq m c (2 : Fin 8) _ _ _ rfl) (landing m c (2 : Fin 8) _ _ fn _ rfl)) $$ [Hs Hp HO HtS2 HtP2]
  · isplitr; · iexact HIs2
    isplitr; · iexact HIp2
    isplitl [Hs]; · iexact Hs
    isplitl [Hp]; · iexact Hp
    isplitl [HO]; · iexact HO
    isplitl [HtS2]; · iexact HtS2
    isplitr; · iexact Hrs2
    isplitl [HtP2]; · iexact HtP2
    iexact Hrp2
  iintro ⟨HcS2, HO, Hs, Hp⟩
  sl_exec
  -- chunk 3
  iapply (send_step m K c _ (dev5_eq c) (3 : Fin 8) _ _
      (sub_rest_s (sub_rest_s (sub_rest_s (chunk_subset_s 3) (j := 0) (by decide)) (j := 1) (by decide)) (j := 2) (by decide))
      (sub_rest_r (sub_rest_r (sub_rest_r (chunk_subset_r 3) (j := 0) (by decide)) (j := 1) (by decide)) (j := 2) (by decide)) _ fn
      (tk c 7 + tk c 6 + tk c 5 + tk c 4) _ (sent_eq m c (3 : Fin 8) _ _ _ rfl) (landing m c (3 : Fin 8) _ _ fn _ rfl)) $$ [Hs Hp HO HtS3 HtP3]
  · isplitr; · iexact HIs3
    isplitr; · iexact HIp3
    isplitl [Hs]; · iexact Hs
    isplitl [Hp]; · iexact Hp
    isplitl [HO]; · iexact HO
    isplitl [HtS3]; · iexact HtS3
    isplitr; · iexact Hrs3
    isplitl [HtP3]; · iexact HtP3
    iexact Hrp3
  iintro ⟨HcS3, HO, Hs, Hp⟩
  sl_exec
  -- chunk 4
  iapply (send_step m K c _ (dev6_eq c) (4 : Fin 8) _ _
      (sub_rest_s (sub_rest_s (sub_rest_s (sub_rest_s (chunk_subset_s 4) (j := 0) (by decide)) (j := 1) (by decide)) (j := 2) (by decide)) (j := 3) (by decide))
      (sub_rest_r (sub_rest_r (sub_rest_r (sub_rest_r (chunk_subset_r 4) (j := 0) (by decide)) (j := 1) (by decide)) (j := 2) (by decide)) (j := 3) (by decide)) _ fn
      (tk c 7 + tk c 6 + tk c 5) _ (sent_eq m c (4 : Fin 8) _ _ _ rfl) (landing m c (4 : Fin 8) _ _ fn _ rfl)) $$ [Hs Hp HO HtS4 HtP4]
  · isplitr; · iexact HIs4
    isplitr; · iexact HIp4
    isplitl [Hs]; · iexact Hs
    isplitl [Hp]; · iexact Hp
    isplitl [HO]; · iexact HO
    isplitl [HtS4]; · iexact HtS4
    isplitr; · iexact Hrs4
    isplitl [HtP4]; · iexact HtP4
    iexact Hrp4
  iintro ⟨HcS4, HO, Hs, Hp⟩
  sl_exec
  -- chunk 5
  iapply (send_step m K c _ (dev7_eq c) (5 : Fin 8) _ _
      (sub_rest_s (sub_rest_s (sub_rest_s (sub_rest_s (sub_rest_s (chunk_subset_s 5) (j := 0) (by decide)) (j := 1) (by decide)) (j := 2) (by decide)) (j := 3) (by decide)) (j := 4) (by decide))
      (sub_rest_r (sub_rest_r (sub_rest_r (sub_rest_r (sub_rest_r (chunk_subset_r 5) (j := 0) (by decide)) (j := 1) (by decide)) (j := 2) (by decide)) (j := 3) (by decide)) (j := 4) (by decide)) _ fn
      (tk c 7 + tk c 6) _ (sent_eq m c (5 : Fin 8) _ _ _ rfl) (landing m c (5 : Fin 8) _ _ fn _ rfl)) $$ [Hs Hp HO HtS5 HtP5]
  · isplitr; · iexact HIs5
    isplitr; · iexact HIp5
    isplitl [Hs]; · iexact Hs
    isplitl [Hp]; · iexact Hp
    isplitl [HO]; · iexact HO
    isplitl [HtS5]; · iexact HtS5
    isplitr; · iexact Hrs5
    isplitl [HtP5]; · iexact HtP5
    iexact Hrp5
  iintro ⟨HcS5, HO, Hs, Hp⟩
  sl_exec
  -- chunk 6
  iapply (send_step m K c _ (dev8_eq c) (6 : Fin 8) _ _
      (sub_rest_s (sub_rest_s (sub_rest_s (sub_rest_s (sub_rest_s (sub_rest_s (chunk_subset_s 6) (j := 0) (by decide)) (j := 1) (by decide)) (j := 2) (by decide)) (j := 3) (by decide)) (j := 4) (by decide)) (j := 5) (by decide))
      (sub_rest_r (sub_rest_r (sub_rest_r (sub_rest_r (sub_rest_r (sub_rest_r (chunk_subset_r 6) (j := 0) (by decide)) (j := 1) (by decide)) (j := 2) (by decide)) (j := 3) (by decide)) (j := 4) (by decide)) (j := 5) (by decide)) _ fn
      (tk c 7) _ (sent_eq m c (6 : Fin 8) _ _ _ rfl) (landing m c (6 : Fin 8) _ _ fn _ rfl)) $$ [Hs Hp HO HtS6 HtP6]
  · isplitr; · iexact HIs6
    isplitr; · iexact HIp6
    isplitl [Hs]; · iexact Hs
    isplitl [Hp]; · iexact Hp
    isplitl [HO]; · iexact HO
    isplitl [HtS6]; · iexact HtS6
    isplitr; · iexact Hrs6
    isplitl [HtP6]; · iexact HtP6
    iexact Hrp6
  iintro ⟨HcS6, HO, Hs, Hp⟩
  sl_exec
  -- chunk 7: the last credit owed
  iapply (send_step m K c _ (dev9_eq c) (7 : Fin 8) _ _
      (sub_rest_s (sub_rest_s (sub_rest_s (sub_rest_s (sub_rest_s (sub_rest_s (sub_rest_s (chunk_subset_s 7) (j := 0) (by decide)) (j := 1) (by decide)) (j := 2) (by decide)) (j := 3) (by decide)) (j := 4) (by decide)) (j := 5) (by decide)) (j := 6) (by decide))
      (sub_rest_r (sub_rest_r (sub_rest_r (sub_rest_r (sub_rest_r (sub_rest_r (sub_rest_r (chunk_subset_r 7) (j := 0) (by decide)) (j := 1) (by decide)) (j := 2) (by decide)) (j := 3) (by decide)) (j := 4) (by decide)) (j := 5) (by decide)) (j := 6) (by decide)) _ fn
      0 _ (sent_eq m c (7 : Fin 8) _ _ _ rfl) (landing m c (7 : Fin 8) _ _ fn _ rfl)) $$ [Hs Hp HO HtS7 HtP7]
  · isplitr; · iexact HIs7
    isplitr; · iexact HIp7
    isplitl [Hs]; · iexact Hs
    isplitl [Hp]; · iexact Hp
    isplitl [HO]; · rw [zero_add]; iexact HO
    isplitl [HtS7]; · iexact HtS7
    isplitr; · iexact Hrs7
    isplitl [HtP7]; · iexact HtP7
    iexact Hrp7
  iintro ⟨HcS7, HO, Hs, Hp⟩
  -- the eight receive waits, the sums and normalisations, the eight stores, the eight send waits
  sl_exec
  -- every own cell is closed: its counter at zero is the device's again
  imod (Rounds.cell_close ER (sched m) (Set.mem_univ (K (c, .snd 0))) (fun h => h) (R := 1) (duties_later m (sndCell c 0))) $$ [HaS0] with HzS0
  · isplitr; · iexact HIs0
    iexact HaS0
  imod (Rounds.cell_close ER (sched m) (Set.mem_univ (K (c, .snd 1))) (fun h => h) (R := 1) (duties_later m (sndCell c 1))) $$ [HaS1] with HzS1
  · isplitr; · iexact HIs1
    iexact HaS1
  imod (Rounds.cell_close ER (sched m) (Set.mem_univ (K (c, .snd 2))) (fun h => h) (R := 1) (duties_later m (sndCell c 2))) $$ [HaS2] with HzS2
  · isplitr; · iexact HIs2
    iexact HaS2
  imod (Rounds.cell_close ER (sched m) (Set.mem_univ (K (c, .snd 3))) (fun h => h) (R := 1) (duties_later m (sndCell c 3))) $$ [HaS3] with HzS3
  · isplitr; · iexact HIs3
    iexact HaS3
  imod (Rounds.cell_close ER (sched m) (Set.mem_univ (K (c, .snd 4))) (fun h => h) (R := 1) (duties_later m (sndCell c 4))) $$ [HaS4] with HzS4
  · isplitr; · iexact HIs4
    iexact HaS4
  imod (Rounds.cell_close ER (sched m) (Set.mem_univ (K (c, .snd 5))) (fun h => h) (R := 1) (duties_later m (sndCell c 5))) $$ [HaS5] with HzS5
  · isplitr; · iexact HIs5
    iexact HaS5
  imod (Rounds.cell_close ER (sched m) (Set.mem_univ (K (c, .snd 6))) (fun h => h) (R := 1) (duties_later m (sndCell c 6))) $$ [HaS6] with HzS6
  · isplitr; · iexact HIs6
    iexact HaS6
  imod (Rounds.cell_close ER (sched m) (Set.mem_univ (K (c, .snd 7))) (fun h => h) (R := 1) (duties_later m (sndCell c 7))) $$ [HaS7] with HzS7
  · isplitr; · iexact HIs7
    iexact HaS7
  imod (Rounds.cell_close ER (sched m) (Set.mem_univ (K (c, .rcv 0))) (fun h => h) (R := 1) (duties_later m (rcvCell c 0))) $$ [HaR0] with HzR0
  · isplitr; · iexact HIr0
    iexact HaR0
  imod (Rounds.cell_close ER (sched m) (Set.mem_univ (K (c, .rcv 1))) (fun h => h) (R := 1) (duties_later m (rcvCell c 1))) $$ [HaR1] with HzR1
  · isplitr; · iexact HIr1
    iexact HaR1
  imod (Rounds.cell_close ER (sched m) (Set.mem_univ (K (c, .rcv 2))) (fun h => h) (R := 1) (duties_later m (rcvCell c 2))) $$ [HaR2] with HzR2
  · isplitr; · iexact HIr2
    iexact HaR2
  imod (Rounds.cell_close ER (sched m) (Set.mem_univ (K (c, .rcv 3))) (fun h => h) (R := 1) (duties_later m (rcvCell c 3))) $$ [HaR3] with HzR3
  · isplitr; · iexact HIr3
    iexact HaR3
  imod (Rounds.cell_close ER (sched m) (Set.mem_univ (K (c, .rcv 4))) (fun h => h) (R := 1) (duties_later m (rcvCell c 4))) $$ [HaR4] with HzR4
  · isplitr; · iexact HIr4
    iexact HaR4
  imod (Rounds.cell_close ER (sched m) (Set.mem_univ (K (c, .rcv 5))) (fun h => h) (R := 1) (duties_later m (rcvCell c 5))) $$ [HaR5] with HzR5
  · isplitr; · iexact HIr5
    iexact HaR5
  imod (Rounds.cell_close ER (sched m) (Set.mem_univ (K (c, .rcv 6))) (fun h => h) (R := 1) (duties_later m (rcvCell c 6))) $$ [HaR6] with HzR6
  · isplitr; · iexact HIr6
    iexact HaR6
  imod (Rounds.cell_close ER (sched m) (Set.mem_univ (K (c, .rcv 7))) (fun h => h) (R := 1) (duties_later m (rcvCell c 7))) $$ [HaR7] with HzR7
  · isplitr; · iexact HIr7
    iexact HaR7
  -- the eight stored blocks are the result, whatever the staging buffer held before
  ihave Ho := (Entails.of_eq (pointsTo_congr (g := outAt m c) (fun i _ => out_writes (outW m c) f2 i))) $$ Ho
  -- the chunks of the two scratch buffers fold back into the whole buffers
  ihave Hrb := (join8 (ℓ := (rM : Memref sig .tc .vmem S8x64x512 .bf16).view.loc (c : Thread nD τ)) (recvC m c)
      (fun k => (chunk rM k).view.set) (rM : Memref sig .tc .vmem S8x64x512 .bf16).view.set chunk_subset_r (fun j k h => chunk_disjoint_r h) rest7_r)
    $$ [HaR0_pay1 HaR1_pay1 HaR2_pay1 HaR3_pay1 HaR4_pay1 HaR5_pay1 HaR6_pay1 HaR7_pay1]
  · isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    isplitl [HaR6_pay1]; · iexact HaR6_pay1
    iexact HaR7_pay1
  ihave Hsb := (join8 (ℓ := (sM : Memref sig .tc .vmem S8x64x512 .bf16).view.loc (c : Thread nD τ)) (sentC m c)
      (fun k => (chunk sM k).view.set) (sM : Memref sig .tc .vmem S8x64x512 .bf16).view.set chunk_subset_s (fun j k h => chunk_disjoint_s h) rest7_s)
    $$ [HaS0_pay1 HaS1_pay1 HaS2_pay1 HaS3_pay1 HaS4_pay1 HaS5_pay1 HaS6_pay1 HaS7_pay1]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact HaS7_pay1
  -- back to the buffers' plain names
  ihave Hx := (Entails.of_eq (show ((xM : Memref sig .tc .vmem S1x1024x512 .f32).view.loc (c : Thread nD τ) ↦[(xM : Memref sig .tc .vmem S1x1024x512 .f32).view.set]{fullShare} xstg m c : sProp 𝕄)
      = ((((c : Dev nD) : Thread nD τ).loc cc0_stg0_0) ↦{fullShare} xstg m c) from by rw [View.set_whole])) $$ Hx
  ihave Hg := (Entails.of_eq (show ((gM : Memref sig .tc .vmem S512 .f32).view.loc (c : Thread nD τ) ↦[(gM : Memref sig .tc .vmem S512 .f32).view.set]{fullShare} gstg m c : sProp 𝕄)
      = ((((c : Dev nD) : Thread nD τ).loc cc0_stg1_0) ↦{fullShare} gstg m c) from by rw [View.set_whole])) $$ Hg
  ihave Ho := (Entails.of_eq (show ((oM : Memref sig .tc .vmem S512x512 .bf16).view.loc (c : Thread nD τ) ↦[(oM : Memref sig .tc .vmem S512x512 .bf16).view.set]{fullShare} outAt m c : sProp 𝕄)
      = ((((c : Dev nD) : Thread nD τ).loc cc0_stg2_0) ↦{fullShare} outAt m c) from by rw [View.set_whole])) $$ Ho
  ihave Hsb := (Entails.of_eq (show ((sM : Memref sig .tc .vmem S8x64x512 .bf16).view.loc (c : Thread nD τ) ↦[(sM : Memref sig .tc .vmem S8x64x512 .bf16).view.set]{fullShare} sentC m c : sProp 𝕄)
      = ((((c : Dev nD) : Thread nD τ).loc cc0_scratch0) ↦{fullShare} sentC m c) from by rw [View.set_whole])) $$ Hsb
  ihave Hrb := (Entails.of_eq (show ((rM : Memref sig .tc .vmem S8x64x512 .bf16).view.loc (c : Thread nD τ) ↦[(rM : Memref sig .tc .vmem S8x64x512 .bf16).view.set]{fullShare} recvC m c : sProp 𝕄)
      = ((((c : Dev nD) : Thread nD τ).loc cc0_scratch1) ↦{fullShare} recvC m c) from by rw [View.set_whole])) $$ Hrb
  rw [wp_ret]; imodintro
  iapply Hk
  unfold bodyPost Φ₁ scr Dat.owesAt Pipeline.owesWithin
  rw [show (dats m 0 c).owed t₀.succ = 0 from rfl, bigSep_fin8, bigSep_fin8]
  isplitl [Hsb Hrb HzS0 HzS1 HzS2 HzS3 HzS4 HzS5 HzS6 HzS7 HzR0 HzR1 HzR2 HzR3 HzR4 HzR5 HzR6 HzR7]
  · isplitl [Hsb]; · iexists (sentC m c); iexact Hsb
    isplitl [Hrb]; · iexists (recvC m c); iexact Hrb
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      iexact HzR7
  isplitl [HO]
  · iexists _
    isplitr
    swap
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr; · (ipureintro; rfl)
  iexact Ho

end Cert.Kernel.Hand

end
-- ==== Proof.KernelLaunch.lean ====
/-
  The launch: from every device's body to the run of the whole program.

  At launch every semaphore is at zero and the ghost state is allocated once for all sixteen devices: each of the
  seventeen cells of each device gets its invariant from its counter at zero and its round state; the positions stay with
  the owner; the duty tokens are dealt to the payers — a barrier cell's and the eight receive cells' tokens to the
  partner (the partner map is an involution, so dealing along it is a reindexing), the send cells' tokens to the
  owner. What a device is owed at launch is what its partner owes it: one unit on its barrier cell and a chunk's
  credit on each receive cell. Staging cells are at level 0, below everything owed, so the pipeline's own waits are
  allowed. Each body is then the body obligation, and the launch theorem gives the run: every device's result array
  ends at its named contents and both arguments end unchanged.
-/
import proofs.«900479_g7700000000000480_dist_rsrms_v7x_xyz2x2x4_y_m512_d512_bf16_1_alg».proof.Proof.KernelBody

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start G'
  iintro ⟨⟨⟨⟨%K, Hg⟩, Hcr, Hlev⟩, Hs0, Hs1⟩, Ho, Hx, Hgm, Hout⟩
  iapply (sound_body m K c fun _ => bodyPost m c)
  unfold bodyPre
  isplitr []
  · isplitl [Hg Hcr Hlev Hs0 Hs1]
    · isplitl [Hg]; · iexact Hg
      isplitl [Hcr]; · iexact Hcr
      isplitl [Hlev]; · iexact Hlev
      isplitl [Hs0]; · iexact Hs0
      iexact Hs1
    isplitl [Ho]; · iexact Ho
    isplitl [Hx]; · iexact Hx
    isplitl [Hgm]; · iexact Hgm
    iexact Hout
  · iintro H; iexact H

/-! ## The kernel's own semaphores, the cells, the tokens -/

/-- The sixteen scoped semaphores of the kernel: eight send, eight receive. -/
def osem : Fin 8 ⊕ Fin 8 → SemLoc sig
  | .inl k => .dma (sndS k)
  | .inr k => .dma (rcvS k)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, x⟩ ⟨c', x'⟩ h
  have h1 : c = c' := by have := congrArg (fun g : GSem nD τ sig => g.1.1) h; exact this
  subst h1
  have h2 : csem x = csem x' := congrArg Prod.snd h
  rw [csem_injective h2]
def ringCells : Finset (GSem nD τ sig) := Finset.univ.map ⟨kcell, kcell_injective⟩

/-- One duty token per cell. -/
abbrev tokOf (cx : Dev nD × CK) : GSem nD τ sig × ℕ × Unit := (kcell cx, 0, ())
theorem tokOf_injective : Function.Injective (tokOf : Dev nD × CK → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the launch element deals device `c`: the round states, positions and reached rounds, and tokens of its own cells. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0))
    ∗ (bigSep Finset.univ fun x : CK => dutyTok ER (kcell (c, x)) 0 ()))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : CK => dutyTok ER (kcell (c, x)) 0 () := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocation: from counters at zero to the bodies' ghost state -/

theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (sndCell c k) 0) ∗ (bigSep Finset.univ fun k : Fin 8 => semVal (rcvCell c k) 0)) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0))
          ∗ (bigSep Finset.univ fun x : CK => dutyTok ER (kcell (c, x)) 0 ())) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × CK → ℕ) (cx : Dev nD × CK) :
    (bigSep Finset.univ fun cx : Dev nD × CK => (cellInv ER (sched m) (K cx) (kcell cx) : sProp 𝕄)) ⊢ cellInv ER (sched m) (K cx) (kcell cx) :=
  bigSep_elim (Finset.mem_univ cx)
theorem reached_at (cx : Dev nD × CK) :
    (bigSep Finset.univ fun cx : Dev nD × CK => (reached ER (kcell cx) 0 : sProp 𝕄)) ⊢ reached ER (kcell cx) 0 :=
  bigSep_elim (Finset.mem_univ cx)

/-- The invariants and reached rounds a body opens, out of all of them. -/
theorem invs_of_records (K : Dev nD × CK → ℕ) (c : Dev nD) : records m K ⊢ invs m K c := by
  unfold records invs
  iintro ⟨#HI, #HR⟩
  isplitr; · iapply (inv_at m K (peer c, .bar)); iexact HI
  isplitr; · iapply (inv_at m K (c, .bar)); iexact HI
  isplitr
  · iapply (BI.bigSep_intro_persistent (R := (bigSep Finset.univ fun cx : Dev nD × CK => (cellInv ER (sched m) (K cx) (kcell cx) : sProp 𝕄)))
      fun k _ => inv_at m K (c, .snd k)); iexact HI
  isplitr
  · iapply (BI.bigSep_intro_persistent (R := (bigSep Finset.univ fun cx : Dev nD × CK => (cellInv ER (sched m) (K cx) (kcell cx) : sProp 𝕄)))
      fun k _ => inv_at m K (c, .rcv k)); iexact HI
  isplitr
  · iapply (BI.bigSep_intro_persistent (R := (bigSep Finset.univ fun cx : Dev nD × CK => (cellInv ER (sched m) (K cx) (kcell cx) : sProp 𝕄)))
      fun k _ => inv_at m K (peer c, .rcv k)); iexact HI
  isplitr; · iapply (reached_at (F := F) (peer c, .bar)); iexact HR
  isplitr
  · iapply (BI.bigSep_intro_persistent (R := (bigSep Finset.univ fun cx : Dev nD × CK => (reached ER (kcell cx) 0 : sProp 𝕄)))
      fun k _ => reached_at (F := F) (c, .snd k)); iexact HR
  iapply (BI.bigSep_intro_persistent (R := (bigSep Finset.univ fun cx : Dev nD × CK => (reached ER (kcell cx) 0 : sProp 𝕄)))
    fun k _ => reached_at (F := F) (peer c, .rcv k)); iexact HR

theorem ghost_intro (K : Dev nD × CK → ℕ) (c : Dev nD) : iprop(records m K ∗ (positions c ∗ payToks c)) ⊢ G' m c := by
  unfold G' ghost
  iintro ⟨#HRec, Hlin⟩
  iexists K
  isplitr
  · iapply (invs_of_records m K c); iexact HRec
  iexact Hlin

/-- The tokens of a device's own cells, as minted. -/
def toks (c : Dev nD) : sProp 𝕄 :=
  iprop(dutyTok ER (barCell c) 0 ()
    ∗ (bigSep Finset.univ fun k : Fin 8 => dutyTok ER (sndCell c k) 0 ())
    ∗ (bigSep Finset.univ fun k : Fin 8 => dutyTok ER (rcvCell c k) 0 ()))

theorem toks_eq (c : Dev nD) : (bigSep Finset.univ fun x : CK => (dutyTok ER (kcell (c, x)) 0 () : sProp 𝕄)) = toks c := by
  unfold toks; rw [bigSep_CK]; rfl

theorem positions_eq (c : Dev nD) : (bigSep Finset.univ fun x : CK => (atPos ER (kcell (c, x)) 0 ∅ 0 : sProp 𝕄)) = positions c := by
  unfold positions; rw [bigSep_CK]; rfl

/-- The tokens dealt to the payers: a barrier cell's and the receive cells' tokens go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun k : Fin 8 => (dutyTok ER (rcvCell c k) 0 () : sProp 𝕄)))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0))
          ∗ (bigSep Finset.univ fun x : CK => dutyTok ER (kcell (c, x)) 0 ())) : sProp 𝕄)
      ⊢ bigSep Finset.univ (G' m) := by
  rw [bigSep_sep', bigSep_sep', ← bigSep_univ_prod (fun cx : Dev nD × CK => iprop(∃ κ : ℕ, cellInv ER (sched m) κ (kcell cx))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun cx : Dev nD × CK => (reached ER (kcell cx) 0 : sProp 𝕄))]
  have htoks : (bigSep Finset.univ fun c : Dev nD => bigSep Finset.univ fun x : CK => (dutyTok ER (kcell (c, x)) 0 () : sProp 𝕄))
      ⊢ bigSep Finset.univ fun c : Dev nD => (toks c : sProp 𝕄) :=
    bigSep_mono fun c _ => Entails.of_eq (toks_eq c)
  have hpos : (bigSep Finset.univ fun c : Dev nD => bigSep Finset.univ fun x : CK => (atPos ER (kcell (c, x)) 0 ∅ 0 : sProp 𝕄))
      ⊢ bigSep Finset.univ fun c : Dev nD => (positions c : sProp 𝕄) :=
    bigSep_mono fun c _ => Entails.of_eq (positions_eq c)
  iintro ⟨HI, ⟨Hat, #HR⟩, Htok⟩
  ihave HK := (BI.bigSep_exists_pi Finset.univ (fun (cx : Dev nD × CK) (κ : ℕ) => (cellInv ER (sched m) κ (kcell cx) : sProp 𝕄))) $$ HI
  icases HK with ⟨%K, #HI⟩
  ihave Htok := htoks $$ Htok
  ihave Htk := (toks_around (F := F)) $$ Htok
  iapply (bigSep_with_persistent (R := records m K) fun c _ => ghost_intro m K c)
  isplitr
  · unfold records; isplitl; · iexact HI
    iexact HR
  · ihave Hat := hpos $$ Hat
    rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds (c : Dev nD) : (Pipeline.launchCred O₀ c : sProp 𝕄) ⊢ credits c := by
  show (Pipeline.launchCred (fun d => (tk d 7 + tk d 6 + tk d 5 + tk d 4 + tk d 3 + tk d 2 + tk d 1 + tk d 0) + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add]
  unfold credits; rw [bigSep_fin8]
  iintro ⟨⟨⟨⟨⟨⟨⟨⟨H7, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (rcvS 0)) peer peer peer_peer peer_peer () N c); iexact H0
  isplitl [H1]; · iapply (Pipeline.launchCred_tallyAt (.dma (rcvS 1)) peer peer peer_peer peer_peer () N c); iexact H1
  isplitl [H2]; · iapply (Pipeline.launchCred_tallyAt (.dma (rcvS 2)) peer peer peer_peer peer_peer () N c); iexact H2
  isplitl [H3]; · iapply (Pipeline.launchCred_tallyAt (.dma (rcvS 3)) peer peer peer_peer peer_peer () N c); iexact H3
  isplitl [H4]; · iapply (Pipeline.launchCred_tallyAt (.dma (rcvS 4)) peer peer peer_peer peer_peer () N c); iexact H4
  isplitl [H5]; · iapply (Pipeline.launchCred_tallyAt (.dma (rcvS 5)) peer peer peer_peer peer_peer () N c); iexact H5
  isplitl [H6]; · iapply (Pipeline.launchCred_tallyAt (.dma (rcvS 6)) peer peer peer_peer peer_peer () N c); iexact H6
  iapply (Pipeline.launchCred_tallyAt (.dma (rcvS 7)) peer peer peer_peer peer_peer () N c); iexact H7

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr0, Hr1⟩
  isplitl [Hs]; · iexact Hs
  isplitl [Hr0]; · iexact Hr0
  iexact Hr1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scr
  iintro ⟨Hr0, Hr1, HzS, HzV⟩
  isplitr; · iempintro
  isplitl [HzS HzV]
  · isplitl [HzS] <;> iassumption
  isplitl [Hr0]; · iexact Hr0
  iexact Hr1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly
    fair execution of the program terminates without a fault, and every final state has each window's array at the
    proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

end Cert.Kernel.Hand

end
-- ==== Proof.KernelFinal.lean ====
/-
  The run with every device's result named.

  The argument windows are never written, so their arrays end as they began. The result window has one block, the whole
  array, written back once with what the body left in its staging buffer; reading the whole block reads the array. So
  every weakly fair execution ends with device `c`'s result array at `outAt m c` and both argument arrays unchanged;
  dropping the value leaves the frame.
-/
import proofs.«900479_g7700000000000480_dist_rsrms_v7x_xyz2x2x4_y_m512_d512_bf16_1_alg».proof.Proof.KernelLaunch

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem finalA_arg0 (c : Dev nD) : finalA m c (0 : Fin 3) = m ((c : Thread nD τ).loc main_arg0) :=
  (dats (F := F) m 0 c).arrAt_in (0 : Fin 3) rfl _

theorem finalA_arg1 (c : Dev nD) : finalA m c (1 : Fin 3) = m ((c : Thread nD τ).loc main_arg1) :=
  (dats (F := F) m 0 c).arrAt_in (1 : Fin 3) rfl _

/-- The result array's one block read back is what the body left in the staging buffer. -/
theorem finalA_out (c : Dev nD) : (win0_2.blk (0 : Fin 1)).view.read (Elt F) (finalA m c (2 : Fin 3)) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- The result window's one block is the whole array: reading it reads the array. -/
theorem read_out (c : Dev nD) (f : Buf (Elt F) ((c : Thread nD τ).loc main_v1)) : (win0_2.blk (0 : Fin 1)).view.read (Elt F) f = f :=
  Memref.read_access_unit_zero (Elt F) main_v1 (funext fun a => by fin_cases a <;> decide) (fun a => by fin_cases a <;> decide) f

/-- Every weakly fair execution terminates without a fault with device `c`'s result array at `outAt m c` and both
    argument arrays as they were. -/
theorem run_strong : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (2 : Fin 3)).trans ((read_out c _).symm.trans (finalA_out m c)),
        (h c (0 : Fin 3)).trans (finalA_arg0 m c), (h c (1 : Fin 3)).trans (finalA_arg1 m c)⟩)
    (run_main m ρ)

/-- info: 'Cert.Kernel.Hand.run_strong' depends on axioms: [propext, Classical.choice, Quot.sound] -/
#guard_msgs in #print axioms run_strong

end Cert.Kernel.Hand

end
-- ==== Proof.KernelIdealProto.lean ====
/-
  The cross-device protocol of the kernel, at the idealized program and for any float instance.

  Sixteen devices form eight pairs: a device and its partner differ in the middle mesh coordinate only, and the
  partner map is an involution. Each device has seventeen semaphore cells: the barrier cell, eight send cells and
  eight receive cells (one pair per chunk of 64 rows). Every cell has a single round with a single duty:
  * the barrier cell is paid one unit by the partner's entry signal, which hands over the partner's whole
    receive buffer (the partner is inside the kernel, so its buffer may be written);
  * send cell k is paid by the engine once chunk k of the send buffer has been read out; it hands the chunk back;
  * receive cell k is paid by the partner's copy once chunk k of the receive buffer is fully written; it hands over
    that chunk, holding the rows the partner sent.
  A device owes, from launch, one unit to its partner's barrier cell and a chunk's credit to each of its partner's
  receive cells. It waits on its barrier cell (level 1) while still owing receive credits (level 2), so every wait is
  below what the waiter owes and no cycle of waits can form.
-/
import proofs.«900479_g7700000000000480_dist_rsrms_v7x_xyz2x2x4_y_m512_d512_bf16_1_alg».proof.Proof.Gen.KernelIdeal
import proofs.«900479_g7700000000000480_dist_rsrms_v7x_xyz2x2x4_y_m512_d512_bf16_1_alg».proof.Proof.Gen.KernelIdeal.Skeleton
import proofs.«900479_g7700000000000480_dist_rsrms_v7x_xyz2x2x4_y_m512_d512_bf16_1_alg».proof.Proof.Gen.KernelIdeal.Launch
import proofs.«900479_g7700000000000480_dist_rsrms_v7x_xyz2x2x4_y_m512_d512_bf16_1_alg».proof.Proof.Gen.KernelIdeal.Points
import Idealize.ShloMosaic.Lib.Pipeline.Launch
import Idealize.ShloMosaic.Lib.Pipeline.Kit
import Idealize.ShloMosaic.Lib.Tactic
import Mathlib.Tactic.DeriveFintype

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging cells, one for the kernel's own cells -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## Partners -/

/-- The device whose middle mesh coordinate is the other one (devices are numbered x·8 + y·4 + z). -/
def peer (c : Dev nD) : Dev nD := ⟨(8 * (c.val / 8) + (c.val % 4) + 4) - 4 * ((c.val / 4) % 2), by have h : c.val < 16 := c.isLt; show _ < 16; omega⟩

theorem peer_peer (c : Dev nD) : peer (peer c) = c := by revert c; decide
theorem peer_ne (c : Dev nD) : peer c ≠ c := by revert c; decide

def pairing : Dev nD ≃ Dev nD := ⟨peer, peer, peer_peer, peer_peer⟩

/-- Every device id the body computes is the partner's. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The buffers, their chunks, the cells -/

abbrev xM : Memref sig .tc .vmem S1x1024x512 .f32 := Memref.whole cc0_stg0_0
abbrev gM : Memref sig .tc .vmem S512 .f32 := Memref.whole cc0_stg1_0
abbrev oM : Memref sig .tc .vmem S512x512 .bf16 := Memref.whole cc0_stg2_0
abbrev sM : Memref sig .tc .vmem S8x64x512 .bf16 := Memref.whole cc0_scratch0
abbrev rM : Memref sig .tc .vmem S8x64x512 .bf16 := Memref.whole cc0_scratch1

theorem inb3 (k : Fin 8) : ∀ a, (![k.val, 0, 0] : Fin 3 → Nat) a + S1x64x512.size a ≤ S8x64x512.size a := by revert k; decide
theorem inb1 (k : Fin 8) : ∀ a, (![k.val] : Fin 1 → Nat) a + S1.size a ≤ S8.size a := by revert k; decide

/-- The rectangle of chunk k in a buffer of eight chunks. -/
abbrev ckR (k : Fin 8) : Rect S8x64x512 := Rect.unit (s := S8x64x512) ![k.val, 0, 0] S1x64x512.size (inb3 k)

/-- Chunk k of a buffer of eight chunks, as the memref the engine is handed. -/
abbrev chunk (M : Memref sig .tc .vmem S8x64x512 .bf16) (k : Fin 8) : Memref sig .tc .vmem S64x512 .bf16 :=
  (M.slice (ckR k) (fun _ => rfl)).squeeze S64x512 squeezes_S1x64x512_S64x512

abbrev barS : Sem sig := (SemArray.scalar (sig.barrier 0 rfl) : Sems sig S_).sem
abbrev sndS (k : Fin 8) : DmaSem sig := ((cc0_scratch2.slice (Rect.unit (s := S8) ![k.val] S1.size (inb1 k))).squeeze S_ squeezes_S1_S_).sem
abbrev rcvS (k : Fin 8) : DmaSem sig := ((cc0_scratch3.slice (Rect.unit (s := S8) ![k.val] S1.size (inb1 k))).squeeze S_ squeezes_S1_S_).sem

/-- The seventeen cells of a device. -/
inductive CK where
  | bar
  | snd (k : Fin 8)
  | rcv (k : Fin 8)
  deriving DecidableEq, Fintype

def csem : CK → SemLoc sig
  | .bar => .reg barS
  | .snd k => .dma (sndS k)
  | .rcv k => .dma (rcvS k)

theorem csem_injective : Function.Injective csem := by decide

abbrev kcell (cx : Dev nD × CK) : GSem nD τ sig := ((cx.1 : Thread nD τ), csem cx.2)
abbrev barCell (c : Dev nD) : GSem nD τ sig := ((c : Thread nD τ), .reg barS)
abbrev sndCell (c : Dev nD) (k : Fin 8) : GSem nD τ sig := ((c : Thread nD τ), .dma (sndS k))
abbrev rcvCell (c : Dev nD) (k : Fin 8) : GSem nD τ sig := ((c : Thread nD τ), .dma (rcvS k))

/-- A chunk's credit on a DMA semaphore. -/
abbrev N : ℕ := (chunk rM 0).view.dmaCredit
theorem N_pos : 0 < N := View.dmaCredit_pos _ (by decide)

/-! ## Contents -/

/-- Device `c`'s block of the first argument, as staged. -/
def xstg (c : Dev nD) : (cc0_stg0_0 : Ref sig .tc).ty.Contents (Elt F) :=
  (win0_0.blk (0 : Fin 1)).view.read (Elt F) (m ((c : Thread nD τ).loc main_arg0))
/-- Device `c`'s copy of the second argument, as staged. -/
def gstg (c : Dev nD) : (cc0_stg1_0 : Ref sig .tc).ty.Contents (Elt F) :=
  (win0_1.blk (0 : Fin 1)).view.read (Elt F) (m ((c : Thread nD τ).loc main_arg1))

/-- The 64 rows of its block that device `c` sends in chunk `k`: rows of the half its partner owns. -/
def sendRows (c : Dev nD) (k : Fin 8) : Vec F S1x64x512 .f32 :=
  (xM : Memref sig .tc .vmem S1x1024x512 .f32).view.readAt (Elt F)
    (Rect.unit (s := S1x1024x512) (k0_off1 c (BitVec.ofNat 32 (64 * k.val))) S1x64x512.size (k0_off1_inb c k)).toLoadRect (xstg m c)
/-- The 64 rows of its own half that device `c` adds the received chunk `k` to. -/
def ownRows (c : Dev nD) (k : Fin 8) : Vec F S1x64x512 .f32 :=
  (xM : Memref sig .tc .vmem S1x1024x512 .f32).view.readAt (Elt F)
    (Rect.unit (s := S1x1024x512) (k0_off2 c (BitVec.ofNat 32 (64 * k.val))) S1x64x512.size (k0_off2_inb c k)).toLoadRect (xstg m c)

/-- What device `c`'s send buffer holds once all eight chunks have been stored: entry `(k, r, j)` is entry `(r, j)` of the
    rows it sends in chunk `k`, in the send format. -/
def sentC (c : Dev nD) : S8x64x512.Idx → Elt F .bf16 :=
  fun i => k0_pay1 (sendRows m c (i 0 : Fin 8)) (fun a => match a with | ⟨0, _⟩ => (0 : Fin 1) | ⟨1, _⟩ => (i 1 : Fin 64) | ⟨2, _⟩ => (i 2 : Fin 512))

/-- What device `c`'s receive buffer holds once all eight chunks have landed: what its partner's send buffer held. -/
def recvC (c : Dev nD) : S8x64x512.Idx → Elt F .bf16 := sentC m (peer c)

/-! ## The schedule -/

/-- The partner's entry signal hands over the partner's receive buffer. -/
def barPay (c : Dev nD) : sProp 𝕄 := iprop(∃ f : Buf (Elt F) ((peer c : Thread nD τ).loc cc0_scratch1), ((peer c : Thread nD τ).loc cc0_scratch1) ↦{fullShare} f)
/-- The engine hands chunk `k` of the send buffer back once it has been read out, holding what was sent. -/
def sndPay (c : Dev nD) (k : Fin 8) : sProp 𝕄 :=
  (chunk sM k).view.loc (c : Thread nD τ) ↦[(chunk sM k).view.set]{fullShare} sentC m c
/-- The partner's copy hands over chunk `k` of the receive buffer, holding what the partner sent. -/
def rcvPay (c : Dev nD) (k : Fin 8) : sProp 𝕄 :=
  (chunk rM k).view.loc (c : Thread nD τ) ↦[(chunk rM k).view.set]{fullShare} recvC m c

def ckList : List CK := CK.bar :: ((List.finRange 8).map CK.snd ++ (List.finRange 8).map CK.rcv)
/-- The cell a semaphore is, if it is one of the seventeen. -/
def ckOf (s : SemLoc sig) : Option CK := ckList.find? (fun x => decide (csem x = s))
theorem ckOf_csem : ∀ x : CK, ckOf (csem x) = some x := by decide

def sched : Rounds.Schedule (GSem nD τ sig) Unit 𝕄 where
  duties g r := if r = 0 ∧ g.1.2 = .tc ∧ (ckOf g.2).isSome then {()} else ∅
  unitless _ := False
  amount g _ _ := if g.2 = .reg barS then 1 else N
  payload g _ _ := match ckOf g.2 with
    | some .bar => barPay g.1.1
    | some (.snd k) => sndPay m g.1.1 k
    | some (.rcv k) => rcvPay m g.1.1 k
    | none => iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (match ckOf g.2 with
    | some .bar => barPay g.1.1
    | some (.snd k) => sndPay m g.1.1 k
    | some (.rcv k) => rcvPay m g.1.1 k
    | none => iprop(emp))
  unfold barPay sndPay rcvPay
  split <;> infer_instance

section Tables
variable (c : Dev nD) (k : Fin 8)

theorem duties_cell (x : CK) : (sched (F := F) m).duties (kcell (c, x)) 0 = {()} := by
  dsimp only [sched]; exact if_pos ⟨rfl, rfl, by rw [ckOf_csem]; rfl⟩
theorem duties_bar : (sched (F := F) m).duties (barCell c) 0 = {()} := duties_cell m c .bar
theorem duties_snd : (sched (F := F) m).duties (sndCell c k) 0 = {()} := duties_cell m c (.snd k)
theorem duties_rcv : (sched (F := F) m).duties (rcvCell c k) 0 = {()} := duties_cell m c (.rcv k)
theorem duties_later (g : GSem nD τ sig) : ∀ r, 1 ≤ r → (sched (F := F) m).duties g r = ∅ :=
  fun r hr => by dsimp only [sched]; rw [if_neg fun h => by omega]

theorem snd_ne_bar : (SemLoc.dma (sndS k) : SemLoc sig) ≠ .reg barS := fun h => by cases h
theorem rcv_ne_bar : (SemLoc.dma (rcvS k) : SemLoc sig) ≠ .reg barS := fun h => by cases h

theorem amount_bar (d : Unit) : (sched (F := F) m).amount (barCell c) 0 d = 1 := by dsimp only [sched]; exact if_pos rfl
theorem amount_snd (d : Unit) : (sched (F := F) m).amount (sndCell c k) 0 d = N := by dsimp only [sched]; exact if_neg (snd_ne_bar k)
theorem amount_rcv (d : Unit) : (sched (F := F) m).amount (rcvCell c k) 0 d = N := by dsimp only [sched]; exact if_neg (rcv_ne_bar k)

theorem expect_bar : (sched (F := F) m).expect (barCell c) 0 = 1 := by
  unfold Schedule.expect Schedule.amountOf; rw [duties_bar, Finset.sum_singleton, amount_bar]
theorem expect_snd : (sched (F := F) m).expect (sndCell c k) 0 = N := by
  unfold Schedule.expect Schedule.amountOf; rw [duties_snd, Finset.sum_singleton, amount_snd]
theorem expect_rcv : (sched (F := F) m).expect (rcvCell c k) 0 = N := by
  unfold Schedule.expect Schedule.amountOf; rw [duties_rcv, Finset.sum_singleton, amount_rcv]

theorem payload_bar (d : Unit) : (sched (F := F) m).payload (barCell c) 0 d = barPay c := by
  dsimp only [sched]; rw [show ckOf (SemLoc.reg barS : SemLoc sig) = some CK.bar from ckOf_csem .bar]
theorem payload_snd (d : Unit) : (sched (F := F) m).payload (sndCell c k) 0 d = sndPay m c k := by
  dsimp only [sched]; rw [show ckOf (SemLoc.dma (sndS k) : SemLoc sig) = some (CK.snd k) from ckOf_csem (.snd k)]
theorem payload_rcv (d : Unit) : (sched (F := F) m).payload (rcvCell c k) 0 d = rcvPay m c k := by
  dsimp only [sched]; rw [show ckOf (SemLoc.dma (rcvS k) : SemLoc sig) = some (CK.rcv k) from ckOf_csem (.rcv k)]

theorem rest_bar : bigSep ((sched (F := F) m).duties (barCell c) 0 \ ∅) (fun d => (sched (F := F) m).payload (barCell c) 0 d) = barPay c := by
  rw [Finset.sdiff_empty, duties_bar, bigSep_singleton, payload_bar]
theorem rest_snd : bigSep ((sched (F := F) m).duties (sndCell c k) 0 \ ∅) (fun d => (sched (F := F) m).payload (sndCell c k) 0 d) = sndPay m c k := by
  rw [Finset.sdiff_empty, duties_snd, bigSep_singleton, payload_snd]
theorem rest_rcv : bigSep ((sched (F := F) m).duties (rcvCell c k) 0 \ ∅) (fun d => (sched (F := F) m).payload (rcvCell c k) 0 d) = rcvPay m c k := by
  rw [Finset.sdiff_empty, duties_rcv, bigSep_singleton, payload_rcv]

end Tables

/-! ## Sums over the seventeen cells -/

def ckEquiv : Unit ⊕ (Fin 8 ⊕ Fin 8) ≃ CK where
  toFun | .inl _ => .bar | .inr (.inl k) => .snd k | .inr (.inr k) => .rcv k
  invFun | .bar => .inl () | .snd k => .inr (.inl k) | .rcv k => .inr (.inr k)
  left_inv := by rintro (_ | _ | _) <;> rfl
  right_inv := by rintro (_ | _ | _) <;> rfl

omit [FloatOps F] in
/-- A conjunction over the seventeen cells is its barrier part, its eight send parts and its eight receive parts. -/
theorem bigSep_CK (Φ : CK → sProp 𝕄) :
    bigSep Finset.univ Φ = iprop(Φ .bar ∗ (bigSep Finset.univ fun k : Fin 8 => Φ (.snd k)) ∗ (bigSep Finset.univ fun k : Fin 8 => Φ (.rcv k))) := by
  rw [bigSep_univ_equiv ckEquiv Φ, bigSep_univ_sum, bigSep_univ_sum, bigSep_univ_of_subsingleton ()]; rfl

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## What each device owes at launch; the levels -/

/-- The credit of chunk `k` owed to the partner's receive cell. -/
abbrev tk (c : Dev nD) (k : Fin 8) : CellTallies nD τ sig Unit := tallyAt (rcvCell (peer c) k) () N

/-- What is still owed once the copies of chunks `0 … 7` have been issued in turn: each copy pays the last summand. -/
def owedSends (c : Dev nD) : CellTallies nD τ sig Unit :=
  tk c 7 + tk c 6 + tk c 5 + tk c 4 + tk c 3 + tk c 2 + tk c 1 + tk c 0

/-- At launch a device owes its partner's barrier cell one unit and each of its partner's receive cells a chunk's credit. -/
def O₀ (c : Dev nD) : CellTallies nD τ sig Unit := owedSends c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ k : Fin 8, g.2 = .dma (rcvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_rcv (c : Dev nD) (k : Fin 8) (u : Unit) : lv (rcvCell c k) u = 2 := by
  dsimp only [lv]; rw [if_neg (rcv_ne_bar k), if_pos ⟨k, rfl⟩]

/-- A cell owed something by the unpaid copies is one of the partner's receive cells. -/
theorem owedSends_pos {c : Dev nD} {g : GSem nD τ sig} {u : Unit} (h : 0 < owedSends c g u) : ∃ k : Fin 8, g = rcvCell (peer c) k := by
  unfold owedSends tk at h
  repeat rw [Pi.add_apply] at h
  repeat rw [Finsupp.add_apply] at h
  repeat rw [tallyAt_apply] at h
  by_contra hn
  rw [not_exists] at hn
  rw [if_neg (fun h' => hn 7 h'.1), if_neg (fun h' => hn 6 h'.1), if_neg (fun h' => hn 5 h'.1), if_neg (fun h' => hn 4 h'.1),
    if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k : Fin 8, g = rcvCell (peer c) k) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (owedSends_pos h)

omit [FloatOps F] in
/-- A staging cell (level 0) may be waited on whatever is owed at launch, or nothing. -/
theorem mayWait_stage (c : Dev nD) (q : DmaSem sig) (hq : ∀ k : Fin 8, SemLoc.dma q ≠ .dma (rcvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by
        rw [Finset.mem_singleton.mp hp]; dsimp only [lv]
        rw [if_neg (fun h => by cases h), if_neg (fun ⟨k, hk⟩ => hq k hk)])
      (fun g u hg => by
        rcases O₀_pos hg with ⟨k, rfl⟩ | rfl
        · rw [lv_rcv]; decide
        · rw [lv_bar]; decide)
  · rw [MayWait_zero]; iintro -; iempintro

omit [FloatOps F] in
/-- At its barrier wait a device owes receive credits only: receive cells are above barrier cells. -/
theorem mayWait_bar (c : Dev nD) :
    (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨k, rfl⟩ := owedSends_pos hg; exact Finset.mem_singleton_self _)
    (fun p hp => by rw [Finset.mem_singleton.mp hp]; exact le_of_eq (lv_bar c ()))
    (fun g u hg => by obtain ⟨k, rfl⟩ := owedSends_pos hg; rw [lv_rcv]; decide)

end Cert.KernelIdeal.Hand

end
-- ==== Proof.KernelIdealSend.lean ====
/-
  The copy of one chunk to the partner, as one step of the body.

  Device `c` hands the engine chunk `k` of its send buffer and chunk `k` of its partner's receive buffer (which it holds
  since the entry handshake). The copy pays two duties: its own send cell's, with the source chunk, and the partner's
  receive cell's, with the destination chunk holding what was copied. Both chunks then hold the rows the device sends
  in chunk `k`, provided the source chunk does.
-/
import proofs.«900479_g7700000000000480_dist_rsrms_v7x_xyz2x2x4_y_m512_d512_bf16_1_alg».proof.Proof.KernelIdealProto

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem chunk_credit (k : Fin 8) : (chunk rM k).view.amount (.dma (rcvS k)) = N := by
  revert k; decide

theorem wp_send_chunk (K : Dev nD × CK → ℕ) (c n : Dev nD) (hn : n = peer c) (k : Fin 8)
    {hsc : ((chunk rM k) : Memref sig (Dev.tc n : Thread nD τ).2.kind .vmem S64x512 .bf16).view.ref.isScScratch = false}
    {hsrc : (chunk sM k).view.WordExact} {hdst : (chunk rM k).view.WordExact}
    {hsem : DmaTarget.Typed .vmem (.dma (rcvS k)) (.remote (Dev.tc n : Thread nD τ) (chunk rM k) (.dma (sndS k)) hsc)}
    {α : Type} {Q : α → sProp 𝕄} {kk : PUnit → Prog (TpuEff nD τ sig (Elt F) Λ₀ .tc) α}
    (fs : Buf (Elt F) ((chunk sM k).view.loc (c : Thread nD τ))) (fn : Buf (Elt F) ((chunk rM k).view.loc (peer c : Thread nD τ)))
    (O : CellTallies nD τ sig Unit) (W : Waits sig Unit)
    (hsent : ∀ i ∈ (chunk sM k).view.set, fs i = sentC m c i)
    (hland : ∀ i ∈ (chunk rM k).view.set,
      (chunk rM k).view.write (Elt F) fn ((chunk sM k).view.read (Elt F) fs) Finset.univ i = recvC m (peer c) i) :
    iprop(cellInv ER (sched m) (K (c, .snd k)) (sndCell c k) ∗ cellInv ER (sched m) (K (peer c, .rcv k)) (rcvCell (peer c) k)
        ∗ ((chunk sM k).view.loc (c : Thread nD τ) ↦[(chunk sM k).view.set]{fullShare} fs)
        ∗ ((chunk rM k).view.loc (peer c : Thread nD τ) ↦[(chunk rM k).view.set]{fullShare} fn)
        ∗ owes (c : Thread nD τ) (O + tk c k) W
        ∗ dutyTok ER (sndCell c k) 0 () ∗ reached ER (sndCell c k) 0
        ∗ dutyTok ER (rcvCell (peer c) k) 0 () ∗ reached ER (rcvCell (peer c) k) 0)
      ⊢ iprop(((cred (tallyAt (sndCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk sM k) (.remote (Dev.tc n : Thread nD τ) (chunk rM k) (.dma (sndS k)) hsc) (.dma (rcvS k)) hsrc hdst hsem) kk) Q) := by
  subst hn
  exact Rounds.wp_send_pointsTo 𝒱₀ ER (sched m) (c : Thread nD τ) none (κ₁ := K (c, .snd k)) (κ₂ := K (peer c, .rcv k))
    (r₁ := 0) (r₂ := 0) (d₁ := ()) (d₂ := ()) (fd := fn)
    (by rw [duties_snd]; exact Finset.mem_singleton_self _) (by rw [duties_rcv]; exact Finset.mem_singleton_self _)
    () () N (chunk_credit k) (amount_snd m c k ()) (amount_rcv m (peer c) k ()) O rfl (W := W)
    (by rw [payload_snd]; unfold sndPay; exact Entails.of_eq (pointsTo_congr hsent))
    (by rw [payload_rcv]; unfold rcvPay; exact Entails.of_eq (pointsTo_congr hland))

/-- The same step from the two buffers held less the chunks already in flight: the chunk is split off each, copied, and
    the rests stay behind at unchanged contents. -/
theorem send_step (K : Dev nD × CK → ℕ) (c n : Dev nD) (hn : n = peer c) (k : Fin 8)
    (Rs : Finset (Idx ((sM : Memref sig .tc .vmem S8x64x512 .bf16).view.loc (c : Thread nD τ))))
    (Rp : Finset (Idx ((rM : Memref sig .tc .vmem S8x64x512 .bf16).view.loc (peer c : Thread nD τ))))
    (hs : (chunk sM k).view.set ⊆ Rs) (hp : (chunk rM k).view.set ⊆ Rp)
    {hsc : ((chunk rM k) : Memref sig (Dev.tc n : Thread nD τ).2.kind .vmem S64x512 .bf16).view.ref.isScScratch = false}
    {hsrc : (chunk sM k).view.WordExact} {hdst : (chunk rM k).view.WordExact}
    {hsem : DmaTarget.Typed .vmem (.dma (rcvS k)) (.remote (Dev.tc n : Thread nD τ) (chunk rM k) (.dma (sndS k)) hsc)}
    {α : Type} {Q : α → sProp 𝕄} {kk : PUnit → Prog (TpuEff nD τ sig (Elt F) Λ₀ .tc) α}
    (fs : Buf (Elt F) ((sM : Memref sig .tc .vmem S8x64x512 .bf16).view.loc (c : Thread nD τ)))
    (fn : Buf (Elt F) ((rM : Memref sig .tc .vmem S8x64x512 .bf16).view.loc (peer c : Thread nD τ)))
    (O : CellTallies nD τ sig Unit) (W : Waits sig Unit)
    (hsent : ∀ i ∈ (chunk sM k).view.set, fs i = sentC m c i)
    (hland : ∀ i ∈ (chunk rM k).view.set,
      (chunk rM k).view.write (Elt F) fn ((chunk sM k).view.read (Elt F) fs) Finset.univ i = recvC m (peer c) i) :
    iprop(cellInv ER (sched m) (K (c, .snd k)) (sndCell c k) ∗ cellInv ER (sched m) (K (peer c, .rcv k)) (rcvCell (peer c) k)
        ∗ ((sM : Memref sig .tc .vmem S8x64x512 .bf16).view.loc (c : Thread nD τ) ↦[Rs]{fullShare} fs)
        ∗ ((rM : Memref sig .tc .vmem S8x64x512 .bf16).view.loc (peer c : Thread nD τ) ↦[Rp]{fullShare} fn)
        ∗ owes (c : Thread nD τ) (O + tk c k) W
        ∗ dutyTok ER (sndCell c k) 0 () ∗ reached ER (sndCell c k) 0
        ∗ dutyTok ER (rcvCell (peer c) k) 0 () ∗ reached ER (rcvCell (peer c) k) 0)
      ⊢ iprop(((cred (tallyAt (sndCell c k) () N) ∗ owes (c : Thread nD τ) O W
              ∗ ((sM : Memref sig .tc .vmem S8x64x512 .bf16).view.loc (c : Thread nD τ) ↦[Rs \ (chunk sM k).view.set]{fullShare} fs)
              ∗ ((rM : Memref sig .tc .vmem S8x64x512 .bf16).view.loc (peer c : Thread nD τ) ↦[Rp \ (chunk rM k).view.set]{fullShare} fn))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk sM k) (.remote (Dev.tc n : Thread nD τ) (chunk rM k) (.dma (sndS k)) hsc) (.dma (rcvS k)) hsrc hdst hsem) kk) Q) := by
  iintro ⟨#HIs, #HIp, Hs, Hp, HO, HtS, #Hrs, HtP, #Hrp⟩ Hk
  ihave Hs' := (pointsTo_split_subset hs).1 $$ Hs
  icases Hs' with ⟨Hsk, Hs⟩
  ihave Hp' := (pointsTo_split_subset hp).1 $$ Hp
  icases Hp' with ⟨Hpk, Hp⟩
  iapply (wp_send_chunk m K c n hn k fs fn O W hsent hland) $$ [Hsk Hpk HO HtS HtP]
  · isplitr; · iexact HIs
    isplitr; · iexact HIp
    isplitl [Hsk]; · iexact Hsk
    isplitl [Hpk]; · iexact Hpk
    isplitl [HO]; · iexact HO
    isplitl [HtS]; · iexact HtS
    isplitr; · iexact Hrs
    isplitl [HtP]; · iexact HtP
    iexact Hrp
  iintro ⟨Hc, HO⟩
  iapply Hk
  isplitl [Hc]; · iexact Hc
  isplitl [HO]; · iexact HO
  isplitl [Hs]; · iexact Hs
  iexact Hp

end Cert.KernelIdeal.Hand

end
-- ==== Proof.KernelIdealGeo.lean ====
/-
  The geometry of the buffers, index by index.

  The send and the receive buffer hold eight chunks of 64 rows of 512 entries, `[8, 64, 512]`. Chunk `k` is the set
  of elements whose leading coordinate is `k`; seen as a `[64, 512]` block, its element `(r, j)` is the buffer's
  `(k, r, j)`, and seen as a `[1, 64, 512]` block its element `(0, r, j)` is the same. Different chunks are
  disjoint. Reading a chunk reads those elements; writing a whole block through a chunk replaces exactly those
  elements and leaves the others. The output `[512, 512]` is eight blocks of 64 rows: rows `64 k … 64 k + 63` are
  block `k`, and eight whole-block writes, one per block, determine every element. A window of 64 rows of the
  `[1, 1024, 512]` argument starting at row `o` reads rows `o … o + 63`.
-/
import proofs.«900479_g7700000000000480_dist_rsrms_v7x_xyz2x2x4_y_m512_d512_bf16_1_alg».proof.Proof.KernelIdealProto
import Idealize.ShloMosaic.Signature.View
import Idealize.ShloMosaic.Signature.Memref
import Idealize.ShloMosaic.Lib.Pipeline.Value
import Idealize.ShloMosaic.Lib.Exec.Geometry
import Idealize.ShloMosaic.Lib.ValueIdx
import Idealize.ShloMosaic.Lib.ValueLayout

noncomputable section

namespace Cert.KernelIdeal.Hand

open Cert.KernelIdeal Cert.KernelIdeal.Gen

open Idealize.ShloMosaic Idealize.ShloMosaic.ValueIdx

variable {Val : EltTy → Type}

/-! ## Where a chunk's indices sit -/

/-- Local index `y` of chunk `k`'s rectangle sits at `(k, y 1, y 2)` of the buffer of eight chunks. -/
theorem ckR_emb (k : Fin 8) (y : S1x64x512.Idx) : (ckR k).emb y = ix3 k (y 1 : Fin 64) (y 2 : Fin 512) := by
  funext a
  apply Fin.ext
  match a with
  | ⟨0, _⟩ =>
    show k.val + 1 * (y 0).val = k.val
    have h : (y 0).val < 1 := (y 0).isLt
    omega
  | ⟨1, _⟩ =>
    show 0 + 1 * (y 1).val = (y 1).val
    omega
  | ⟨2, _⟩ =>
    show 0 + 1 * (y 2).val = (y 2).val
    omega

/-- An index `(r, j)` of a `[64, 512]` block, counted in the `[1, 64, 512]` shape, is `(0, r, j)`. -/
theorem squeeze_idx (h : S64x512.numel = S1x64x512.numel) (y : S64x512.Idx) :
    Shape.reshapeEquiv h y = ix3 (0 : Fin 1) (y 0 : Fin 64) (y 1 : Fin 512) :=
  (congrArg (Shape.reshapeEquiv h) (eq_ix2 y)).trans (reshapeEquiv_ix2_1ab h (y 0 : Fin 64) (y 1 : Fin 512))

/-- An index whose leading coordinate is `k` is `(k, i 1, i 2)`. -/
theorem idx_of_lead {k : Fin 8} (i : S8x64x512.Idx) (h : (i 0 : Fin 8) = k) :
    i = ix3 k (i 1 : Fin 64) (i 2 : Fin 512) := by
  rw [← h]; exact eq_ix3 i

/-! ## Chunks of the send buffer -/

/-- Index `y` of chunk `k` sits at `(k, y 0, y 1)` of the buffer. -/
theorem chunk_emb_s (k : Fin 8) (y : S64x512.Idx) :
    (chunk sM k).view.emb y = ix3 k (y 0 : Fin 64) (y 1 : Fin 512) := by
  show (ckR k).emb (Shape.reshapeEquiv _ y) = _
  exact (congrArg (ckR k).emb (squeeze_idx _ y)).trans (ckR_emb k _)

/-- The elements of chunk `k` are those whose leading coordinate is `k`. -/
theorem mem_chunk_s (k : Fin 8) (i : S8x64x512.Idx) : i ∈ (chunk sM k).view.set ↔ (i 0 : Fin 8) = k := by
  constructor
  · intro h
    obtain ⟨y, rfl⟩ := View.exists_emb_of_mem_set _ h
    rw [chunk_emb_s]
  · intro h
    have e : (chunk sM k).view.emb (ix2 (i 1 : Fin 64) (i 2 : Fin 512)) = i := by
      rw [chunk_emb_s]; exact (idx_of_lead i h).symm
    rw [← e]; exact View.emb_mem_set _ _

/-- The buffer's view is all of it. -/
theorem set_s : (sM).view.set = Finset.univ := View.set_whole _

theorem chunk_subset_s (k : Fin 8) : (chunk sM k).view.set ⊆ (sM).view.set := by
  rw [set_s]; exact Finset.subset_univ _

/-- Different chunks share no element. -/
theorem chunk_disjoint_s {j k : Fin 8} (h : j ≠ k) : Disjoint (chunk sM j).view.set (chunk sM k).view.set :=
  Finset.disjoint_left.mpr fun i hj hk =>
    h (((mem_chunk_s j i).mp hj).symm.trans ((mem_chunk_s k i).mp hk))

/-- Reading chunk `k` at `(r, j)` reads the buffer at `(k, r, j)`. -/
theorem chunk_read_s (k : Fin 8) (f : S8x64x512.Idx → Val .bf16) (y : S64x512.Idx) :
    (chunk sM k).view.read Val f y = f (ix3 k (y 0 : Fin 64) (y 1 : Fin 512)) := by
  rw [View.read_apply, chunk_emb_s]; rfl

/-- Writing a whole block `w` through chunk `k`: inside the chunk the new contents are `w`'s, -/
theorem chunk_write_s (k : Fin 8) (fd : S8x64x512.Idx → Val .bf16) (w : S64x512.Idx → Val .bf16)
    (i : S8x64x512.Idx) (h : (i 0 : Fin 8) = k) :
    (chunk sM k).view.write Val fd w Finset.univ i = w (ix2 (i 1 : Fin 64) (i 2 : Fin 512)) := by
  have e : (chunk sM k).view.emb (ix2 (i 1 : Fin 64) (i 2 : Fin 512)) = i := by
    rw [chunk_emb_s]; exact (idx_of_lead i h).symm
  have hw := View.write_emb_of_mem (v := (chunk sM k).view) (Val := Val) fd w (M := Finset.univ)
    (x := ix2 (i 1 : Fin 64) (i 2 : Fin 512)) (Finset.mem_univ _)
  rw [e] at hw
  exact hw

/-- and outside it they are unchanged. -/
theorem chunk_write_s_of_ne (k : Fin 8) (fd : S8x64x512.Idx → Val .bf16) (w : S64x512.Idx → Val .bf16)
    (i : S8x64x512.Idx) (h : (i 0 : Fin 8) ≠ k) :
    (chunk sM k).view.write Val fd w Finset.univ i = fd i := by
  refine View.write_of_not_mem (v := (chunk sM k).view) (Val := Val) fd w Finset.univ ?_
  rw [View.setOn_univ]
  exact fun hm => h ((mem_chunk_s k i).mp hm)

/-- Index `y` of the rectangle of chunk `k`, addressed through the whole buffer, sits at `(k, y 1, y 2)`. -/
theorem access_emb_s (k : Fin 8) (y : S1x64x512.Idx) :
    ((sM).access (ckR k)).emb y = ix3 k (y 1 : Fin 64) (y 2 : Fin 512) := ckR_emb k y

/-- A store of a whole `[1, 64, 512]` block `v` at chunk `k`: inside the chunk the new contents are `v`'s, -/
theorem store_chunk_s (k : Fin 8) (f : S8x64x512.Idx → Val .bf16) (v : S1x64x512.Idx → Val .bf16)
    (i : S8x64x512.Idx) (h : (i 0 : Fin 8) = k) :
    ((sM).access (ckR k)).write Val f v Finset.univ i = v (ix3 (0 : Fin 1) (i 1 : Fin 64) (i 2 : Fin 512)) := by
  have e : ((sM).access (ckR k)).emb (ix3 (0 : Fin 1) (i 1 : Fin 64) (i 2 : Fin 512)) = i :=
    (ckR_emb k _).trans (idx_of_lead i h).symm
  have hw := View.write_emb_of_mem (v := (sM).access (ckR k)) (Val := Val) f v (M := Finset.univ)
    (x := ix3 (0 : Fin 1) (i 1 : Fin 64) (i 2 : Fin 512)) (Finset.mem_univ _)
  rw [e] at hw
  exact hw

/-- and outside it they are unchanged. -/
theorem store_chunk_s_of_ne (k : Fin 8) (f : S8x64x512.Idx → Val .bf16) (v : S1x64x512.Idx → Val .bf16)
    (i : S8x64x512.Idx) (h : (i 0 : Fin 8) ≠ k) :
    ((sM).access (ckR k)).write Val f v Finset.univ i = f i := by
  refine View.write_of_not_mem (v := (sM).access (ckR k)) (Val := Val) f v Finset.univ ?_
  rw [View.setOn_univ]
  intro hm
  obtain ⟨y, rfl⟩ := View.exists_emb_of_mem_set _ hm
  exact h (congrFun (ckR_emb k y) 0)

/-- The same for a list of stores, the newest first: an element of chunk `k` holds what the newest store, at chunk
`k`, wrote there, -/
theorem send_writes_hit (k : Fin 8) (f : S8x64x512.Idx → Val .bf16) (v : S1x64x512.Idx → Val .bf16)
    (L : List (View.Piece Val S8x64x512 .bf16)) (i : S8x64x512.Idx) (h : (i 0 : Fin 8) = k) :
    (sM).view.writes Val f (⟨ckR k, v⟩ :: L) i = v (ix3 (0 : Fin 1) (i 1 : Fin 64) (i 2 : Fin 512)) :=
  store_chunk_s k ((sM).view.writes Val f L) v i h

/-- and an element of another chunk holds what the earlier stores left. -/
theorem send_writes_miss (k : Fin 8) (f : S8x64x512.Idx → Val .bf16) (v : S1x64x512.Idx → Val .bf16)
    (L : List (View.Piece Val S8x64x512 .bf16)) (i : S8x64x512.Idx) (h : (i 0 : Fin 8) ≠ k) :
    (sM).view.writes Val f (⟨ckR k, v⟩ :: L) i = (sM).view.writes Val f L i :=
  store_chunk_s_of_ne k ((sM).view.writes Val f L) v i h

/-- A load of a whole `[1, 64, 512]` block at chunk `k` reads, at `(0, r, j)`, the buffer at `(k, r, j)`. -/
theorem load_chunk_s (k : Fin 8) (f : S8x64x512.Idx → Val .bf16) (r : Fin 64) (j : Fin 512) :
    (sM).view.readAt Val (ckR k).toLoadRect f (ix3 (0 : Fin 1) r j) = f (ix3 k r j) := by
  show ((sM).access (ckR k)).read Val f (ix3 (0 : Fin 1) r j) = _
  rw [View.read_apply, access_emb_s]; rfl

/-! ## Chunks of the receive buffer -/

/-- Index `y` of chunk `k` sits at `(k, y 0, y 1)` of the buffer. -/
theorem chunk_emb_r (k : Fin 8) (y : S64x512.Idx) :
    (chunk rM k).view.emb y = ix3 k (y 0 : Fin 64) (y 1 : Fin 512) := by
  show (ckR k).emb (Shape.reshapeEquiv _ y) = _
  exact (congrArg (ckR k).emb (squeeze_idx _ y)).trans (ckR_emb k _)

/-- The elements of chunk `k` are those whose leading coordinate is `k`. -/
theorem mem_chunk_r (k : Fin 8) (i : S8x64x512.Idx) : i ∈ (chunk rM k).view.set ↔ (i 0 : Fin 8) = k := by
  constructor
  · intro h
    obtain ⟨y, rfl⟩ := View.exists_emb_of_mem_set _ h
    rw [chunk_emb_r]
  · intro h
    have e : (chunk rM k).view.emb (ix2 (i 1 : Fin 64) (i 2 : Fin 512)) = i := by
      rw [chunk_emb_r]; exact (idx_of_lead i h).symm
    rw [← e]; exact View.emb_mem_set _ _

/-- The buffer's view is all of it. -/
theorem set_r : (rM).view.set = Finset.univ := View.set_whole _

theorem chunk_subset_r (k : Fin 8) : (chunk rM k).view.set ⊆ (rM).view.set := by
  rw [set_r]; exact Finset.subset_univ _

/-- Different chunks share no element. -/
theorem chunk_disjoint_r {j k : Fin 8} (h : j ≠ k) : Disjoint (chunk rM j).view.set (chunk rM k).view.set :=
  Finset.disjoint_left.mpr fun i hj hk =>
    h (((mem_chunk_r j i).mp hj).symm.trans ((mem_chunk_r k i).mp hk))

/-- Reading chunk `k` at `(r, j)` reads the buffer at `(k, r, j)`. -/
theorem chunk_read_r (k : Fin 8) (f : S8x64x512.Idx → Val .bf16) (y : S64x512.Idx) :
    (chunk rM k).view.read Val f y = f (ix3 k (y 0 : Fin 64) (y 1 : Fin 512)) := by
  rw [View.read_apply, chunk_emb_r]; rfl

/-- Writing a whole block `w` through chunk `k`: inside the chunk the new contents are `w`'s, -/
theorem chunk_write_r (k : Fin 8) (fd : S8x64x512.Idx → Val .bf16) (w : S64x512.Idx → Val .bf16)
    (i : S8x64x512.Idx) (h : (i 0 : Fin 8) = k) :
    (chunk rM k).view.write Val fd w Finset.univ i = w (ix2 (i 1 : Fin 64) (i 2 : Fin 512)) := by
  have e : (chunk rM k).view.emb (ix2 (i 1 : Fin 64) (i 2 : Fin 512)) = i := by
    rw [chunk_emb_r]; exact (idx_of_lead i h).symm
  have hw := View.write_emb_of_mem (v := (chunk rM k).view) (Val := Val) fd w (M := Finset.univ)
    (x := ix2 (i 1 : Fin 64) (i 2 : Fin 512)) (Finset.mem_univ _)
  rw [e] at hw
  exact hw

/-- and outside it they are unchanged. -/
theorem chunk_write_r_of_ne (k : Fin 8) (fd : S8x64x512.Idx → Val .bf16) (w : S64x512.Idx → Val .bf16)
    (i : S8x64x512.Idx) (h : (i 0 : Fin 8) ≠ k) :
    (chunk rM k).view.write Val fd w Finset.univ i = fd i := by
  refine View.write_of_not_mem (v := (chunk rM k).view) (Val := Val) fd w Finset.univ ?_
  rw [View.setOn_univ]
  exact fun hm => h ((mem_chunk_r k i).mp hm)

/-- Index `y` of the rectangle of chunk `k`, addressed through the whole buffer, sits at `(k, y 1, y 2)`. -/
theorem access_emb_r (k : Fin 8) (y : S1x64x512.Idx) :
    ((rM).access (ckR k)).emb y = ix3 k (y 1 : Fin 64) (y 2 : Fin 512) := ckR_emb k y

/-- A store of a whole `[1, 64, 512]` block `v` at chunk `k`: inside the chunk the new contents are `v`'s, -/
theorem store_chunk_r (k : Fin 8) (f : S8x64x512.Idx → Val .bf16) (v : S1x64x512.Idx → Val .bf16)
    (i : S8x64x512.Idx) (h : (i 0 : Fin 8) = k) :
    ((rM).access (ckR k)).write Val f v Finset.univ i = v (ix3 (0 : Fin 1) (i 1 : Fin 64) (i 2 : Fin 512)) := by
  have e : ((rM).access (ckR k)).emb (ix3 (0 : Fin 1) (i 1 : Fin 64) (i 2 : Fin 512)) = i :=
    (ckR_emb k _).trans (idx_of_lead i h).symm
  have hw := View.write_emb_of_mem (v := (rM).access (ckR k)) (Val := Val) f v (M := Finset.univ)
    (x := ix3 (0 : Fin 1) (i 1 : Fin 64) (i 2 : Fin 512)) (Finset.mem_univ _)
  rw [e] at hw
  exact hw

/-- and outside it they are unchanged. -/
theorem store_chunk_r_of_ne (k : Fin 8) (f : S8x64x512.Idx → Val .bf16) (v : S1x64x512.Idx → Val .bf16)
    (i : S8x64x512.Idx) (h : (i 0 : Fin 8) ≠ k) :
    ((rM).access (ckR k)).write Val f v Finset.univ i = f i := by
  refine View.write_of_not_mem (v := (rM).access (ckR k)) (Val := Val) f v Finset.univ ?_
  rw [View.setOn_univ]
  intro hm
  obtain ⟨y, rfl⟩ := View.exists_emb_of_mem_set _ hm
  exact h (congrFun (ckR_emb k y) 0)

/-- The same for a list of stores, the newest first: an element of chunk `k` holds what the newest store, at chunk
`k`, wrote there, -/
theorem recv_writes_hit (k : Fin 8) (f : S8x64x512.Idx → Val .bf16) (v : S1x64x512.Idx → Val .bf16)
    (L : List (View.Piece Val S8x64x512 .bf16)) (i : S8x64x512.Idx) (h : (i 0 : Fin 8) = k) :
    (rM).view.writes Val f (⟨ckR k, v⟩ :: L) i = v (ix3 (0 : Fin 1) (i 1 : Fin 64) (i 2 : Fin 512)) :=
  store_chunk_r k ((rM).view.writes Val f L) v i h

/-- and an element of another chunk holds what the earlier stores left. -/
theorem recv_writes_miss (k : Fin 8) (f : S8x64x512.Idx → Val .bf16) (v : S1x64x512.Idx → Val .bf16)
    (L : List (View.Piece Val S8x64x512 .bf16)) (i : S8x64x512.Idx) (h : (i 0 : Fin 8) ≠ k) :
    (rM).view.writes Val f (⟨ckR k, v⟩ :: L) i = (rM).view.writes Val f L i :=
  store_chunk_r_of_ne k ((rM).view.writes Val f L) v i h

/-- A load of a whole `[1, 64, 512]` block at chunk `k` reads, at `(0, r, j)`, the buffer at `(k, r, j)`. -/
theorem load_chunk_r (k : Fin 8) (f : S8x64x512.Idx → Val .bf16) (r : Fin 64) (j : Fin 512) :
    (rM).view.readAt Val (ckR k).toLoadRect f (ix3 (0 : Fin 1) r j) = f (ix3 k r j) := by
  show ((rM).access (ckR k)).read Val f (ix3 (0 : Fin 1) r j) = _
  rw [View.read_apply, access_emb_r]; rfl

/-! ## The output buffer: eight blocks of 64 rows -/

theorem inbO (k : Fin 8) : ∀ a, (![64 * k.val, 0] : Fin 2 → Nat) a + S64x512.size a ≤ S512x512.size a := by
  revert k; decide

/-- Rows `64 k … 64 k + 63` of the output. -/
abbrev oR (k : Fin 8) : Rect S512x512 := Rect.unit (s := S512x512) ![64 * k.val, 0] S64x512.size (inbO k)

/-- Index `y` of block `k` sits at row `64 k + y 0`, column `y 1`. -/
theorem oR_emb (k : Fin 8) (y : S64x512.Idx) :
    (oR k).emb y
      = ix2 (⟨64 * k.val + (y 0).val, by have h0 : (y 0).val < 64 := (y 0).isLt; have hk := k.isLt; omega⟩ : Fin 512)
          (y 1 : Fin 512) := by
  funext a
  apply Fin.ext
  match a with
  | ⟨0, _⟩ =>
    show 64 * k.val + 1 * (y 0).val = 64 * k.val + (y 0).val
    omega
  | ⟨1, _⟩ =>
    show 0 + 1 * (y 1).val = (y 1).val
    omega

/-- The array whose rows `64 k … 64 k + 63` are block `w k`: entry `(R, j)` is entry `(R mod 64, j)` of block
`R / 64`. -/
def outOf (w : Fin 8 → S64x512.Idx → Val .bf16) (i : S512x512.Idx) : Val .bf16 :=
  w ⟨(i 0).val / 64, by have h : (i 0).val < 512 := (i 0).isLt; omega⟩
    (ix2 (⟨(i 0).val % 64, Nat.mod_lt _ (by decide)⟩ : Fin 64) (i 1 : Fin 512))

theorem outOf_apply (w : Fin 8 → S64x512.Idx → Val .bf16) (i : S512x512.Idx) :
    outOf w i = w ⟨(i 0).val / 64, by have h : (i 0).val < 512 := (i 0).isLt; omega⟩
      (ix2 (⟨(i 0).val % 64, Nat.mod_lt _ (by decide)⟩ : Fin 64) (i 1 : Fin 512)) := rfl

/-- On block `k` that array is `w k`. -/
theorem outOf_emb (w : Fin 8 → S64x512.Idx → Val .bf16) (k : Fin 8) (x : S64x512.Idx) :
    outOf w ((oR k).emb x) = w k x := by
  rw [oR_emb]
  unfold outOf
  have h0 : (x 0).val < 64 := (x 0).isLt
  refine congrArg₂ (fun a b => w a b) (Fin.ext ?_) ?_
  · show (64 * k.val + (x 0).val) / 64 = k.val
    omega
  · refine Eq.trans ?_ (eq_ix2 x).symm
    refine congrArg₂ (fun a b => ix2 a b) (Fin.ext ?_) rfl
    show (64 * k.val + (x 0).val) % 64 = (x 0).val
    omega

/-- The eight whole-block writes, the newest first. -/
abbrev outList (w : Fin 8 → S64x512.Idx → Val .bf16) : List (View.Piece Val S512x512 .bf16) :=
  [⟨oR 7, w 7⟩, ⟨oR 6, w 6⟩, ⟨oR 5, w 5⟩, ⟨oR 4, w 4⟩, ⟨oR 3, w 3⟩, ⟨oR 2, w 2⟩, ⟨oR 1, w 1⟩, ⟨oR 0, w 0⟩]

theorem mem_outList (w : Fin 8 → S64x512.Idx → Val .bf16) (k : Fin 8) :
    (⟨oR k, w k⟩ : View.Piece Val S512x512 .bf16) ∈ outList w := by
  fin_cases k <;> simp [outList]

/-- The elements of block `k` are those of rows `64 k … 64 k + 63`. -/
theorem mem_oR (k : Fin 8) (i : S512x512.Idx) :
    i ∈ (oR k).set ↔ 64 * k.val ≤ (i 0).val ∧ (i 0).val < 64 * k.val + 64 := by
  rw [Rect.mem_set_unit]
  constructor
  · intro h
    exact h 0
  · intro h a
    have hj : (i 1).val < 512 := (i 1).isLt
    match a with
    | ⟨0, _⟩ => exact h
    | ⟨1, _⟩ =>
      show 0 ≤ (i 1).val ∧ (i 1).val < 0 + 512
      omega

/-- Each of the eight writes writes its block of the array `outOf w`. -/
theorem outList_pieces (w : Fin 8 → S64x512.Idx → Val .bf16) :
    ∀ p ∈ outList w, ∀ x : p.1.shape.Idx, p.2 x = outOf w (p.1.emb x) := by
  intro p hp
  simp only [outList, List.mem_cons, List.not_mem_nil, or_false] at hp
  rcases hp with rfl | rfl | rfl | rfl | rfl | rfl | rfl | rfl
  · exact fun x => (outOf_emb w 7 x).symm
  · exact fun x => (outOf_emb w 6 x).symm
  · exact fun x => (outOf_emb w 5 x).symm
  · exact fun x => (outOf_emb w 4 x).symm
  · exact fun x => (outOf_emb w 3 x).symm
  · exact fun x => (outOf_emb w 2 x).symm
  · exact fun x => (outOf_emb w 1 x).symm
  · exact fun x => (outOf_emb w 0 x).symm

/-- The eight blocks cover the output. -/
theorem outList_cover (w : Fin 8 → S64x512.Idx → Val .bf16) (i : S512x512.Idx) :
    ∃ p ∈ outList w, i ∈ p.1.set := by
  have hi : (i 0).val < 512 := (i 0).isLt
  obtain ⟨k, hk⟩ : ∃ k : Fin 8, k.val = (i 0).val / 64 := ⟨⟨(i 0).val / 64, by omega⟩, rfl⟩
  refine ⟨⟨oR k, w k⟩, mem_outList w k, ?_⟩
  show i ∈ (oR k).set
  rw [mem_oR]
  omega

/-- After the eight writes every element of the output is its block's, whatever the buffer held before. -/
theorem out_writes (w : Fin 8 → S64x512.Idx → Val .bf16) (f2 : S512x512.Idx → Val .bf16) (i : S512x512.Idx) :
    oM.view.writes Val f2 (outList w) i = outOf w i :=
  (congrFun (View.read_whole (Val := Val) cc0_stg2_0 (oM.view.writes Val f2 (outList w))) i).symm.trans
    (View.read_writes_apply_of_pieces oM.view f2 (outOf w) (outList w) (outList_pieces w) i (outList_cover w i))

/-- A load of block `k` of the output reads, at `(r, j)`, the buffer at `(64 k + r, j)`. -/
theorem load_out (k : Fin 8) (f : S512x512.Idx → Val .bf16) (r : Fin 64) (j : Fin 512) :
    oM.view.readAt Val (oR k).toLoadRect f (ix2 r j)
      = f (ix2 (⟨64 * k.val + r.val, by have := r.isLt; have := k.isLt; omega⟩ : Fin 512) j) := by
  show (oM.access (oR k)).read Val f (ix2 r j) = _
  rw [View.read_apply]
  exact congrArg f (oR_emb k (ix2 r j))

/-- One whole-block store at block `k` of the output: rows `64 k … 64 k + 63` take the block, -/
theorem store_out (k : Fin 8) (f : S512x512.Idx → Val .bf16) (v : S64x512.Idx → Val .bf16) (i : S512x512.Idx)
    (h : 64 * k.val ≤ (i 0).val ∧ (i 0).val < 64 * k.val + 64) :
    (oM.access (oR k)).write Val f v Finset.univ i
      = v (ix2 (⟨(i 0).val - 64 * k.val, by omega⟩ : Fin 64) (i 1 : Fin 512)) := by
  have e : (oM.access (oR k)).emb (ix2 (⟨(i 0).val - 64 * k.val, by omega⟩ : Fin 64) (i 1 : Fin 512)) = i := by
    refine (oR_emb k _).trans (Eq.trans ?_ (eq_ix2 i).symm)
    refine congrArg₂ (fun a b => ix2 a b) (Fin.ext ?_) rfl
    show 64 * k.val + ((i 0).val - 64 * k.val) = (i 0).val
    omega
  have hw := View.write_emb_of_mem (v := oM.access (oR k)) (Val := Val) f v (M := Finset.univ)
    (x := ix2 (⟨(i 0).val - 64 * k.val, by omega⟩ : Fin 64) (i 1 : Fin 512)) (Finset.mem_univ _)
  rw [e] at hw
  exact hw

/-- and the other rows are unchanged. -/
theorem store_out_of_not (k : Fin 8) (f : S512x512.Idx → Val .bf16) (v : S64x512.Idx → Val .bf16) (i : S512x512.Idx)
    (h : ¬ (64 * k.val ≤ (i 0).val ∧ (i 0).val < 64 * k.val + 64)) :
    (oM.access (oR k)).write Val f v Finset.univ i = f i := by
  refine View.write_of_not_mem (v := oM.access (oR k)) (Val := Val) f v Finset.univ ?_
  rw [View.setOn_univ]
  intro hm
  obtain ⟨y, rfl⟩ := View.exists_emb_of_mem_set _ hm
  have h0 : (y 0).val < 64 := (y 0).isLt
  have e : (((oM.access (oR k)).emb y) 0).val = 64 * k.val + (y 0).val := congrArg Fin.val (congrFun (oR_emb k y) 0)
  exact h (by rw [e]; omega)

/-! ## The two arguments -/

/-- A window of 64 rows of the `[1, 1024, 512]` argument starting at row `off 1` reads, at `(0, r, j)`, the argument
at `(0, off 1 + r, j)`. -/
theorem load_rows (off : Fin 3 → Nat) (h : ∀ a, off a + S1x64x512.size a ≤ S1x1024x512.size a)
    (h0 : off 0 = 0) (h2 : off 2 = 0) (x : S1x1024x512.Idx → Val .f32) (r : Fin 64) (j : Fin 512) :
    xM.view.readAt Val (Rect.unit (s := S1x1024x512) off S1x64x512.size h).toLoadRect x (ix3 (0 : Fin 1) r j)
      = x (ix3 (0 : Fin 1)
          (⟨off 1 + r.val, by have h1 : off 1 + 64 ≤ 1024 := h 1; have := r.isLt; omega⟩ : Fin 1024) j) := by
  show (xM.access (Rect.unit (s := S1x1024x512) off S1x64x512.size h)).read Val x (ix3 (0 : Fin 1) r j) = _
  rw [View.read_apply]
  refine congrArg x (funext fun a => Fin.ext ?_)
  match a with
  | ⟨0, _⟩ =>
    show off 0 + 1 * 0 = 0
    omega
  | ⟨1, _⟩ =>
    show off 1 + 1 * r.val = off 1 + r.val
    omega
  | ⟨2, _⟩ =>
    show off 2 + 1 * j.val = j.val
    omega

/-- A load of the whole scaling vector reads it. -/
theorem load_gamma (h : ∀ a, (![0] : Fin 1 → Nat) a + S512.size a ≤ S512.size a) (g : S512.Idx → Val .f32) :
    gM.view.readAt Val (Rect.unit (s := S512) ![0] S512.size h).toLoadRect g = g :=
  Memref.readAt_unit_zero Val cc0_stg1_0 (funext fun a => match a with | ⟨0, _⟩ => rfl) h g

end Cert.KernelIdeal.Hand

end
-- ==== Proof.KernelIdealLand.lean ====
/-
  What a copied chunk holds when it lands.

  Chunk `k` of the partner's receive buffer, once written with what chunk `k` of the sender's send buffer holds, holds
  at `(k, r, j)` the sender's stored value at `(0, r, j)`: the write through the destination chunk replaces exactly
  the elements with leading coordinate `k`, the read through the source chunk reads the same elements of the send
  buffer, and the newest store into the send buffer is the one into chunk `k`. These are the receive buffer's named
  contents, because the sender is its partner's partner. A chunk also stays inside what is left of a buffer after
  other chunks have been taken out, since different chunks are disjoint.
-/
import proofs.«900479_g7700000000000480_dist_rsrms_v7x_xyz2x2x4_y_m512_d512_bf16_1_alg».proof.Proof.KernelIdealSend
import proofs.«900479_g7700000000000480_dist_rsrms_v7x_xyz2x2x4_y_m512_d512_bf16_1_alg».proof.Proof.KernelIdealGeo

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sub_rest_s {k j : Fin 8} {R : Finset S8x64x512.Idx} (h : (chunk sM k).view.set ⊆ R) (hj : k ≠ j) :
    (chunk sM k).view.set ⊆ R \ (chunk sM j).view.set :=
  Finset.subset_sdiff.mpr ⟨h, chunk_disjoint_s hj⟩

theorem sub_rest_r {k j : Fin 8} {R : Finset S8x64x512.Idx} (h : (chunk rM k).view.set ⊆ R) (hj : k ≠ j) :
    (chunk rM k).view.set ⊆ R \ (chunk rM j).view.set :=
  Finset.subset_sdiff.mpr ⟨h, chunk_disjoint_r hj⟩

theorem landing (c : Dev nD) (k : Fin 8) (f : S8x64x512.Idx → Elt F .bf16) (L : List (View.Piece (Elt F) S8x64x512 .bf16))
    (fn : S8x64x512.Idx → Elt F .bf16) (v : S1x64x512.Idx → Elt F .bf16) (hv : v = k0_pay1 (sendRows m c k)) :
    ∀ i ∈ (chunk rM k).view.set,
      (chunk rM k).view.write (Elt F) fn ((chunk sM k).view.read (Elt F) ((sM).view.writes (Elt F) f (⟨ckR k, v⟩ :: L))) Finset.univ i
        = recvC m (peer c) i := by
  intro i hi
  have hk : (i 0 : Fin 8) = k := (mem_chunk_r k i).mp hi
  rw [chunk_write_r k _ _ i hk, chunk_read_s, send_writes_hit k f v L _ rfl, hv]
  unfold recvC sentC
  rw [peer_peer, hk]
  rfl

/-- After the store into chunk `k`, that chunk of the send buffer holds the rows sent in chunk `k`. -/
theorem sent_eq (c : Dev nD) (k : Fin 8) (f : S8x64x512.Idx → Elt F .bf16) (L : List (View.Piece (Elt F) S8x64x512 .bf16))
    (v : S1x64x512.Idx → Elt F .bf16) (hv : v = k0_pay1 (sendRows m c k)) :
    ∀ i ∈ (chunk sM k).view.set, (sM).view.writes (Elt F) f (⟨ckR k, v⟩ :: L) i = sentC m c i := by
  intro i hi
  have hk : (i 0 : Fin 8) = k := (mem_chunk_s k i).mp hi
  rw [send_writes_hit k f v L i hk, hv]
  unfold sentC
  rw [hk]
  rfl

/-! ## A buffer is its eight chunks -/

/-- A set `I` inside `R` and disjoint from `J` is inside `R` less `J`. -/
theorem sub_sdiff {α : Type} [DecidableEq α] {I R J : Finset α} (h : I ⊆ R) (hd : Disjoint I J) : I ⊆ R \ J :=
  Finset.subset_sdiff.mpr ⟨h, hd⟩

/-- Eight pairwise disjoint sets inside `U`, the last of which is what is left of `U` after the first seven, all held
    at one contents, are `U` held at it: each of the first seven folds back into the rest it would be split from. -/
theorem join8 {ℓ : Loc nD τ sig} (g : Buf (Elt F) ℓ) (S : Fin 8 → Finset (Idx ℓ)) (U : Finset (Idx ℓ))
    (hsub : ∀ k, S k ⊆ U) (hd : ∀ j k, j ≠ k → Disjoint (S j) (S k))
    (hrest : (((((((U \ S 0) \ S 1) \ S 2) \ S 3) \ S 4) \ S 5) \ S 6) = S 7) :
    iprop((ℓ ↦[S 0]{fullShare} g) ∗ (ℓ ↦[S 1]{fullShare} g) ∗ (ℓ ↦[S 2]{fullShare} g) ∗ (ℓ ↦[S 3]{fullShare} g)
        ∗ (ℓ ↦[S 4]{fullShare} g) ∗ (ℓ ↦[S 5]{fullShare} g) ∗ (ℓ ↦[S 6]{fullShare} g) ∗ (ℓ ↦[S 7]{fullShare} g))
      ⊢ ((ℓ ↦[U]{fullShare} g) : sProp 𝕄) := by
  iintro ⟨H0, H1, H2, H3, H4, H5, H6, H7⟩
  ihave H := (Entails.of_eq (congrArg (fun T => ((ℓ ↦[T]{fullShare} g) : sProp 𝕄)) hrest.symm)) $$ H7
  ihave H := (pointsTo_split_subset (sub_sdiff (sub_sdiff (sub_sdiff (sub_sdiff (sub_sdiff (sub_sdiff (hsub 6)
      (hd 6 0 (by decide))) (hd 6 1 (by decide))) (hd 6 2 (by decide))) (hd 6 3 (by decide))) (hd 6 4 (by decide))) (hd 6 5 (by decide)))).2 $$ [H6 H]
  · isplitl [H6]; · iexact H6
    iexact H
  ihave H := (pointsTo_split_subset (sub_sdiff (sub_sdiff (sub_sdiff (sub_sdiff (sub_sdiff (hsub 5)
      (hd 5 0 (by decide))) (hd 5 1 (by decide))) (hd 5 2 (by decide))) (hd 5 3 (by decide))) (hd 5 4 (by decide)))).2 $$ [H5 H]
  · isplitl [H5]; · iexact H5
    iexact H
  ihave H := (pointsTo_split_subset (sub_sdiff (sub_sdiff (sub_sdiff (sub_sdiff (hsub 4)
      (hd 4 0 (by decide))) (hd 4 1 (by decide))) (hd 4 2 (by decide))) (hd 4 3 (by decide)))).2 $$ [H4 H]
  · isplitl [H4]; · iexact H4
    iexact H
  ihave H := (pointsTo_split_subset (sub_sdiff (sub_sdiff (sub_sdiff (hsub 3)
      (hd 3 0 (by decide))) (hd 3 1 (by decide))) (hd 3 2 (by decide)))).2 $$ [H3 H]
  · isplitl [H3]; · iexact H3
    iexact H
  ihave H := (pointsTo_split_subset (sub_sdiff (sub_sdiff (hsub 2) (hd 2 0 (by decide))) (hd 2 1 (by decide)))).2 $$ [H2 H]
  · isplitl [H2]; · iexact H2
    iexact H
  ihave H := (pointsTo_split_subset (sub_sdiff (hsub 1) (hd 1 0 (by decide)))).2 $$ [H1 H]
  · isplitl [H1]; · iexact H1
    iexact H
  ihave H := (pointsTo_split_subset (hsub 0)).2 $$ [H0 H]
  · isplitl [H0]; · iexact H0
    iexact H
  iexact H

/-- What is left of the send buffer once chunks 0 … 6 are taken out is chunk 7. -/
theorem rest7_s :
    ((((((((sM).view.set \ (chunk sM 0).view.set) \ (chunk sM 1).view.set) \ (chunk sM 2).view.set) \ (chunk sM 3).view.set)
      \ (chunk sM 4).view.set) \ (chunk sM 5).view.set) \ (chunk sM 6).view.set) = (chunk sM 7).view.set := by
  ext i
  rw [Finset.mem_sdiff, Finset.mem_sdiff, Finset.mem_sdiff, Finset.mem_sdiff, Finset.mem_sdiff, Finset.mem_sdiff, Finset.mem_sdiff,
    mem_chunk_s, mem_chunk_s, mem_chunk_s, mem_chunk_s, mem_chunk_s, mem_chunk_s, mem_chunk_s, mem_chunk_s, set_s]
  generalize (i 0 : Fin 8) = a
  simp only [Finset.mem_univ, true_and]
  exact (by decide : ∀ a : Fin 8, ((((((¬a = 0 ∧ ¬a = 1) ∧ ¬a = 2) ∧ ¬a = 3) ∧ ¬a = 4) ∧ ¬a = 5) ∧ ¬a = 6) ↔ a = 7) a

/-- The same for the receive buffer. -/
theorem rest7_r :
    ((((((((rM).view.set \ (chunk rM 0).view.set) \ (chunk rM 1).view.set) \ (chunk rM 2).view.set) \ (chunk rM 3).view.set)
      \ (chunk rM 4).view.set) \ (chunk rM 5).view.set) \ (chunk rM 6).view.set) = (chunk rM 7).view.set := by
  ext i
  rw [Finset.mem_sdiff, Finset.mem_sdiff, Finset.mem_sdiff, Finset.mem_sdiff, Finset.mem_sdiff, Finset.mem_sdiff, Finset.mem_sdiff,
    mem_chunk_r, mem_chunk_r, mem_chunk_r, mem_chunk_r, mem_chunk_r, mem_chunk_r, mem_chunk_r, mem_chunk_r, set_r]
  generalize (i 0 : Fin 8) = a
  simp only [Finset.mem_univ, true_and]
  exact (by decide : ∀ a : Fin 8, ((((((¬a = 0 ∧ ¬a = 1) ∧ ¬a = 2) ∧ ¬a = 3) ∧ ¬a = 4) ∧ ¬a = 5) ∧ ¬a = 6) ↔ a = 7) a

end Cert.KernelIdeal.Hand

end
-- ==== Proof.KernelIdealData.lean ====
/-
  What each device computes, and what the launch and the body exchange.

  Device `c` adds, chunk by chunk, 64 rows of its own half to the 64 rows its partner sent, normalises each row by its
  root mean square and scales it; the eight blocks of 64 rows are its result, one function of the two devices'
  staged arguments. The ghost state a body starts from is: every cell's invariant and that round 0 of it is
  reached (persistent, shared by all); its position at round 0 of its own seventeen cells; the tokens of the
  duties it pays — its partner's barrier duty, its own eight send duties, its partner's eight receive duties; the
  credit on its barrier cell and on its eight receive cells; and its two scratch buffers. It ends with the two scratch
  buffers, its sixteen own cells closed at zero, owing nothing, and its result in the output staging buffer.
-/
import proofs.«900479_g7700000000000480_dist_rsrms_v7x_xyz2x2x4_y_m512_d512_bf16_1_alg».proof.Proof.KernelIdealLand

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The values -/

/-- The 64 rows received in chunk `k`, as loaded from the receive buffer. -/
def recvRows (c : Dev nD) (k : Fin 8) : Vec F S1x64x512 .bf16 :=
  (rM : Memref sig .tc .vmem S8x64x512 .bf16).view.readAt (Elt F) (ckR k).toLoadRect (recvC m c)
/-- The scale vector, as loaded. -/
def gRow (c : Dev nD) : Vec F S512 .f32 :=
  (gM : Memref sig .tc .vmem S512 .f32).view.readAt (Elt F) (Rect.unit (s := S512) ![0] S512.size inb_S512_S512_0).toLoadRect (gstg m c)
/-- Block `k` of the result: the normalised sum of the own and the received rows of chunk `k`. -/
def outW (c : Dev nD) (k : Fin 8) : S64x512.Idx → Elt F .bf16 := k0_pay9 (ownRows m c k) (recvRows m c k) (gRow m c)
/-- The result: its rows `64 k … 64 k + 63` are block `k`. -/
def outAt (c : Dev nD) : (cc0_stg2_0 : Ref sig .tc).ty.Contents (Elt F) := outOf (outW m c)

/-! ## The ghost state -/

def records (K : Dev nD × CK → ℕ) : sProp 𝕄 :=
  iprop((bigSep Finset.univ fun cx : Dev nD × CK => cellInv ER (sched m) (K cx) (kcell cx))
    ∗ bigSep Finset.univ fun cx : Dev nD × CK => reached ER (kcell cx) 0)

instance records_persistent (K : Dev nD × CK → ℕ) : BI.Persistent (records m K) := by unfold records; infer_instance

/-- The tokens of the duties device `c` pays. -/
def payToks (c : Dev nD) : sProp 𝕄 :=
  iprop(dutyTok ER (barCell (peer c)) 0 ()
    ∗ (bigSep Finset.univ fun k : Fin 8 => dutyTok ER (sndCell c k) 0 ())
    ∗ (bigSep Finset.univ fun k : Fin 8 => dutyTok ER (rcvCell (peer c) k) 0 ()))
/-- Its positions: round 0 of each of its own cells, nothing consumed. -/
def positions (c : Dev nD) : sProp 𝕄 :=
  iprop(atPos ER (barCell c) 0 ∅ 0
    ∗ (bigSep Finset.univ fun k : Fin 8 => atPos ER (sndCell c k) 0 ∅ 0)
    ∗ (bigSep Finset.univ fun k : Fin 8 => atPos ER (rcvCell c k) 0 ∅ 0))

/-- The invariants device `c`'s body opens, and the rounds it needs reached: its partner's barrier cell (its signal), its own
    seventeen cells (its waits, its copies' send duties), its partner's eight receive cells (its copies). -/
def invs (K : Dev nD × CK → ℕ) (c : Dev nD) : sProp 𝕄 :=
  iprop(cellInv ER (sched m) (K (peer c, .bar)) (barCell (peer c)) ∗ cellInv ER (sched m) (K (c, .bar)) (barCell c)
    ∗ (bigSep Finset.univ fun k : Fin 8 => cellInv ER (sched m) (K (c, .snd k)) (sndCell c k))
    ∗ (bigSep Finset.univ fun k : Fin 8 => cellInv ER (sched m) (K (c, .rcv k)) (rcvCell c k))
    ∗ (bigSep Finset.univ fun k : Fin 8 => cellInv ER (sched m) (K (peer c, .rcv k)) (rcvCell (peer c) k))
    ∗ reached ER (barCell (peer c)) 0
    ∗ (bigSep Finset.univ fun k : Fin 8 => reached ER (sndCell c k) 0)
    ∗ (bigSep Finset.univ fun k : Fin 8 => reached ER (rcvCell (peer c) k) 0))

instance invs_persistent (K : Dev nD × CK → ℕ) (c : Dev nD) : BI.Persistent (invs m K c) := by unfold invs; infer_instance

def ghost (K : Dev nD × CK → ℕ) (c : Dev nD) : sProp 𝕄 := iprop(invs m K c ∗ positions c ∗ payToks c)
def G' (c : Dev nD) : sProp 𝕄 := iprop(∃ K, ghost m K c)

/-- A scratch buffer at some contents. -/
def scr (c : Dev nD) (b : Ref sig .tc) : sProp 𝕄 :=
  iprop(∃ f : Buf (Elt F) ((c : Thread nD τ).loc b), ((c : Thread nD τ).loc b) ↦{fullShare} f)

def credits (c : Dev nD) : sProp 𝕄 :=
  iprop(cred (tallyAt (barCell c) () 1) ∗ (bigSep Finset.univ fun k : Fin 8 => cred (tallyAt (rcvCell c k) () N)))

def start (c : Dev nD) : sProp 𝕄 := iprop(G' m c ∗ credits c ∗ levAts L lv)

def Φ₀ (c : Dev nD) : sProp 𝕄 := iprop(start m c ∗ scr c cc0_scratch0 ∗ scr c cc0_scratch1)
/-- After the point: the two scratch buffers and the sixteen own cells at zero, closed. -/
def Φ₁ (c : Dev nD) : sProp 𝕄 :=
  iprop(scr c cc0_scratch0 ∗ scr c cc0_scratch1
    ∗ (bigSep Finset.univ fun k : Fin 8 => semVal (sndCell c k) 0) ∗ (bigSep Finset.univ fun k : Fin 8 => semVal (rcvCell c k) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0
theorem fin_N (t : Fin cfg0.N) : t = t₀ := fin_N0 t

theorem fetch_0 (t : Fin cfg0.N) : (cfg0.win (0 : Fin 3)).fetch t = true := fetch0_0 t
theorem fetch_1 (t : Fin cfg0.N) : (cfg0.win (1 : Fin 3)).fetch t = true := fetch0_1 t

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ credits c ∗ levAts L lv ∗ scr c cc0_scratch0 ∗ scr c cc0_scratch1)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ (F := F) c ∗ (dats m 0 c).owesAt () t₀.succ
    ∗ stg c cc0_stg0_0 (xstg m c) ∗ stg c cc0_stg1_0 (gstg m c) ∗ stg c cc0_stg2_0 (outAt m c))

end Cert.KernelIdeal.Hand

end
-- ==== Proof.KernelIdealBody.lean ====
/-
  One device's body, from its ghost state to its result.

  The device signals its partner's barrier cell, handing over its own receive buffer, and waits on its own barrier cell,
  which hands it its partner's receive buffer. For each chunk it loads 64 rows of the half its partner owns, stores them
  into the chunk of its send buffer, and copies that chunk into the same chunk of its partner's receive buffer: the
  chunk is split off both buffers, and the copy pays the send duty with the source chunk and the partner's receive
  duty with the written chunk. Then, chunk by chunk, it waits on its receive cell, which hands it the chunk its
  partner wrote, adds it to 64 of its own rows, normalises and stores the block. Last it waits on its eight send
  cells. Every own cell is then closed at zero, the eight stored blocks are the result, and the chunks of both
  scratch buffers fold back into the whole buffers.
-/
import proofs.«900479_g7700000000000480_dist_rsrms_v7x_xyz2x2x4_y_m512_d512_bf16_1_alg».proof.Proof.KernelIdealData

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem payload_bar_peer (c : Dev nD) (d : Unit) :
    (sched (F := F) m).payload (barCell (peer c)) 0 d
      = iprop(∃ f : Buf (Elt F) ((c : Thread nD τ).loc cc0_scratch1), ((c : Thread nD τ).loc cc0_scratch1) ↦{fullShare} f) := by
  rw [payload_bar]; unfold barPay; rw [peer_peer]
theorem payload_snd_pt (c : Dev nD) (k : Fin 8) (d : Unit) :
    (sched (F := F) m).payload (sndCell c k) 0 d
      = ((chunk sM k).view.loc (c : Thread nD τ) ↦[(chunk sM k).view.set]{fullShare} sentC m c) := by
  rw [payload_snd]; rfl
theorem payload_rcv_pt (c : Dev nD) (k : Fin 8) (d : Unit) :
    (sched (F := F) m).payload (rcvCell c k) 0 d
      = ((chunk rM k).view.loc (c : Thread nD τ) ↦[(chunk rM k).view.set]{fullShare} recvC m c) := by
  rw [payload_rcv]; rfl

attribute [local sl_rounds] duties_bar duties_snd duties_rcv amount_bar amount_snd amount_rcv payload_bar payload_snd_pt payload_rcv_pt
  expect_bar expect_snd expect_rcv
attribute [local sl_canon] dev1_eq dev2_eq dev3_eq dev4_eq dev5_eq dev6_eq dev7_eq dev8_eq dev9_eq

set_option maxHeartbeats 8000000 in
/-- The body, symbolically executed from `bodyPre` to `bodyPost`. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  have hmw := mayWait_bar (F := F) c
  unfold bodyPre ghost invs positions payToks credits scr
  rw [bigSep_fin8, bigSep_fin8, bigSep_fin8, bigSep_fin8, bigSep_fin8, bigSep_fin8, bigSep_fin8, bigSep_fin8, bigSep_fin8, bigSep_fin8]
  iintro ⟨⟨⟨⟨⟨#HIbP, #HIb, ⟨#HIs0, #HIs1, #HIs2, #HIs3, #HIs4, #HIs5, #HIs6, #HIs7⟩, ⟨#HIr0, #HIr1, #HIr2, #HIr3, #HIr4, #HIr5, #HIr6, #HIr7⟩,
        ⟨#HIp0, #HIp1, #HIp2, #HIp3, #HIp4, #HIp5, #HIp6, #HIp7⟩, #HrbP, ⟨#Hrs0, #Hrs1, #Hrs2, #Hrs3, #Hrs4, #Hrs5, #Hrs6, #Hrs7⟩,
        ⟨#Hrp0, #Hrp1, #Hrp2, #Hrp3, #Hrp4, #Hrp5, #Hrp6, #Hrp7⟩⟩,
      ⟨HaB, ⟨HaS0, HaS1, HaS2, HaS3, HaS4, HaS5, HaS6, HaS7⟩, ⟨HaR0, HaR1, HaR2, HaR3, HaR4, HaR5, HaR6, HaR7⟩⟩,
      ⟨HtB, ⟨HtS0, HtS1, HtS2, HtS3, HtS4, HtS5, HtS6, HtS7⟩, ⟨HtP0, HtP1, HtP2, HtP3, HtP4, HtP5, HtP6, HtP7⟩⟩⟩,
      ⟨HcB, ⟨HcR0, HcR1, HcR2, HcR3, HcR4, HcR5, HcR6, HcR7⟩⟩, #Hlev, ⟨%f3, Hs⟩, ⟨%f4, Hr⟩⟩,
    Ho_, ⟨%d0, %g0, %hg0, Hx⟩, ⟨%d1, %g1, %hg1, Hg⟩, ⟨%d2, %f2, %hg2, Ho⟩⟩, Hk⟩
  have hx : g0 = xstg m c := by rw [hg0]; unfold Dat.before; rw [if_pos (fetch_0 t₀)]; rfl
  subst hx
  have hg : g1 = gstg m c := by rw [hg1]; unfold Dat.before; rw [if_pos (fetch_1 t₀)]; rfl
  subst hg
  unfold Dat.owesAt Pipeline.owesWithin
  icases Ho_ with ⟨%W, %hW, HO⟩
  rw [show (dats m 0 c).owed t₀.castSucc = O₀ c from rfl]
  unfold O₀ owedSends
  -- the five buffers, through their memrefs' views
  ihave Hx := (Entails.of_eq (show ((((c : Dev nD) : Thread nD τ).loc cc0_stg0_0) ↦{fullShare} xstg m c : sProp 𝕄)
      = ((xM : Memref sig .tc .vmem S1x1024x512 .f32).view.loc (c : Thread nD τ) ↦[(xM : Memref sig .tc .vmem S1x1024x512 .f32).view.set]{fullShare} xstg m c) from by rw [View.set_whole])) $$ Hx
  ihave Hg := (Entails.of_eq (show ((((c : Dev nD) : Thread nD τ).loc cc0_stg1_0) ↦{fullShare} gstg m c : sProp 𝕄)
      = ((gM : Memref sig .tc .vmem S512 .f32).view.loc (c : Thread nD τ) ↦[(gM : Memref sig .tc .vmem S512 .f32).view.set]{fullShare} gstg m c) from by rw [View.set_whole])) $$ Hg
  ihave Ho := (Entails.of_eq (show ((((c : Dev nD) : Thread nD τ).loc cc0_stg2_0) ↦{fullShare} f2 : sProp 𝕄)
      = ((oM : Memref sig .tc .vmem S512x512 .bf16).view.loc (c : Thread nD τ) ↦[(oM : Memref sig .tc .vmem S512x512 .bf16).view.set]{fullShare} f2) from by rw [View.set_whole])) $$ Ho
  ihave Hs := (Entails.of_eq (show ((((c : Dev nD) : Thread nD τ).loc cc0_scratch0) ↦{fullShare} f3 : sProp 𝕄)
      = ((sM : Memref sig .tc .vmem S8x64x512 .bf16).view.loc (c : Thread nD τ) ↦[(sM : Memref sig .tc .vmem S8x64x512 .bf16).view.set]{fullShare} f3) from by rw [View.set_whole])) $$ Hs
  rw [cc0_body_eq_skeleton]; unfold cc0_body_skel
  sl_exec_parts
  -- the entry signal to the partner's barrier cell, handing over this device's receive buffer
  iapply (Rounds.wp_signal 𝒱₀ ER (sched m) (c : Thread nD τ) none (dst := (peer c : Thread nD τ)) (κ := K (peer c, .bar))
      (d := ()) (by rw [duties_bar]; exact Finset.mem_singleton_self _) ((amount_bar m (peer c) ()).trans (by decide)) ()
      (tk c 7 + tk c 6 + tk c 5 + tk c 4 + tk c 3 + tk c 2 + tk c 1 + tk c 0) rfl) $$ [HO HtB Hr]
  · isplitr; · iexact HIbP
    isplitl [HO]; · iexact HO
    isplitl [HtB]; · iexact HtB
    isplitl [Hr]
    · rw [payload_bar_peer]; iexists f4; iexact Hr
    · iexact HrbP
  iintro HO
  sl_exec
  -- the partner's receive buffer came with the barrier's payload
  unfold barPay
  icases HaB_pay1 with ⟨%fn, Hp⟩
  ihave Hp := (Entails.of_eq (show ((((peer c : Dev nD) : Thread nD τ).loc cc0_scratch1) ↦{fullShare} fn : sProp 𝕄)
      = ((rM : Memref sig .tc .vmem S8x64x512 .bf16).view.loc (peer c : Thread nD τ) ↦[(rM : Memref sig .tc .vmem S8x64x512 .bf16).view.set]{fullShare} fn) from by rw [View.set_whole])) $$ Hp
  -- chunk 0
  iapply (send_step m K c _ (dev2_eq c) (0 : Fin 8) _ _ (chunk_subset_s 0) (chunk_subset_r 0) _ fn
      (tk c 7 + tk c 6 + tk c 5 + tk c 4 + tk c 3 + tk c 2 + tk c 1) _ (sent_eq m c (0 : Fin 8) _ _ _ rfl) (landing m c (0 : Fin 8) _ _ fn _ rfl)) $$ [Hs Hp HO HtS0 HtP0]
  · isplitr; · iexact HIs0
    isplitr; · iexact HIp0
    isplitl [Hs]; · iexact Hs
    isplitl [Hp]; · iexact Hp
    isplitl [HO]; · iexact HO
    isplitl [HtS0]; · iexact HtS0
    isplitr; · iexact Hrs0
    isplitl [HtP0]; · iexact HtP0
    iexact Hrp0
  iintro ⟨HcS0, HO, Hs, Hp⟩
  sl_exec
  -- chunk 1
  iapply (send_step m K c _ (dev3_eq c) (1 : Fin 8) _ _
      (sub_rest_s (chunk_subset_s 1) (j := 0) (by decide))
      (sub_rest_r (chunk_subset_r 1) (j := 0) (by decide)) _ fn
      (tk c 7 + tk c 6 + tk c 5 + tk c 4 + tk c 3 + tk c 2) _ (sent_eq m c (1 : Fin 8) _ _ _ rfl) (landing m c (1 : Fin 8) _ _ fn _ rfl)) $$ [Hs Hp HO HtS1 HtP1]
  · isplitr; · iexact HIs1
    isplitr; · iexact HIp1
    isplitl [Hs]; · iexact Hs
    isplitl [Hp]; · iexact Hp
    isplitl [HO]; · iexact HO
    isplitl [HtS1]; · iexact HtS1
    isplitr; · iexact Hrs1
    isplitl [HtP1]; · iexact HtP1
    iexact Hrp1
  iintro ⟨HcS1, HO, Hs, Hp⟩
  sl_exec
  -- chunk 2
  iapply (send_step m K c _ (dev4_eq c) (2 : Fin 8) _ _
      (sub_rest_s (sub_rest_s (chunk_subset_s 2) (j := 0) (by decide)) (j := 1) (by decide))
      (sub_rest_r (sub_rest_r (chunk_subset_r 2) (j := 0) (by decide)) (j := 1) (by decide)) _ fn
      (tk c 7 + tk c 6 + tk c 5 + tk c 4 + tk c 3) _ (sent_eq m c (2 : Fin 8) _ _ _ rfl) (landing m c (2 : Fin 8) _ _ fn _ rfl)) $$ [Hs Hp HO HtS2 HtP2]
  · isplitr; · iexact HIs2
    isplitr; · iexact HIp2
    isplitl [Hs]; · iexact Hs
    isplitl [Hp]; · iexact Hp
    isplitl [HO]; · iexact HO
    isplitl [HtS2]; · iexact HtS2
    isplitr; · iexact Hrs2
    isplitl [HtP2]; · iexact HtP2
    iexact Hrp2
  iintro ⟨HcS2, HO, Hs, Hp⟩
  sl_exec
  -- chunk 3
  iapply (send_step m K c _ (dev5_eq c) (3 : Fin 8) _ _
      (sub_rest_s (sub_rest_s (sub_rest_s (chunk_subset_s 3) (j := 0) (by decide)) (j := 1) (by decide)) (j := 2) (by decide))
      (sub_rest_r (sub_rest_r (sub_rest_r (chunk_subset_r 3) (j := 0) (by decide)) (j := 1) (by decide)) (j := 2) (by decide)) _ fn
      (tk c 7 + tk c 6 + tk c 5 + tk c 4) _ (sent_eq m c (3 : Fin 8) _ _ _ rfl) (landing m c (3 : Fin 8) _ _ fn _ rfl)) $$ [Hs Hp HO HtS3 HtP3]
  · isplitr; · iexact HIs3
    isplitr; · iexact HIp3
    isplitl [Hs]; · iexact Hs
    isplitl [Hp]; · iexact Hp
    isplitl [HO]; · iexact HO
    isplitl [HtS3]; · iexact HtS3
    isplitr; · iexact Hrs3
    isplitl [HtP3]; · iexact HtP3
    iexact Hrp3
  iintro ⟨HcS3, HO, Hs, Hp⟩
  sl_exec
  -- chunk 4
  iapply (send_step m K c _ (dev6_eq c) (4 : Fin 8) _ _
      (sub_rest_s (sub_rest_s (sub_rest_s (sub_rest_s (chunk_subset_s 4) (j := 0) (by decide)) (j := 1) (by decide)) (j := 2) (by decide)) (j := 3) (by decide))
      (sub_rest_r (sub_rest_r (sub_rest_r (sub_rest_r (chunk_subset_r 4) (j := 0) (by decide)) (j := 1) (by decide)) (j := 2) (by decide)) (j := 3) (by decide)) _ fn
      (tk c 7 + tk c 6 + tk c 5) _ (sent_eq m c (4 : Fin 8) _ _ _ rfl) (landing m c (4 : Fin 8) _ _ fn _ rfl)) $$ [Hs Hp HO HtS4 HtP4]
  · isplitr; · iexact HIs4
    isplitr; · iexact HIp4
    isplitl [Hs]; · iexact Hs
    isplitl [Hp]; · iexact Hp
    isplitl [HO]; · iexact HO
    isplitl [HtS4]; · iexact HtS4
    isplitr; · iexact Hrs4
    isplitl [HtP4]; · iexact HtP4
    iexact Hrp4
  iintro ⟨HcS4, HO, Hs, Hp⟩
  sl_exec
  -- chunk 5
  iapply (send_step m K c _ (dev7_eq c) (5 : Fin 8) _ _
      (sub_rest_s (sub_rest_s (sub_rest_s (sub_rest_s (sub_rest_s (chunk_subset_s 5) (j := 0) (by decide)) (j := 1) (by decide)) (j := 2) (by decide)) (j := 3) (by decide)) (j := 4) (by decide))
      (sub_rest_r (sub_rest_r (sub_rest_r (sub_rest_r (sub_rest_r (chunk_subset_r 5) (j := 0) (by decide)) (j := 1) (by decide)) (j := 2) (by decide)) (j := 3) (by decide)) (j := 4) (by decide)) _ fn
      (tk c 7 + tk c 6) _ (sent_eq m c (5 : Fin 8) _ _ _ rfl) (landing m c (5 : Fin 8) _ _ fn _ rfl)) $$ [Hs Hp HO HtS5 HtP5]
  · isplitr; · iexact HIs5
    isplitr; · iexact HIp5
    isplitl [Hs]; · iexact Hs
    isplitl [Hp]; · iexact Hp
    isplitl [HO]; · iexact HO
    isplitl [HtS5]; · iexact HtS5
    isplitr; · iexact Hrs5
    isplitl [HtP5]; · iexact HtP5
    iexact Hrp5
  iintro ⟨HcS5, HO, Hs, Hp⟩
  sl_exec
  -- chunk 6
  iapply (send_step m K c _ (dev8_eq c) (6 : Fin 8) _ _
      (sub_rest_s (sub_rest_s (sub_rest_s (sub_rest_s (sub_rest_s (sub_rest_s (chunk_subset_s 6) (j := 0) (by decide)) (j := 1) (by decide)) (j := 2) (by decide)) (j := 3) (by decide)) (j := 4) (by decide)) (j := 5) (by decide))
      (sub_rest_r (sub_rest_r (sub_rest_r (sub_rest_r (sub_rest_r (sub_rest_r (chunk_subset_r 6) (j := 0) (by decide)) (j := 1) (by decide)) (j := 2) (by decide)) (j := 3) (by decide)) (j := 4) (by decide)) (j := 5) (by decide)) _ fn
      (tk c 7) _ (sent_eq m c (6 : Fin 8) _ _ _ rfl) (landing m c (6 : Fin 8) _ _ fn _ rfl)) $$ [Hs Hp HO HtS6 HtP6]
  · isplitr; · iexact HIs6
    isplitr; · iexact HIp6
    isplitl [Hs]; · iexact Hs
    isplitl [Hp]; · iexact Hp
    isplitl [HO]; · iexact HO
    isplitl [HtS6]; · iexact HtS6
    isplitr; · iexact Hrs6
    isplitl [HtP6]; · iexact HtP6
    iexact Hrp6
  iintro ⟨HcS6, HO, Hs, Hp⟩
  sl_exec
  -- chunk 7: the last credit owed
  iapply (send_step m K c _ (dev9_eq c) (7 : Fin 8) _ _
      (sub_rest_s (sub_rest_s (sub_rest_s (sub_rest_s (sub_rest_s (sub_rest_s (sub_rest_s (chunk_subset_s 7) (j := 0) (by decide)) (j := 1) (by decide)) (j := 2) (by decide)) (j := 3) (by decide)) (j := 4) (by decide)) (j := 5) (by decide)) (j := 6) (by decide))
      (sub_rest_r (sub_rest_r (sub_rest_r (sub_rest_r (sub_rest_r (sub_rest_r (sub_rest_r (chunk_subset_r 7) (j := 0) (by decide)) (j := 1) (by decide)) (j := 2) (by decide)) (j := 3) (by decide)) (j := 4) (by decide)) (j := 5) (by decide)) (j := 6) (by decide)) _ fn
      0 _ (sent_eq m c (7 : Fin 8) _ _ _ rfl) (landing m c (7 : Fin 8) _ _ fn _ rfl)) $$ [Hs Hp HO HtS7 HtP7]
  · isplitr; · iexact HIs7
    isplitr; · iexact HIp7
    isplitl [Hs]; · iexact Hs
    isplitl [Hp]; · iexact Hp
    isplitl [HO]; · rw [zero_add]; iexact HO
    isplitl [HtS7]; · iexact HtS7
    isplitr; · iexact Hrs7
    isplitl [HtP7]; · iexact HtP7
    iexact Hrp7
  iintro ⟨HcS7, HO, Hs, Hp⟩
  -- the eight receive waits, the sums and normalisations, the eight stores, the eight send waits
  sl_exec
  -- every own cell is closed: its counter at zero is the device's again
  imod (Rounds.cell_close ER (sched m) (Set.mem_univ (K (c, .snd 0))) (fun h => h) (R := 1) (duties_later m (sndCell c 0))) $$ [HaS0] with HzS0
  · isplitr; · iexact HIs0
    iexact HaS0
  imod (Rounds.cell_close ER (sched m) (Set.mem_univ (K (c, .snd 1))) (fun h => h) (R := 1) (duties_later m (sndCell c 1))) $$ [HaS1] with HzS1
  · isplitr; · iexact HIs1
    iexact HaS1
  imod (Rounds.cell_close ER (sched m) (Set.mem_univ (K (c, .snd 2))) (fun h => h) (R := 1) (duties_later m (sndCell c 2))) $$ [HaS2] with HzS2
  · isplitr; · iexact HIs2
    iexact HaS2
  imod (Rounds.cell_close ER (sched m) (Set.mem_univ (K (c, .snd 3))) (fun h => h) (R := 1) (duties_later m (sndCell c 3))) $$ [HaS3] with HzS3
  · isplitr; · iexact HIs3
    iexact HaS3
  imod (Rounds.cell_close ER (sched m) (Set.mem_univ (K (c, .snd 4))) (fun h => h) (R := 1) (duties_later m (sndCell c 4))) $$ [HaS4] with HzS4
  · isplitr; · iexact HIs4
    iexact HaS4
  imod (Rounds.cell_close ER (sched m) (Set.mem_univ (K (c, .snd 5))) (fun h => h) (R := 1) (duties_later m (sndCell c 5))) $$ [HaS5] with HzS5
  · isplitr; · iexact HIs5
    iexact HaS5
  imod (Rounds.cell_close ER (sched m) (Set.mem_univ (K (c, .snd 6))) (fun h => h) (R := 1) (duties_later m (sndCell c 6))) $$ [HaS6] with HzS6
  · isplitr; · iexact HIs6
    iexact HaS6
  imod (Rounds.cell_close ER (sched m) (Set.mem_univ (K (c, .snd 7))) (fun h => h) (R := 1) (duties_later m (sndCell c 7))) $$ [HaS7] with HzS7
  · isplitr; · iexact HIs7
    iexact HaS7
  imod (Rounds.cell_close ER (sched m) (Set.mem_univ (K (c, .rcv 0))) (fun h => h) (R := 1) (duties_later m (rcvCell c 0))) $$ [HaR0] with HzR0
  · isplitr; · iexact HIr0
    iexact HaR0
  imod (Rounds.cell_close ER (sched m) (Set.mem_univ (K (c, .rcv 1))) (fun h => h) (R := 1) (duties_later m (rcvCell c 1))) $$ [HaR1] with HzR1
  · isplitr; · iexact HIr1
    iexact HaR1
  imod (Rounds.cell_close ER (sched m) (Set.mem_univ (K (c, .rcv 2))) (fun h => h) (R := 1) (duties_later m (rcvCell c 2))) $$ [HaR2] with HzR2
  · isplitr; · iexact HIr2
    iexact HaR2
  imod (Rounds.cell_close ER (sched m) (Set.mem_univ (K (c, .rcv 3))) (fun h => h) (R := 1) (duties_later m (rcvCell c 3))) $$ [HaR3] with HzR3
  · isplitr; · iexact HIr3
    iexact HaR3
  imod (Rounds.cell_close ER (sched m) (Set.mem_univ (K (c, .rcv 4))) (fun h => h) (R := 1) (duties_later m (rcvCell c 4))) $$ [HaR4] with HzR4
  · isplitr; · iexact HIr4
    iexact HaR4
  imod (Rounds.cell_close ER (sched m) (Set.mem_univ (K (c, .rcv 5))) (fun h => h) (R := 1) (duties_later m (rcvCell c 5))) $$ [HaR5] with HzR5
  · isplitr; · iexact HIr5
    iexact HaR5
  imod (Rounds.cell_close ER (sched m) (Set.mem_univ (K (c, .rcv 6))) (fun h => h) (R := 1) (duties_later m (rcvCell c 6))) $$ [HaR6] with HzR6
  · isplitr; · iexact HIr6
    iexact HaR6
  imod (Rounds.cell_close ER (sched m) (Set.mem_univ (K (c, .rcv 7))) (fun h => h) (R := 1) (duties_later m (rcvCell c 7))) $$ [HaR7] with HzR7
  · isplitr; · iexact HIr7
    iexact HaR7
  -- the eight stored blocks are the result, whatever the staging buffer held before
  ihave Ho := (Entails.of_eq (pointsTo_congr (g := outAt m c) (fun i _ => out_writes (outW m c) f2 i))) $$ Ho
  -- the chunks of the two scratch buffers fold back into the whole buffers
  ihave Hrb := (join8 (ℓ := (rM : Memref sig .tc .vmem S8x64x512 .bf16).view.loc (c : Thread nD τ)) (recvC m c)
      (fun k => (chunk rM k).view.set) (rM : Memref sig .tc .vmem S8x64x512 .bf16).view.set chunk_subset_r (fun j k h => chunk_disjoint_r h) rest7_r)
    $$ [HaR0_pay1 HaR1_pay1 HaR2_pay1 HaR3_pay1 HaR4_pay1 HaR5_pay1 HaR6_pay1 HaR7_pay1]
  · isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    isplitl [HaR6_pay1]; · iexact HaR6_pay1
    iexact HaR7_pay1
  ihave Hsb := (join8 (ℓ := (sM : Memref sig .tc .vmem S8x64x512 .bf16).view.loc (c : Thread nD τ)) (sentC m c)
      (fun k => (chunk sM k).view.set) (sM : Memref sig .tc .vmem S8x64x512 .bf16).view.set chunk_subset_s (fun j k h => chunk_disjoint_s h) rest7_s)
    $$ [HaS0_pay1 HaS1_pay1 HaS2_pay1 HaS3_pay1 HaS4_pay1 HaS5_pay1 HaS6_pay1 HaS7_pay1]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact HaS7_pay1
  -- back to the buffers' plain names
  ihave Hx := (Entails.of_eq (show ((xM : Memref sig .tc .vmem S1x1024x512 .f32).view.loc (c : Thread nD τ) ↦[(xM : Memref sig .tc .vmem S1x1024x512 .f32).view.set]{fullShare} xstg m c : sProp 𝕄)
      = ((((c : Dev nD) : Thread nD τ).loc cc0_stg0_0) ↦{fullShare} xstg m c) from by rw [View.set_whole])) $$ Hx
  ihave Hg := (Entails.of_eq (show ((gM : Memref sig .tc .vmem S512 .f32).view.loc (c : Thread nD τ) ↦[(gM : Memref sig .tc .vmem S512 .f32).view.set]{fullShare} gstg m c : sProp 𝕄)
      = ((((c : Dev nD) : Thread nD τ).loc cc0_stg1_0) ↦{fullShare} gstg m c) from by rw [View.set_whole])) $$ Hg
  ihave Ho := (Entails.of_eq (show ((oM : Memref sig .tc .vmem S512x512 .bf16).view.loc (c : Thread nD τ) ↦[(oM : Memref sig .tc .vmem S512x512 .bf16).view.set]{fullShare} outAt m c : sProp 𝕄)
      = ((((c : Dev nD) : Thread nD τ).loc cc0_stg2_0) ↦{fullShare} outAt m c) from by rw [View.set_whole])) $$ Ho
  ihave Hsb := (Entails.of_eq (show ((sM : Memref sig .tc .vmem S8x64x512 .bf16).view.loc (c : Thread nD τ) ↦[(sM : Memref sig .tc .vmem S8x64x512 .bf16).view.set]{fullShare} sentC m c : sProp 𝕄)
      = ((((c : Dev nD) : Thread nD τ).loc cc0_scratch0) ↦{fullShare} sentC m c) from by rw [View.set_whole])) $$ Hsb
  ihave Hrb := (Entails.of_eq (show ((rM : Memref sig .tc .vmem S8x64x512 .bf16).view.loc (c : Thread nD τ) ↦[(rM : Memref sig .tc .vmem S8x64x512 .bf16).view.set]{fullShare} recvC m c : sProp 𝕄)
      = ((((c : Dev nD) : Thread nD τ).loc cc0_scratch1) ↦{fullShare} recvC m c) from by rw [View.set_whole])) $$ Hrb
  rw [wp_ret]; imodintro
  iapply Hk
  unfold bodyPost Φ₁ scr Dat.owesAt Pipeline.owesWithin
  rw [show (dats m 0 c).owed t₀.succ = 0 from rfl, bigSep_fin8, bigSep_fin8]
  isplitl [Hsb Hrb HzS0 HzS1 HzS2 HzS3 HzS4 HzS5 HzS6 HzS7 HzR0 HzR1 HzR2 HzR3 HzR4 HzR5 HzR6 HzR7]
  · isplitl [Hsb]; · iexists (sentC m c); iexact Hsb
    isplitl [Hrb]; · iexists (recvC m c); iexact Hrb
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      iexact HzR7
  isplitl [HO]
  · iexists _
    isplitr
    swap
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr; · (ipureintro; rfl)
  iexact Ho

end Cert.KernelIdeal.Hand

end
-- ==== Proof.KernelIdealLaunch.lean ====
/-
  The launch: from every device's body to the run of the whole program.

  At launch every semaphore is at zero and the ghost state is allocated once for all sixteen devices: each of the
  seventeen cells of each device gets its invariant from its counter at zero and its round state; the positions stay with
  the owner; the duty tokens are dealt to the payers — a barrier cell's and the eight receive cells' tokens to the
  partner (the partner map is an involution, so dealing along it is a reindexing), the send cells' tokens to the
  owner. What a device is owed at launch is what its partner owes it: one unit on its barrier cell and a chunk's
  credit on each receive cell. Staging cells are at level 0, below everything owed, so the pipeline's own waits are
  allowed. Each body is then the body obligation, and the launch theorem gives the run: every device's result array
  ends at its named contents and both arguments end unchanged.
-/
import proofs.«900479_g7700000000000480_dist_rsrms_v7x_xyz2x2x4_y_m512_d512_bf16_1_alg».proof.Proof.KernelIdealBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start G'
  iintro ⟨⟨⟨⟨%K, Hg⟩, Hcr, Hlev⟩, Hs0, Hs1⟩, Ho, Hx, Hgm, Hout⟩
  iapply (sound_body m K c fun _ => bodyPost m c)
  unfold bodyPre
  isplitr []
  · isplitl [Hg Hcr Hlev Hs0 Hs1]
    · isplitl [Hg]; · iexact Hg
      isplitl [Hcr]; · iexact Hcr
      isplitl [Hlev]; · iexact Hlev
      isplitl [Hs0]; · iexact Hs0
      iexact Hs1
    isplitl [Ho]; · iexact Ho
    isplitl [Hx]; · iexact Hx
    isplitl [Hgm]; · iexact Hgm
    iexact Hout
  · iintro H; iexact H

/-! ## The kernel's own semaphores, the cells, the tokens -/

/-- The sixteen scoped semaphores of the kernel: eight send, eight receive. -/
def osem : Fin 8 ⊕ Fin 8 → SemLoc sig
  | .inl k => .dma (sndS k)
  | .inr k => .dma (rcvS k)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, x⟩ ⟨c', x'⟩ h
  have h1 : c = c' := by have := congrArg (fun g : GSem nD τ sig => g.1.1) h; exact this
  subst h1
  have h2 : csem x = csem x' := congrArg Prod.snd h
  rw [csem_injective h2]
def ringCells : Finset (GSem nD τ sig) := Finset.univ.map ⟨kcell, kcell_injective⟩

/-- One duty token per cell. -/
abbrev tokOf (cx : Dev nD × CK) : GSem nD τ sig × ℕ × Unit := (kcell cx, 0, ())
theorem tokOf_injective : Function.Injective (tokOf : Dev nD × CK → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- What the launch element deals device `c`: the round states, positions and reached rounds, and tokens of its own cells. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0))
    ∗ (bigSep Finset.univ fun x : CK => dutyTok ER (kcell (c, x)) 0 ()))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : CK => dutyTok ER (kcell (c, x)) 0 () := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocation: from counters at zero to the bodies' ghost state -/

theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (sndCell c k) 0) ∗ (bigSep Finset.univ fun k : Fin 8 => semVal (rcvCell c k) 0)) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0))
          ∗ (bigSep Finset.univ fun x : CK => dutyTok ER (kcell (c, x)) 0 ())) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × CK → ℕ) (cx : Dev nD × CK) :
    (bigSep Finset.univ fun cx : Dev nD × CK => (cellInv ER (sched m) (K cx) (kcell cx) : sProp 𝕄)) ⊢ cellInv ER (sched m) (K cx) (kcell cx) :=
  bigSep_elim (Finset.mem_univ cx)
theorem reached_at (cx : Dev nD × CK) :
    (bigSep Finset.univ fun cx : Dev nD × CK => (reached ER (kcell cx) 0 : sProp 𝕄)) ⊢ reached ER (kcell cx) 0 :=
  bigSep_elim (Finset.mem_univ cx)

/-- The invariants and reached rounds a body opens, out of all of them. -/
theorem invs_of_records (K : Dev nD × CK → ℕ) (c : Dev nD) : records m K ⊢ invs m K c := by
  unfold records invs
  iintro ⟨#HI, #HR⟩
  isplitr; · iapply (inv_at m K (peer c, .bar)); iexact HI
  isplitr; · iapply (inv_at m K (c, .bar)); iexact HI
  isplitr
  · iapply (BI.bigSep_intro_persistent (R := (bigSep Finset.univ fun cx : Dev nD × CK => (cellInv ER (sched m) (K cx) (kcell cx) : sProp 𝕄)))
      fun k _ => inv_at m K (c, .snd k)); iexact HI
  isplitr
  · iapply (BI.bigSep_intro_persistent (R := (bigSep Finset.univ fun cx : Dev nD × CK => (cellInv ER (sched m) (K cx) (kcell cx) : sProp 𝕄)))
      fun k _ => inv_at m K (c, .rcv k)); iexact HI
  isplitr
  · iapply (BI.bigSep_intro_persistent (R := (bigSep Finset.univ fun cx : Dev nD × CK => (cellInv ER (sched m) (K cx) (kcell cx) : sProp 𝕄)))
      fun k _ => inv_at m K (peer c, .rcv k)); iexact HI
  isplitr; · iapply (reached_at (F := F) (peer c, .bar)); iexact HR
  isplitr
  · iapply (BI.bigSep_intro_persistent (R := (bigSep Finset.univ fun cx : Dev nD × CK => (reached ER (kcell cx) 0 : sProp 𝕄)))
      fun k _ => reached_at (F := F) (c, .snd k)); iexact HR
  iapply (BI.bigSep_intro_persistent (R := (bigSep Finset.univ fun cx : Dev nD × CK => (reached ER (kcell cx) 0 : sProp 𝕄)))
    fun k _ => reached_at (F := F) (peer c, .rcv k)); iexact HR

theorem ghost_intro (K : Dev nD × CK → ℕ) (c : Dev nD) : iprop(records m K ∗ (positions c ∗ payToks c)) ⊢ G' m c := by
  unfold G' ghost
  iintro ⟨#HRec, Hlin⟩
  iexists K
  isplitr
  · iapply (invs_of_records m K c); iexact HRec
  iexact Hlin

/-- The tokens of a device's own cells, as minted. -/
def toks (c : Dev nD) : sProp 𝕄 :=
  iprop(dutyTok ER (barCell c) 0 ()
    ∗ (bigSep Finset.univ fun k : Fin 8 => dutyTok ER (sndCell c k) 0 ())
    ∗ (bigSep Finset.univ fun k : Fin 8 => dutyTok ER (rcvCell c k) 0 ()))

theorem toks_eq (c : Dev nD) : (bigSep Finset.univ fun x : CK => (dutyTok ER (kcell (c, x)) 0 () : sProp 𝕄)) = toks c := by
  unfold toks; rw [bigSep_CK]; rfl

theorem positions_eq (c : Dev nD) : (bigSep Finset.univ fun x : CK => (atPos ER (kcell (c, x)) 0 ∅ 0 : sProp 𝕄)) = positions c := by
  unfold positions; rw [bigSep_CK]; rfl

/-- The tokens dealt to the payers: a barrier cell's and the receive cells' tokens go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun k : Fin 8 => (dutyTok ER (rcvCell c k) 0 () : sProp 𝕄)))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0))
          ∗ (bigSep Finset.univ fun x : CK => dutyTok ER (kcell (c, x)) 0 ())) : sProp 𝕄)
      ⊢ bigSep Finset.univ (G' m) := by
  rw [bigSep_sep', bigSep_sep', ← bigSep_univ_prod (fun cx : Dev nD × CK => iprop(∃ κ : ℕ, cellInv ER (sched m) κ (kcell cx))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun cx : Dev nD × CK => (reached ER (kcell cx) 0 : sProp 𝕄))]
  have htoks : (bigSep Finset.univ fun c : Dev nD => bigSep Finset.univ fun x : CK => (dutyTok ER (kcell (c, x)) 0 () : sProp 𝕄))
      ⊢ bigSep Finset.univ fun c : Dev nD => (toks c : sProp 𝕄) :=
    bigSep_mono fun c _ => Entails.of_eq (toks_eq c)
  have hpos : (bigSep Finset.univ fun c : Dev nD => bigSep Finset.univ fun x : CK => (atPos ER (kcell (c, x)) 0 ∅ 0 : sProp 𝕄))
      ⊢ bigSep Finset.univ fun c : Dev nD => (positions c : sProp 𝕄) :=
    bigSep_mono fun c _ => Entails.of_eq (positions_eq c)
  iintro ⟨HI, ⟨Hat, #HR⟩, Htok⟩
  ihave HK := (BI.bigSep_exists_pi Finset.univ (fun (cx : Dev nD × CK) (κ : ℕ) => (cellInv ER (sched m) κ (kcell cx) : sProp 𝕄))) $$ HI
  icases HK with ⟨%K, #HI⟩
  ihave Htok := htoks $$ Htok
  ihave Htk := (toks_around (F := F)) $$ Htok
  iapply (bigSep_with_persistent (R := records m K) fun c _ => ghost_intro m K c)
  isplitr
  · unfold records; isplitl; · iexact HI
    iexact HR
  · ihave Hat := hpos $$ Hat
    rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds (c : Dev nD) : (Pipeline.launchCred O₀ c : sProp 𝕄) ⊢ credits c := by
  show (Pipeline.launchCred (fun d => (tk d 7 + tk d 6 + tk d 5 + tk d 4 + tk d 3 + tk d 2 + tk d 1 + tk d 0) + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add]
  unfold credits; rw [bigSep_fin8]
  iintro ⟨⟨⟨⟨⟨⟨⟨⟨H7, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (rcvS 0)) peer peer peer_peer peer_peer () N c); iexact H0
  isplitl [H1]; · iapply (Pipeline.launchCred_tallyAt (.dma (rcvS 1)) peer peer peer_peer peer_peer () N c); iexact H1
  isplitl [H2]; · iapply (Pipeline.launchCred_tallyAt (.dma (rcvS 2)) peer peer peer_peer peer_peer () N c); iexact H2
  isplitl [H3]; · iapply (Pipeline.launchCred_tallyAt (.dma (rcvS 3)) peer peer peer_peer peer_peer () N c); iexact H3
  isplitl [H4]; · iapply (Pipeline.launchCred_tallyAt (.dma (rcvS 4)) peer peer peer_peer peer_peer () N c); iexact H4
  isplitl [H5]; · iapply (Pipeline.launchCred_tallyAt (.dma (rcvS 5)) peer peer peer_peer peer_peer () N c); iexact H5
  isplitl [H6]; · iapply (Pipeline.launchCred_tallyAt (.dma (rcvS 6)) peer peer peer_peer peer_peer () N c); iexact H6
  iapply (Pipeline.launchCred_tallyAt (.dma (rcvS 7)) peer peer peer_peer peer_peer () N c); iexact H7

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr0, Hr1⟩
  isplitl [Hs]; · iexact Hs
  isplitl [Hr0]; · iexact Hr0
  iexact Hr1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scr
  iintro ⟨Hr0, Hr1, HzS, HzV⟩
  isplitr; · iempintro
  isplitl [HzS HzV]
  · isplitl [HzS] <;> iassumption
  isplitl [Hr0]; · iexact Hr0
  iexact Hr1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly
    fair execution of the program terminates without a fault, and every final state has each window's array at the
    proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

end Cert.KernelIdeal.Hand

end
-- ==== Proof.KernelIdealFinal.lean ====
/-
  The run with every device's result named.

  The argument windows are never written, so their arrays end as they began. The result window has one block, the whole
  array, written back once with what the body left in its staging buffer; reading the whole block reads the array. So
  every weakly fair execution ends with device `c`'s result array at `outAt m c` and both argument arrays unchanged;
  dropping the value leaves the frame.
-/
import proofs.«900479_g7700000000000480_dist_rsrms_v7x_xyz2x2x4_y_m512_d512_bf16_1_alg».proof.Proof.KernelIdealLaunch

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem finalA_arg0 (c : Dev nD) : finalA m c (0 : Fin 3) = m ((c : Thread nD τ).loc main_arg0) :=
  (dats (F := F) m 0 c).arrAt_in (0 : Fin 3) rfl _

theorem finalA_arg1 (c : Dev nD) : finalA m c (1 : Fin 3) = m ((c : Thread nD τ).loc main_arg1) :=
  (dats (F := F) m 0 c).arrAt_in (1 : Fin 3) rfl _

/-- The result array's one block read back is what the body left in the staging buffer. -/
theorem finalA_out (c : Dev nD) : (win0_2.blk (0 : Fin 1)).view.read (Elt F) (finalA m c (2 : Fin 3)) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- The result window's one block is the whole array: reading it reads the array. -/
theorem read_out (c : Dev nD) (f : Buf (Elt F) ((c : Thread nD τ).loc main_v1)) : (win0_2.blk (0 : Fin 1)).view.read (Elt F) f = f :=
  Memref.read_access_unit_zero (Elt F) main_v1 (funext fun a => by fin_cases a <;> decide) (fun a => by fin_cases a <;> decide) f

/-- Every weakly fair execution terminates without a fault with device `c`'s result array at `outAt m c` and both
    argument arrays as they were. -/
theorem run_strong : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (2 : Fin 3)).trans ((read_out c _).symm.trans (finalA_out m c)),
        (h c (0 : Fin 3)).trans (finalA_arg0 m c), (h c (1 : Fin 3)).trans (finalA_arg1 m c)⟩)
    (run_main m ρ)

/-- info: 'Cert.KernelIdeal.Hand.run_strong' depends on axioms: [propext, Classical.choice, Quot.sound] -/
#guard_msgs in #print axioms run_strong

end Cert.KernelIdeal.Hand

end
-- ==== Proof.Spec.lean ====
/-
  The function both programs compute, index by index, on the extended reals.

  A row `y` of 512 entries is normalised by its root mean square and scaled entry by entry:
  entry `j` is `y j / √((Σₖ y k · y k) / 512 + ε) · g j`. The three float literals are kept as their
  words (`512.0` is `0x44000000`, `ε` is `0x358637BD`): the same words stand on both sides and are never
  evaluated. The whole result over the two whole argument arrays `X : [2, 1024, 512]` and `g : [512]` is
  that normalisation of the row `X[0, R, ·] + X[1, R, ·]`.
-/
import Idealize.ShloMosaic.PureOps.Ideal
import Idealize.ShloMosaic.Lib.ValueIdx

noncomputable section

open scoped BigOperators

namespace Cert.RsRms.Spec

open Idealize.ShloMosaic Idealize.ShloMosaic.ValueIdx

/-- One row normalised by its root mean square and scaled by `g`, entry `j`. -/
def rowNorm (y g : Fin 512 → EReal) (j : Fin 512) : EReal :=
  Ideal.div (y j)
    (Ideal.sqrt (Ideal.div (∑ k : Fin 512, y k * y k) (Ideal.ofBits .f32 0x44000000#32) + Ideal.ofBits .f32 0x358637BD#32))
    * g j

/-- Row `R` of the sum of the two halves of `X` along its first axis. -/
def rowSum (X : (⟨3, ![2, 1024, 512]⟩ : Shape).Idx → EReal) (R : Fin 1024) (k : Fin 512) : EReal :=
  X (ix3 (0 : Fin 2) R k) + X (ix3 (1 : Fin 2) R k)

/-- Entry `(R, j)` of the result. -/
def entry (X : (⟨3, ![2, 1024, 512]⟩ : Shape).Idx → EReal) (g : (⟨1, ![512]⟩ : Shape).Idx → EReal) (R : Fin 1024) (j : Fin 512) : EReal :=
  rowNorm (rowSum X R) (fun k => g (ix1 k)) j

/-- The whole result array. -/
def result (X : (⟨3, ![2, 1024, 512]⟩ : Shape).Idx → EReal) (g : (⟨1, ![512]⟩ : Shape).Idx → EReal) :
    (⟨2, ![1024, 512]⟩ : Shape).Idx → EReal :=
  fun i => entry X g (i 0 : Fin 1024) (i 1 : Fin 512)

end Cert.RsRms.Spec

end
-- ==== Proof.RefValue.lean ====
/-
  The reference program's result, read index by index on the extended reals.

  The reference sums the two slices of `X : [2, 1024, 512]` along the first axis, giving rows
  `y R = X[0, R, ·] + X[1, R, ·]`; squares and sums each row, divides by the literal `512.0`, adds the literal
  `ε`, takes the square root, divides the row by it, and scales entry by entry by `g`. On the extended reals
  every float operation is the exact one and a change of float format is the identity, so entry `(R, j)` of
  the result is `y R j / √((Σₖ y R k · y R k) / 512 + ε) · g j`: `Spec.rowNorm` of the summed row. The two
  sums start from the literal zero, which is the real `0`, so they are the plain sums. The literals `512.0`
  and `ε` are kept as their words and never evaluated.
-/
import proofs.«900479_g7700000000000480_dist_rsrms_v7x_xyz2x2x4_y_m512_d512_bf16_1_alg».proof.Defs
import proofs.«900479_g7700000000000480_dist_rsrms_v7x_xyz2x2x4_y_m512_d512_bf16_1_alg».proof.Proof.Gen.ReferenceIdeal
import proofs.«900479_g7700000000000480_dist_rsrms_v7x_xyz2x2x4_y_m512_d512_bf16_1_alg».proof.Proof.Gen.Pre_finite_inputs_ReferenceIdeal
import proofs.«900479_g7700000000000480_dist_rsrms_v7x_xyz2x2x4_y_m512_d512_bf16_1_alg».proof.Proof.Gen.ReferenceIdeal.Run
import proofs.«900479_g7700000000000480_dist_rsrms_v7x_xyz2x2x4_y_m512_d512_bf16_1_alg».proof.Proof.Gen.ReferenceIdeal.Read
import proofs.«900479_g7700000000000480_dist_rsrms_v7x_xyz2x2x4_y_m512_d512_bf16_1_alg».proof.Proof.Spec
import Idealize.ShloMosaic.Lib.ValueIdx
import Idealize.ShloMosaic.PureOps.Ideal
import Idealize.ShloMosaic.PureOps.Ideal.Laws

noncomputable section

open scoped BigOperators

open Idealize.ShloMosaic Idealize.ShloMosaic.TcCoe Idealize.SL.Sem Idealize.ShloMosaic.StableHlo
  Idealize.ShloMosaic.ValueIdx

namespace Cert.RsRms.RefValue

open Cert.ReferenceIdeal Cert.ReferenceIdeal.Gen Cert.ReferenceIdeal.Read Cert.RsRms.Spec

/-! ## Where each layout operation reads -/

/-- The sum over the first axis reads slice `c` at the same row and column. -/
theorem idx_v0 (R : Fin 1024) (k : Fin 512) (c : Fin 2) : idx_main_v0 (ix2 R k) c = ix3 c R k := by
  funext a; match a with | ⟨0, _⟩ => rfl | ⟨1, _⟩ => rfl | ⟨2, _⟩ => rfl

/-- The sum over a row reads the row's entry `k`. -/
theorem idx_v2 (R : Fin 1024) (k : Fin 512) : idx_main_v2 (ix1 R) k = ix2 R k := by
  funext a; match a with | ⟨0, _⟩ => rfl | ⟨1, _⟩ => rfl

/-- A column vector's entry `(R, z)` is the vector's entry `R`. -/
theorem idx_v3 (R : Fin 1024) (z : Fin 1) : idx_main_v3 (ix2 R z) = ix1 R := by
  funext a; match a with | ⟨0, _⟩ => rfl

/-- Spreading a column vector along the rows reads the row's one entry. -/
theorem idx_v9 (R : Fin 1024) (j : Fin 512) : idx_main_v9 (ix2 R j) = ix2 R (0 : Fin 1) := by
  funext a; match a with | ⟨0, _⟩ => rfl | ⟨1, _⟩ => rfl

/-- Spreading `g` over the rows reads `g` at the column. -/
theorem idx_v11_v12 (R : Fin 1024) (j : Fin 512) : idx_main_v11 (idx_main_v12 (ix2 R j)) = ix1 j := by
  funext a; match a with | ⟨0, _⟩ => rfl

/-! ## The stages at an index -/

variable (X : (⟨S2x1024x512, .f32⟩ : BufTy).Contents (Elt Ideal)) (g : (⟨S512, .f32⟩ : BufTy).Contents (Elt Ideal))

/-- The sum of the two slices: the initial value is the real zero, and the sum over `Fin 2` has two terms. -/
theorem v0_apply (R : Fin 1024) (k : Fin 512) : val_main_v0 (F := Ideal) X (ix2 R k) = rowSum X R k := by
  rw [val_main_v0_apply, val_main_cst_apply, Ideal.ofBits_def, Ideal.ofBits_zero_f32, zero_add, Fin.sum_univ_two,
    idx_v0, idx_v0]
  rfl

/-- The sum of a row's squares, again from the real zero. -/
theorem v2_apply (R : Fin 1024) :
    val_main_v2 (F := Ideal) X (ix1 R) = ∑ k : Fin 512, rowSum X R k * rowSum X R k := by
  rw [val_main_v2_apply, val_main_cst_0_apply, Ideal.ofBits_def, Ideal.ofBits_zero_f32, zero_add]
  refine Finset.sum_congr rfl fun k _ => ?_
  rw [idx_v2, val_main_v1_apply, Ideal.mulf_def, v0_apply]

/-- The root of the mean square plus `ε`, one per row. -/
theorem v8_apply (R : Fin 1024) (z : Fin 1) :
    val_main_v8 (F := Ideal) X (ix2 R z)
      = Ideal.sqrt (Ideal.div (∑ k : Fin 512, rowSum X R k * rowSum X R k) (Ideal.ofBits .f32 0x44000000#32)
          + Ideal.ofBits .f32 0x358637BD#32) := by
  rw [val_main_v8_apply, Ideal.hostUnary_sqrt_def, val_main_v7_apply, Ideal.addf_def, val_main_v6_apply,
    val_main_cst_2_apply, Ideal.ofBits_def, val_main_v5_apply, Ideal.hostDivf_def, val_main_v4_apply,
    val_main_cst_1_apply, Ideal.ofBits_def, val_main_v3_apply, idx_v3, v2_apply]

/-- The reference's result is the root-mean-square normalisation of the summed row, entry by entry. -/
theorem val_eq : val_main_v14 (F := Ideal) X g = Cert.RsRms.Spec.result X g := by
  funext i
  obtain ⟨R, j, rfl⟩ : ∃ (R : Fin 1024) (j : Fin 512), i = ix2 R j := ⟨i 0, i 1, eq_ix2 i⟩
  rw [val_main_v14_apply, Ideal.truncf_def, val_main_v13_apply, Ideal.mulf_def, val_main_v10_apply,
    Ideal.hostDivf_def, v0_apply, val_main_v9_apply, idx_v9, v8_apply, val_main_v12_apply, val_main_v11_apply,
    idx_v11_v12]
  rfl

/-- The run's composed term for the result buffer is that function of the two argument arrays. -/
theorem result_eq :
    truncf (F := Ideal) .bf16 (mulf (Host.divf (Host.reduceAdd (X) (constant S_ .f32 0x00000000#32) reducesTo_S2x1024x512_S1024x512_d0 h_S_) (broadcastInDim S1024x512 ![0, 1] bcast_S1024x1_S1024x512_0_1 (Host.sqrt (addf (Host.divf (broadcastInDim S1024x1 ![0] bcast_S1024_S1024x1_0 (Host.reduceAdd (mulf (Host.reduceAdd (X) (constant S_ .f32 0x00000000#32) reducesTo_S2x1024x512_S1024x512_d0 h_S_) (Host.reduceAdd (X) (constant S_ .f32 0x00000000#32) reducesTo_S2x1024x512_S1024x512_d0 h_S_)) (constant S_ .f32 0x00000000#32) reducesTo_S1024x512_S1024_d1 h_S_)) (broadcastInDim S1024x1 ![] bcast_S_S1024x1 (constant S_ .f32 0x44000000#32))) (broadcastInDim S1024x1 ![] bcast_S_S1024x1 (constant S_ .f32 0x358637BD#32)))))) (broadcastInDim S1024x512 ![0, 1] bcast_S1x512_S1024x512_0_1 (broadcastInDim S1x512 ![1] bcast_S512_S1x512_1 (g)))) bitsLt_bf16_f32
      = Cert.RsRms.Spec.result X g :=
  (val_main_v14_eq (F := Ideal) X g).trans (val_eq X g)

/-! ## The reference's run -/

/-- Every weakly fair execution of the reference terminates with its result array holding the normalisation of the
    summed rows of its two argument arrays as they stood at launch, and the argument arrays unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = Cert.RsRms.Spec.result (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => ⟨(h 0).1.trans (result_eq _ _), (h 0).2⟩)
    (Cert.ReferenceIdeal.Value.run (F := Ideal) m' g')

/-- The reference runs and leaves its argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.RsRms.RefValue

end
-- ==== Proof.ChunkValue.lean ====
/-
  The arithmetic of one chunk, index by index.

  Every chunk of 64 rows goes through one and the same sequence of operations with the same three literal words,
  so the eight payloads that are sent are one function of the loaded block, and the eight results are one
  function of the three loaded values: the device's own rows `a : [1, 64, 512]`, the received rows
  `b : [1, 64, 512]` and the scaling vector `g : [512]`. On the extended reals, where a change of format is the
  identity, what is sent is the block itself, and entry `(r, j)` of the result is
  `y j / √((Σₖ y k · y k) / 512 + ε) · g j` for the row `y k = a[0, r, k] + b[0, r, k]`.
-/
import proofs.«900479_g7700000000000480_dist_rsrms_v7x_xyz2x2x4_y_m512_d512_bf16_1_alg».proof.Proof.Gen.KernelIdeal.Skeleton
import proofs.«900479_g7700000000000480_dist_rsrms_v7x_xyz2x2x4_y_m512_d512_bf16_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RsRms.ChunkValue

open Idealize.ShloMosaic Idealize.ShloMosaic.ValueIdx Cert.KernelIdeal Cert.KernelIdeal.Gen

section Generic

variable {F : FTy → Type} [FloatOps F]

/-- The eight sent payloads are one function of the loaded block. -/
theorem send2_eq : k0_pay2 (F := F) = k0_pay1 := rfl
theorem send3_eq : k0_pay3 (F := F) = k0_pay1 := rfl
theorem send4_eq : k0_pay4 (F := F) = k0_pay1 := rfl
theorem send5_eq : k0_pay5 (F := F) = k0_pay1 := rfl
theorem send6_eq : k0_pay6 (F := F) = k0_pay1 := rfl
theorem send7_eq : k0_pay7 (F := F) = k0_pay1 := rfl
theorem send8_eq : k0_pay8 (F := F) = k0_pay1 := rfl

/-- The results of the first four chunks are one function of the three loaded values. -/
theorem pay10_eq : k0_pay10 (F := F) = k0_pay9 := rfl
theorem pay11_eq : k0_pay11 (F := F) = k0_pay9 := rfl
theorem pay12_eq : k0_pay12 (F := F) = k0_pay9 := rfl

/-- The last four chunks compute the same function, their operations grouped in three pieces each. -/
theorem chunk4_eq (a : Vec F S1x64x512 .f32) (b : Vec F S1x64x512 .bf16) (g : Vec F S512 .f32) :
    k0_pay15 (k0_pay13 a b) (k0_pay14 g) = k0_pay9 a b g := rfl
theorem chunk5_eq (a : Vec F S1x64x512 .f32) (b : Vec F S1x64x512 .bf16) (g : Vec F S512 .f32) :
    k0_pay18 (k0_pay16 a b) (k0_pay17 a b) g = k0_pay9 a b g := rfl
theorem chunk6_eq (a : Vec F S1x64x512 .f32) (b : Vec F S1x64x512 .bf16) (g : Vec F S512 .f32) :
    k0_pay21 (k0_pay19 a b) (k0_pay20 a b) g = k0_pay9 a b g := rfl
theorem chunk7_eq (a : Vec F S1x64x512 .f32) (b : Vec F S1x64x512 .bf16) (g : Vec F S512 .f32) :
    k0_pay24 (k0_pay22 a b) (k0_pay23 a b) g = k0_pay9 a b g := rfl

end Generic

section Layout

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a reduction of the second axis of an `[a, b]` array, the source index above row `r` with coordinate `k` on
the reduced axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

end Layout

section AtIdeal

/-- The lane sum of a `[64, 512]` block over its second axis, read at row `r`: the sum of that row's entries. -/
theorem rowSum_apply (src : FVec Ideal S64x512 .f32) (h : S64x512.Reduces [1] S64) (hφ : FKind.Formats .f32)
    (hacc : (0x00000000#32 : BitVec (FTy.bits .f32)) = FKind.add.neutral .f32 hφ) (r : Fin 64) :
    multiReduction (F := Ideal) .add [1] S64 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (lift_row h r k)

/-- What is sent is the block itself: the two casts of shape cancel and the change of format is the identity on
the extended reals. -/
theorem send_apply (v : Vec Ideal S1x64x512 .f32) (r : Fin 64) (j : Fin 512) :
    k0_pay1 (F := Ideal) v (ix3 (0 : Fin 1) r j) = v (ix3 (0 : Fin 1) r j) := by
  unfold k0_pay1
  refine (shapeCast_ab_1ab_apply _ _ (0 : Fin 1) r j).trans ?_
  refine (truncf_apply (φ := .f32) (ψ := .bf16) _ bitsLt_bf16_f32 _).trans ?_
  exact shapeCast_1ab_ab_apply v _ r j

/-- The block of summed rows: the device's own rows plus the rows it received. -/
def blockSum (a : Vec Ideal S1x64x512 .f32) (b : Vec Ideal S1x64x512 .bf16) : FVec Ideal S64x512 .f32 :=
  addf (shapeCast S64x512 a shapeCasts_S1x64x512_S64x512)
    (extf .f32 (shapeCast S64x512 b shapeCasts_S1x64x512_S64x512) bitsLt_bf16_f32)

/-- The column of row scales of a block `y`: `√((Σₖ y[r,k]²) / 512 + ε)` at row `r`, the two literals kept as
their words. -/
def blockRms (y : FVec Ideal S64x512 .f32) : FVec Ideal S64x1 .f32 :=
  sqrt (addf
    (divf
      (shapeCast S64x1 (multiReduction .add [1] S64 (mulf y y) 0x00000000#32 reduces_S64x512_S64 (.inl rfl) rfl)
        shapeCasts_S64_S64x1)
      (broadcast S64x1 (Scalar.ofBits .f32 0x44000000#32)))
    (broadcast S64x1 (Scalar.ofBits .f32 0x358637BD#32)))

/-- The scaling vector `g` repeated over the 64 rows. -/
def gammaRows (g : Vec Ideal S512 .f32) : FVec Ideal S64x512 .f32 :=
  broadcastTo S64x512 (shapeCast S1x512 (shapeCast S512 g shapeCasts_S512_S512) shapeCasts_S512_S1x512)
    broadcasts_S1x512_S64x512

/-- The chunk's computation is: summed block, divided by its column of row scales, times the repeated `g`. -/
theorem pay9_eq (a : Vec Ideal S1x64x512 .f32) (b : Vec Ideal S1x64x512 .bf16) (g : Vec Ideal S512 .f32) :
    k0_pay9 (F := Ideal) a b g
      = truncf .bf16
          (mulf (divf (blockSum a b) (broadcastTo S64x512 (blockRms (blockSum a b)) broadcasts_S64x1_S64x512))
            (gammaRows g))
          bitsLt_bf16_f32 := rfl

/-- The summed block at `(r, k)`: the own entry plus the received entry. -/
theorem blockSum_apply (a : Vec Ideal S1x64x512 .f32) (b : Vec Ideal S1x64x512 .bf16) (r : Fin 64) (k : Fin 512) :
    blockSum a b (ix2 r k) = a (ix3 (0 : Fin 1) r k) + b (ix3 (0 : Fin 1) r k) := by
  unfold blockSum
  refine (addf_apply _ _ _).trans ?_
  refine congrArg₂ (· + ·) (shapeCast_1ab_ab_apply a _ r k) ?_
  refine (extf_apply (φ := .bf16) (ψ := .f32) _ bitsLt_bf16_f32 _).trans ?_
  exact shapeCast_1ab_ab_apply b _ r k

/-- The column of row scales at row `r`: the lane sum is the sum over the row, the two literals stay words. -/
theorem blockRms_apply (y : FVec Ideal S64x512 .f32) (r : Fin 64) :
    blockRms y (ix2 r (0 : Fin 1))
      = Ideal.sqrt (Ideal.div (∑ k : Fin 512, y (ix2 r k) * y (ix2 r k)) (Ideal.ofBits .f32 0x44000000#32)
          + Ideal.ofBits .f32 0x358637BD#32) := by
  unfold blockRms
  show Ideal.sqrt (Ideal.div
      (shapeCast S64x1 (multiReduction (F := Ideal) .add [1] S64 (mulf y y) 0x00000000#32 reduces_S64x512_S64 (.inl rfl) rfl)
        shapeCasts_S64_S64x1 (ix2 r (0 : Fin 1)))
      (Ideal.ofBits .f32 0x44000000#32) + Ideal.ofBits .f32 0x358637BD#32) = _
  rw [shapeCast_a_a1_apply]
  refine congrArg
    (fun s => Ideal.sqrt (Ideal.div s (Ideal.ofBits .f32 0x44000000#32) + Ideal.ofBits .f32 0x358637BD#32)) ?_
  exact rowSum_apply (mulf y y) reduces_S64x512_S64 (.inl rfl) rfl r

/-- The repeated scaling vector at `(r, j)` is `g j`. -/
theorem gammaRows_apply (g : Vec Ideal S512 .f32) (r : Fin 64) (j : Fin 512) :
    gammaRows g (ix2 r j) = g (ix1 j) := by
  unfold gammaRows
  refine (broadcastTo_1b_ab_apply _ _ r j).trans ?_
  refine (shapeCast_a_1a_apply _ _ (0 : Fin 1) j).trans ?_
  rw [shapeCast_self]

/-- Entry `(r, j)` of a chunk's result: row `r` of the summed block, normalised by its root mean square and
scaled by `g`. -/
theorem chunk_apply (a : Vec Ideal S1x64x512 .f32) (b : Vec Ideal S1x64x512 .bf16) (g : Vec Ideal S512 .f32)
    (r : Fin 64) (j : Fin 512) :
    k0_pay9 (F := Ideal) a b g (ix2 r j)
      = Cert.RsRms.Spec.rowNorm (fun k => a (ix3 (0 : Fin 1) r k) + b (ix3 (0 : Fin 1) r k)) (fun k => g (ix1 k)) j := by
  rw [pay9_eq]
  refine (truncf_apply (φ := .f32) (ψ := .bf16) _ bitsLt_bf16_f32 _).trans ?_
  refine (mulf_apply _ _ _).trans ?_
  refine congrArg₂ (· * ·) ?_ (gammaRows_apply g r j)
  refine (divf_apply _ _ _).trans ?_
  rw [broadcastTo_a1_ab_apply, blockRms_apply, blockSum_apply]
  simp only [blockSum_apply]

end AtIdeal

end Cert.RsRms.ChunkValue

end
-- ==== Proof.Join.lean ====
/-
  A device's blocks of the whole arrays, by coordinates.

  The sixteen devices are numbered row-major over a mesh of sizes `[2, 2, 4]`: device `c` sits at
  `(c / 8, (c / 4) % 2, c % 4)`. The arrays are cut in two along their first axis by the middle mesh axis, so the
  device's block is the half its middle coordinate `y = (c / 4) % 2` names: of the argument `[2, 1024, 512]` the
  slice `X[y, ·, ·]`, of the result `[1024, 512]` the rows `512·y + r`. The device's partner is the device with
  the middle coordinate flipped and the other two the same, and it holds the other half. The normalised sum of a
  row's two halves does not depend on which half is named first, since addition on the extended reals commutes.
-/
import proofs.«900479_g7700000000000480_dist_rsrms_v7x_xyz2x2x4_y_m512_d512_bf16_1_alg».proof.Defs
import proofs.«900479_g7700000000000480_dist_rsrms_v7x_xyz2x2x4_y_m512_d512_bf16_1_alg».proof.Proof.Spec
import Idealize.ShloMosaic.Lib.Layout
import Idealize.ShloMosaic.Lib.ValueIdx

noncomputable section

open scoped BigOperators

open Idealize.ShloMosaic Idealize.ShloMosaic.ValueIdx

namespace Cert.RsRms.Join

open Cert.RsRms.Spec

/-! ## The device's middle mesh coordinate and its partner -/

/-- Device `c`'s coordinate on the middle axis of the mesh `[2, 2, 4]`. -/
abbrev yOf (c : Dev 16) : Fin 2 := ⟨(c.val / 4) % 2, Nat.mod_lt _ (by decide)⟩

/-- The device with the middle coordinate flipped: `4` further on when that coordinate is `0`, `4` back when it is `1`. -/
abbrev peer (c : Dev 16) : Dev 16 :=
  ⟨(8 * (c.val / 8) + (c.val % 4) + 4) - 4 * ((c.val / 4) % 2), by have := c.isLt; omega⟩

/-- The partner's middle coordinate is the other one. -/
theorem peer_y (c : Dev 16) : (yOf (peer c)).val = 1 - (yOf c).val := by
  revert c; decide

/-- Row `r` of half `y` of an array of `1024` rows. -/
abbrev rowOf (y : Fin 2) (r : Fin 512) : Fin 1024 :=
  ⟨512 * y.val + r.val, by have := y.isLt; have := r.isLt; omega⟩

/-! ## The block coordinates the mesh gives a device -/

/-- Along an axis cut by the middle mesh axis the device holds block `(c / 4) % 2`. -/
theorem meshLin_cut (c : Dev 16) : Layout.meshLin [2, 2, 4] c.val [1] = (c.val / 4) % 2 := by
  revert c; decide

/-! ## The blocks, index by index -/

/-- The device's block of the argument array is the slice its middle coordinate names. -/
theorem arg_block {α : Type} (c : Dev Cert.KernelIdeal.nD) (X : (⟨3, ![2, 1024, 512]⟩ : Shape).Idx → α) :
    Layout.blockN ⟨3, ![1, 1024, 512]⟩ ⟨3, ![2, 1024, 512]⟩ (Layout.meshBlock [2, 2, 4] ![[1], [], []] c) X
      = fun i => X (ix3 (yOf c) (i 1 : Fin 1024) (i 2 : Fin 512)) := by
  funext i
  refine congrArg X (funext fun b => Fin.ext ?_)
  match b with
  | ⟨0, _⟩ =>
    have hi : (i 0).val = 0 := Nat.lt_one_iff.mp (i 0).isLt
    show Layout.meshLin [2, 2, 4] c.val [1] * 1 + (i 0).val = (c.val / 4) % 2
    rw [meshLin_cut, hi, Nat.mul_one, Nat.add_zero]
  | ⟨1, _⟩ =>
    show 0 * 1024 + (i 1).val = (i 1).val
    rw [Nat.zero_mul, Nat.zero_add]
  | ⟨2, _⟩ =>
    show 0 * 512 + (i 2).val = (i 2).val
    rw [Nat.zero_mul, Nat.zero_add]

/-- The device's block of the result array is the half of the rows its middle coordinate names. -/
theorem res_block {α : Type} (c : Dev Cert.KernelIdeal.nD) (V : (⟨2, ![1024, 512]⟩ : Shape).Idx → α) :
    Layout.blockN ⟨2, ![512, 512]⟩ ⟨2, ![1024, 512]⟩ (Layout.meshBlock [2, 2, 4] ![[1], []] c) V
      = fun i => V (ix2 (rowOf (yOf c) (i 0 : Fin 512)) (i 1 : Fin 512)) := by
  funext i
  refine congrArg V (funext fun b => Fin.ext ?_)
  match b with
  | ⟨0, _⟩ =>
    show Layout.meshLin [2, 2, 4] c.val [1] * 512 + (i 0).val = 512 * ((c.val / 4) % 2) + (i 0).val
    rw [meshLin_cut, Nat.mul_comm]
  | ⟨1, _⟩ =>
    show 0 * 512 + (i 1).val = (i 1).val
    rw [Nat.zero_mul, Nat.zero_add]

/-! ## The sum of the two halves, whichever is named first -/

/-- The row summed from half `y` and the other half is the row summed from half `0` and half `1`. -/
theorem row_eq (X : (⟨3, ![2, 1024, 512]⟩ : Shape).Idx → EReal) (y : Fin 2) (R' : Fin 1024) :
    (fun k : Fin 512 => X (ix3 y R' k) + X (ix3 (1 - y) R' k)) = rowSum X R' := by
  funext k
  fin_cases y
  · rfl
  · exact add_comm _ _

/-- So its normalisation is the result's entry. -/
theorem entry_eq (X : (⟨3, ![2, 1024, 512]⟩ : Shape).Idx → EReal) (g : (⟨1, ![512]⟩ : Shape).Idx → EReal)
    (y : Fin 2) (R' : Fin 1024) (j : Fin 512) :
    rowNorm (fun k => X (ix3 y R' k) + X (ix3 (1 - y) R' k)) (fun k => g (ix1 k)) j = entry X g R' j := by
  rw [row_eq]; rfl

end Cert.RsRms.Join

end
-- ==== Proof.KernelIdealValue.lean ====
/-
  The value each device leaves, entry by entry.

  Device `c` sits at middle mesh coordinate `y`; its staged argument is the slice `X[y, ·, ·]` of the whole array and its
  partner's is `X[1 - y, ·, ·]`. In chunk `k` it reads rows `512·y + 64·k … + 63` of its own slice and receives the same
  rows of its partner's slice, so row `r` of block `k` of its result is the normalised sum of the two halves of row
  `512·y + 64·k + r` of the whole array, scaled by `g`: the entry the reference computes for that row.
-/
import proofs.«900479_g7700000000000480_dist_rsrms_v7x_xyz2x2x4_y_m512_d512_bf16_1_alg».proof.Proof.KernelIdealData
import proofs.«900479_g7700000000000480_dist_rsrms_v7x_xyz2x2x4_y_m512_d512_bf16_1_alg».proof.Proof.ChunkValue
import proofs.«900479_g7700000000000480_dist_rsrms_v7x_xyz2x2x4_y_m512_d512_bf16_1_alg».proof.Proof.Join
import proofs.«900479_g7700000000000480_dist_rsrms_v7x_xyz2x2x4_y_m512_d512_bf16_1_alg».proof.Defs

noncomputable section

open scoped BigOperators

namespace Cert.RsRms.Value

open Idealize.ShloMosaic Idealize.ShloMosaic.ValueIdx
open Cert.KernelIdeal Cert.KernelIdeal.Gen
open Cert.RsRms.Join (yOf rowOf)

/-! ## The staged arguments -/

/-- The staged first argument is the device's argument buffer: the window's one block is the whole array. -/
theorem xstg_eq (m : (ℓ : Loc nD τ sig) → Buf (Elt Ideal) ℓ) (c : Dev nD) :
    Hand.xstg (F := Ideal) m c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz _ _

/-- The staged second argument is the device's copy of the scaling vector. -/
theorem gstg_eq (m : (ℓ : Loc nD τ sig) → Buf (Elt Ideal) ℓ) (c : Dev nD) :
    Hand.gstg (F := Ideal) m c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz _ _

/-! ## The partner, and what is sent -/

/-- The partner's middle mesh coordinate is the other one. -/
theorem peer_y (c : Dev nD) : yOf (Hand.peer c) = 1 - yOf c := by
  revert c; decide

/-- What is sent is the block itself, at every index. -/
theorem send_all (v : Vec Ideal S1x64x512 .f32) (y : S1x64x512.Idx) : k0_pay1 (F := Ideal) v y = v y := by
  have hy : y = ix3 (0 : Fin 1) (y 1 : Fin 64) (y 2 : Fin 512) :=
    (eq_ix3 y).trans (congrArg (fun u : Fin 1 => ix3 u (y 1 : Fin 64) (y 2 : Fin 512)) (Subsingleton.elim _ _))
  exact (congrArg (k0_pay1 (F := Ideal) v) hy).trans
    ((ChunkValue.send_apply v (y 1 : Fin 64) (y 2 : Fin 512)).trans (congrArg v hy.symm))

/-- Entry `(k, r, j)` of what a device's send buffer holds is entry `(0, r, j)` of the rows it sends in chunk `k`. -/
theorem sentC_apply (m : (ℓ : Loc nD τ sig) → Buf (Elt Ideal) ℓ) (c : Dev nD) (k : Fin 8) (r : Fin 64) (j : Fin 512) :
    Hand.sentC (F := Ideal) m c (ix3 k r j) = Hand.sendRows m c k (ix3 (0 : Fin 1) r j) := by
  unfold Hand.sentC
  refine (send_all _ _).trans ?_
  exact congrArg (Hand.sendRows m c k) (eq_ix3 _)

section Agree

variable (m : (ℓ : Loc nD τ sig) → Buf (Elt Ideal) ℓ)
  (X : (⟨3, ![2, 1024, 512]⟩ : Shape).Idx → EReal) (g : (⟨1, ![512]⟩ : Shape).Idx → EReal)
  (hagree : ∀ c : Dev nD,
    m ((c.tc : Thread nD τ).loc main_arg0)
        = Layout.blockN ⟨3, ![1, 1024, 512]⟩ ⟨3, ![2, 1024, 512]⟩ (Layout.meshBlock [2, 2, 4] ![[1], [], []] c) X
      ∧ m ((c.tc : Thread nD τ).loc main_arg1) = g)

include hagree

/-- Entry `(0, R, j)` of device `c`'s staged argument is `X[y, R, j]`, `y` its middle mesh coordinate. -/
theorem x_at (c : Dev nD) (R : Fin 1024) (j : Fin 512) :
    Hand.xstg (F := Ideal) m c (ix3 (0 : Fin 1) R j) = X (ix3 (yOf c) R j) :=
  (congrFun (xstg_eq m c) (ix3 (0 : Fin 1) R j)).trans
    ((congrFun (hagree c).1 (ix3 (0 : Fin 1) R j)).trans
      (congrFun (Join.arg_block c X) (ix3 (0 : Fin 1) R j)))

/-- The scaling vector every device loads is `g`. -/
theorem gamma_eq (c : Dev nD) : Hand.gRow (F := Ideal) m c = g := by
  unfold Hand.gRow
  exact (Hand.load_gamma inb_S512_S512_0 (Hand.gstg m c)).trans ((gstg_eq m c).trans (hagree c).2)

/-- Row `r` of the own rows of chunk `k` is row `64 k + r` of the device's own half. -/
theorem own_apply (c : Dev nD) (k : Fin 8) (r : Fin 64) (q : Fin 512) (hq : q.val = 64 * k.val + r.val) (j : Fin 512) :
    Hand.ownRows (F := Ideal) m c k (ix3 (0 : Fin 1) r j) = X (ix3 (yOf c) (rowOf (yOf c) q) j) := by
  have hoff := Gen.k0_off2_eq c k
  have h0 : (k0_off2 c (BitVec.ofNat 32 (64 * k.val))) 0 = 0 := congrFun hoff 0
  have h1 : (k0_off2 c (BitVec.ofNat 32 (64 * k.val))) 1 = 512 * ((c.val / 4) % 2) + 64 * k.val := congrFun hoff 1
  have h2 : (k0_off2 c (BitVec.ofNat 32 (64 * k.val))) 2 = 0 := congrFun hoff 2
  unfold Hand.ownRows
  refine (Hand.load_rows _ (k0_off2_inb c k) h0 h2 (Hand.xstg m c) r j).trans ?_
  refine (x_at m X g hagree c _ j).trans ?_
  refine congrArg (fun R => X (ix3 (yOf c) R j)) (Fin.ext ?_)
  show (k0_off2 c (BitVec.ofNat 32 (64 * k.val))) 1 + r.val = 512 * ((c.val / 4) % 2) + q.val
  rw [h1, hq]
  omega

/-- Row `r` of the rows received in chunk `k` is the same row `64 k + r` of the device's half, taken from the
partner's slice of the array. -/
theorem recv_apply (c : Dev nD) (k : Fin 8) (r : Fin 64) (q : Fin 512) (hq : q.val = 64 * k.val + r.val) (j : Fin 512) :
    Hand.recvRows (F := Ideal) m c k (ix3 (0 : Fin 1) r j) = X (ix3 (1 - yOf c) (rowOf (yOf c) q) j) := by
  have hoff := Gen.k0_off1_eq (Hand.peer c) k
  have h0 : (k0_off1 (Hand.peer c) (BitVec.ofNat 32 (64 * k.val))) 0 = 0 := congrFun hoff 0
  have h1 : (k0_off1 (Hand.peer c) (BitVec.ofNat 32 (64 * k.val))) 1
      = (64 * k.val + 512) - 512 * (((Hand.peer c).val / 4) % 2) := congrFun hoff 1
  have h2 : (k0_off1 (Hand.peer c) (BitVec.ofNat 32 (64 * k.val))) 2 = 0 := congrFun hoff 2
  have hy : (yOf (Hand.peer c)).val = 1 - (yOf c).val := Join.peer_y c
  have hy2 : (yOf c).val < 2 := (yOf c).isLt
  unfold Hand.recvRows
  refine (Hand.load_chunk_r k (Hand.recvC m c) r j).trans ?_
  show Hand.sentC m (Hand.peer c) (ix3 k r j) = _
  refine (sentC_apply m (Hand.peer c) k r j).trans ?_
  unfold Hand.sendRows
  refine (Hand.load_rows _ (k0_off1_inb (Hand.peer c) k) h0 h2 (Hand.xstg m (Hand.peer c)) r j).trans ?_
  refine (x_at m X g hagree (Hand.peer c) _ j).trans ?_
  rw [peer_y]
  refine congrArg (fun R => X (ix3 (1 - yOf c) R j)) (Fin.ext ?_)
  show (k0_off1 (Hand.peer c) (BitVec.ofNat 32 (64 * k.val))) 1 + r.val = 512 * (yOf c).val + q.val
  rw [h1, hq]
  have hy' : ((Hand.peer c).val / 4) % 2 = 1 - (yOf c).val := hy
  rw [hy']
  omega

/-- The device's result is its block of the whole result. -/
theorem out_value (c : Dev nD) :
    Hand.outAt (F := Ideal) m c
      = Layout.blockN ⟨2, ![512, 512]⟩ ⟨2, ![1024, 512]⟩ (Layout.meshBlock [2, 2, 4] ![[1], []] c) (Spec.result X g) := by
  funext i
  refine Eq.trans ?_ (congrFun (Join.res_block c (Spec.result X g)) i).symm
  have hi : (i 0).val < 512 := (i 0).isLt
  show Hand.outOf (Hand.outW m c) i = Spec.entry X g (rowOf (yOf c) (i 0 : Fin 512)) (i 1 : Fin 512)
  rw [Hand.outOf_apply]
  unfold Hand.outW
  refine (ChunkValue.chunk_apply (Hand.ownRows m c ⟨(i 0).val / 64, by omega⟩) (Hand.recvRows m c ⟨(i 0).val / 64, by omega⟩)
    (Hand.gRow m c) ⟨(i 0).val % 64, Nat.mod_lt _ (by decide)⟩ (i 1 : Fin 512)).trans ?_
  have hq : ((i 0 : Fin 512)).val = 64 * ((i 0).val / 64) + (i 0).val % 64 := (Nat.div_add_mod _ 64).symm
  have e1 : (fun j' : Fin 512 =>
        Hand.ownRows (F := Ideal) m c ⟨(i 0).val / 64, by omega⟩ (ix3 (0 : Fin 1) ⟨(i 0).val % 64, Nat.mod_lt _ (by decide)⟩ j')
          + Hand.recvRows (F := Ideal) m c ⟨(i 0).val / 64, by omega⟩ (ix3 (0 : Fin 1) ⟨(i 0).val % 64, Nat.mod_lt _ (by decide)⟩ j'))
      = fun j' : Fin 512 => X (ix3 (yOf c) (rowOf (yOf c) (i 0 : Fin 512)) j') + X (ix3 (1 - yOf c) (rowOf (yOf c) (i 0 : Fin 512)) j') :=
    funext fun j' => congrArg₂ (· + ·)
      (own_apply m X g hagree c _ _ (i 0 : Fin 512) hq j')
      (recv_apply m X g hagree c _ _ (i 0 : Fin 512) hq j')
  refine (congrArg₂ (fun a b => Spec.rowNorm a b (i 1 : Fin 512)) e1
    (congrArg (fun (G : (⟨1, ![512]⟩ : Shape).Idx → EReal) => fun k : Fin 512 => G (ix1 k)) (gamma_eq m X g hagree c))).trans ?_
  exact Join.entry_eq X g (yOf c) (rowOf (yOf c) (i 0 : Fin 512)) (i 1 : Fin 512)

end Agree

end Cert.RsRms.Value

end
-- ==== Proof.lean ====
/-
  The five claims, assembled.

  Sixteen devices in eight pairs exchange halves: each device sends, in eight chunks, the rows of its block that its
  partner owns, adds what it receives to its own half, and normalises each row by its root mean square. The protocol
  (entry handshake on the barrier semaphore, eight addressed copies, their sixteen waits) terminates on every fair
  schedule and leaves each device's result array at a named function of the two partners' arguments; that run is
  proved once for any float instance. The two kernel frames are it with the value dropped, at the word-level and at
  the ideal instance. The ideal pass rewrote nothing, so there is nothing to preserve. On the extended reals the named
  function at device `c` is block `c` of the reference's result: the row sum is `+` in either order, and the
  normalisation is the same operations with the same literals on both sides.
-/
import proofs.«900479_g7700000000000480_dist_rsrms_v7x_xyz2x2x4_y_m512_d512_bf16_1_alg».proof.Defs
import proofs.«900479_g7700000000000480_dist_rsrms_v7x_xyz2x2x4_y_m512_d512_bf16_1_alg».proof.Proof.Gen.Kernel
import proofs.«900479_g7700000000000480_dist_rsrms_v7x_xyz2x2x4_y_m512_d512_bf16_1_alg».proof.Proof.Gen.Kernel.Skeleton
import proofs.«900479_g7700000000000480_dist_rsrms_v7x_xyz2x2x4_y_m512_d512_bf16_1_alg».proof.Proof.Gen.Kernel.Launch
import proofs.«900479_g7700000000000480_dist_rsrms_v7x_xyz2x2x4_y_m512_d512_bf16_1_alg».proof.Proof.Gen.Kernel.Points
import proofs.«900479_g7700000000000480_dist_rsrms_v7x_xyz2x2x4_y_m512_d512_bf16_1_alg».proof.Proof.Gen.Kernel.Frame
import proofs.«900479_g7700000000000480_dist_rsrms_v7x_xyz2x2x4_y_m512_d512_bf16_1_alg».proof.Proof.Gen.KernelIdeal
import proofs.«900479_g7700000000000480_dist_rsrms_v7x_xyz2x2x4_y_m512_d512_bf16_1_alg».proof.Proof.Gen.KernelIdeal.Skeleton
import proofs.«900479_g7700000000000480_dist_rsrms_v7x_xyz2x2x4_y_m512_d512_bf16_1_alg».proof.Proof.Gen.KernelIdeal.Launch
import proofs.«900479_g7700000000000480_dist_rsrms_v7x_xyz2x2x4_y_m512_d512_bf16_1_alg».proof.Proof.Gen.KernelIdeal.Points
import proofs.«900479_g7700000000000480_dist_rsrms_v7x_xyz2x2x4_y_m512_d512_bf16_1_alg».proof.Proof.Gen.KernelIdeal.Frame
import proofs.«900479_g7700000000000480_dist_rsrms_v7x_xyz2x2x4_y_m512_d512_bf16_1_alg».proof.Proof.Gen.ReferenceIdeal
import proofs.«900479_g7700000000000480_dist_rsrms_v7x_xyz2x2x4_y_m512_d512_bf16_1_alg».proof.Proof.Gen.ReferenceIdeal.Run
import proofs.«900479_g7700000000000480_dist_rsrms_v7x_xyz2x2x4_y_m512_d512_bf16_1_alg».proof.Proof.Gen.ReferenceIdeal.Read
import proofs.«900479_g7700000000000480_dist_rsrms_v7x_xyz2x2x4_y_m512_d512_bf16_1_alg».proof.Proof.Gen.Pre_finite_inputs_Kernel
import proofs.«900479_g7700000000000480_dist_rsrms_v7x_xyz2x2x4_y_m512_d512_bf16_1_alg».proof.Proof.Gen.Pre_finite_inputs_ReferenceIdeal
import proofs.«900479_g7700000000000480_dist_rsrms_v7x_xyz2x2x4_y_m512_d512_bf16_1_alg».proof.Proof.KernelFinal
import proofs.«900479_g7700000000000480_dist_rsrms_v7x_xyz2x2x4_y_m512_d512_bf16_1_alg».proof.Proof.KernelIdealFinal
import proofs.«900479_g7700000000000480_dist_rsrms_v7x_xyz2x2x4_y_m512_d512_bf16_1_alg».proof.Proof.RefValue
import proofs.«900479_g7700000000000480_dist_rsrms_v7x_xyz2x2x4_y_m512_d512_bf16_1_alg».proof.Proof.KernelIdealValue
import Idealize.ShloMosaic.Adequacy
import Idealize.ShloMosaic.Init

noncomputable section

namespace Cert.Proof

open Idealize.ShloMosaic Idealize.SL.Sem

/-- The word-level kernel runs to the end without a fault and leaves its arguments unchanged. -/
theorem frame_k : Cert.frame_Kernel := fun m ρ _ =>
  (θ_run (Cert.Kernel.defs (F := Bits)) _ _).mono (fun _ h c => (h c).2) (Cert.Kernel.Hand.run_strong (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_strong (F := Ideal) m ρ)

/-- The ideal pass rewrote no operation. -/
theorem preserves : Cert.preserves_Kernel_KernelIdeal := trivial

/-- From memories where each device holds its block of the first argument and a copy of the second, the idealized kernel
    leaves each device's result at its block of the reference's result. -/
theorem algebraic : Cert.algebraic_KernelIdeal_ReferenceIdeal := by
  intro m g m' g' _ hagree
  refine ⟨Cert.RsRms.Spec.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    Cert.RsRms.RefValue.ref_run m' g'⟩
  exact (θ_run (Cert.KernelIdeal.defs (F := Ideal)) _ _).mono
    (fun _ h c => ⟨(h c).1.trans (Cert.RsRms.Value.out_value m _ _ hagree c), (h c).2⟩)
    (Cert.KernelIdeal.Hand.run_strong (F := Ideal) m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RsRms.RefValue.frame_ri, preserves, algebraic⟩

end Cert.Proof

end
